-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S100000x128 : Shape := ⟨2, ![100000, 128]⟩
abbrev S4096x50 : Shape := ⟨2, ![4096, 50]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S100000x128 .f32) (main_arg3 : IVec S4096x50 32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S100000x128 : Shape := ⟨2, ![100000, 128]⟩
abbrev S4096x50 : Shape := ⟨2, ![4096, 50]⟩
abbrev S4096 : Shape := ⟨1, ![4096]⟩
abbrev S_ : Shape := ⟨0, ![]⟩
abbrev S1x128 : Shape := ⟨2, ![1, 128]⟩
abbrev S100001x128 : Shape := ⟨2, ![100001, 128]⟩
abbrev S4096x50x1 : Shape := ⟨3, ![4096, 50, 1]⟩
abbrev S4096x50x128 : Shape := ⟨3, ![4096, 50, 128]⟩
abbrev S4096x128 : Shape := ⟨2, ![4096, 128]⟩
abbrev S4096x1 : Shape := ⟨2, ![4096, 1]⟩
abbrev S1024x1024 : Shape := ⟨2, ![1024, 1024]⟩
abbrev S1024x128 : Shape := ⟨2, ![1024, 128]⟩
abbrev S1x4096x128 : Shape := ⟨3, ![1, 4096, 128]⟩
abbrev S4x4096x128 : Shape := ⟨3, ![4, 4096, 128]⟩

abbrev nBuf : Space → Nat
  | .hbm => 36
  | .vmem => 28
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S100000x128, .f32⟩
  | .hbm, ⟨3, _⟩ => ⟨S4096x50, .i32⟩
  | .hbm, ⟨4, _⟩ => ⟨S4096, .f32⟩
  | .hbm, ⟨5, _⟩ => ⟨S_, .f32⟩
  | .hbm, ⟨6, _⟩ => ⟨S1x128, .f32⟩
  | .hbm, ⟨7, _⟩ => ⟨S100001x128, .f32⟩
  | .hbm, ⟨8, _⟩ => ⟨S_, .i32⟩
  | .hbm, ⟨9, _⟩ => ⟨S4096x50, .i32⟩
  | .hbm, ⟨10, _⟩ => ⟨S4096x50, .i1⟩
  | .hbm, ⟨11, _⟩ => ⟨S_, .i32⟩
  | .hbm, ⟨12, _⟩ => ⟨S4096x50, .i32⟩
  | .hbm, ⟨13, _⟩ => ⟨S4096x50, .i32⟩
  | .hbm, ⟨14, _⟩ => ⟨S4096x50, .i32⟩
  | .hbm, ⟨15, _⟩ => ⟨S4096x50x1, .i32⟩
  | .hbm, ⟨16, _⟩ => ⟨S4096x50x128, .f32⟩
  | .hbm, ⟨17, _⟩ => ⟨S_, .f32⟩
  | .hbm, ⟨18, _⟩ => ⟨S4096x128, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S4096x4096, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S1x4096x128, .f32⟩
  | .hbm, ⟨27, _⟩ => ⟨S1x4096x128, .f32⟩
  | .hbm, ⟨28, _⟩ => ⟨S1x4096x128, .f32⟩
  | .hbm, ⟨29, _⟩ => ⟨S1x4096x128, .f32⟩
  | .hbm, ⟨30, _⟩ => ⟨S4x4096x128, .f32⟩
  | .hbm, ⟨31, _⟩ => ⟨S_, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S4096x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .f32⟩
  | .local _ .vmem, ⟨15, _⟩ => ⟨S1024x1024, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x1024, .f32⟩
  | .local _ .vmem, ⟨22, _⟩ => ⟨S1024x1024, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 4], ![false, false, false]⟩

def k2_cond2 (i : grid2.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 4], ![false, false, false]⟩

def k3_cond2 (i : grid3.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

class Facts₀ : Prop where
  bcast_S_S1x128 : S_.BroadcastsInDim S1x128 (![] : Fin 0 → Fin S1x128.rank)
  concatenates_S1x128_S100000x128_S100001x128_d0 : Shape.Concatenates [S1x128, S100000x128] S100001x128 0
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  reducesTo_S4096x50x128_S4096x128_d1 : S4096x50x128.ReducesTo [1] S4096x128
  h_S_ : 0 < S_.numel
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bcast_S4096x128_S1x4096x128_1_2 : S4096x128.BroadcastsInDim S1x4096x128 (![1, 2] : Fin 2 → Fin S1x4096x128.rank)
  concatenates_S1x4096x128_S1x4096x128_S1x4096x128_S1x4096x128_S4x4096x128_d0 : Shape.Concatenates [S1x4096x128, S1x4096x128, S1x4096x128, S1x4096x128] S4x4096x128 0
  reducesTo_S4x4096x128_S4096x128_d0 : S4x4096x128.ReducesTo [0] S4096x128
  bcast_S_S4096x128 : S_.BroadcastsInDim S4096x128 (![] : Fin 0 → Fin S4096x128.rank)
  gather_S100001x128_S4096x50x1_S4096x50x128_2_0_n_n_0_2_1128_wf : GatherDims.WF S100001x128 S4096x50x1 S4096x50x128 [2] [0] [] [0] [] 2 ![1, 128]
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S4096x128.size a
  hwx2_1 : ∀ i : grid2.Coords, EltTy.bits .f32 = 32 ∨ (Rect.block (s := S4096x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S4096x128.size a
  hwx2_2 : ∀ i : grid2.Coords, EltTy.bits .f32 = 32 ∨ (Rect.block (s := S4096x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .f32 = 32 ∨ (Rect.block (s := S4096x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S4096x128.size a
  hwx3_1 : ∀ i : grid3.Coords, EltTy.bits .f32 = 32 ∨ (Rect.block (s := S4096x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S4096x128.size a
  hwx3_2 : ∀ i : grid3.Coords, EltTy.bits .f32 = 32 ∨ (Rect.block (s := S4096x128) S1024x128.size (cc3_transform_2 i) (hinb3_2 i)).WholeWords (EltTy.packing .f32)

variable [Facts₀]

def gather_S100001x128_S4096x50x1_S4096x50x128_2_0_n_n_0_2_1128 : GatherDims S100001x128 S4096x50x1 S4096x50x128 where
  offsetDims := [2]
  collapsedSliceDims := [0]
  operandBatchingDims := []
  startIndicesBatchingDims := []
  startIndexMap := [0]
  indexVectorDim := 2
  sliceSizes := ![1, 128]
  wf := gather_S100001x128_S4096x50x1_S4096x50x128_2_0_n_n_0_2_1128_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v13) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v13) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v13) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S100000x128 : Shape := ⟨2, ![100000, 128]⟩
abbrev S4096x50 : Shape := ⟨2, ![4096, 50]⟩
abbrev S4096 : Shape := ⟨1, ![4096]⟩
abbrev S_ : Shape := ⟨0, ![]⟩
abbrev S1x128 : Shape := ⟨2, ![1, 128]⟩
abbrev S100001x128 : Shape := ⟨2, ![100001, 128]⟩
abbrev S4096x50x1 : Shape := ⟨3, ![4096, 50, 1]⟩
abbrev S4096x50x128 : Shape := ⟨3, ![4096, 50, 128]⟩
abbrev S4096x128 : Shape := ⟨2, ![4096, 128]⟩
abbrev S4096x1 : Shape := ⟨2, ![4096, 1]⟩
abbrev S1x4096x128 : Shape := ⟨3, ![1, 4096, 128]⟩
abbrev S4x4096x128 : Shape := ⟨3, ![4, 4096, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S100000x128, .f32⟩
  | .hbm, ⟨3, _⟩ => ⟨S4096x50, .i32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S1x128, .f32⟩
  | .hbm, ⟨8, _⟩ => ⟨S100001x128, .f32⟩
  | .hbm, ⟨9, _⟩ => ⟨S_, .i32⟩
  | .hbm, ⟨10, _⟩ => ⟨S4096x50, .i32⟩
  | .hbm, ⟨11, _⟩ => ⟨S4096x50, .i1⟩
  | .hbm, ⟨12, _⟩ => ⟨S_, .i32⟩
  | .hbm, ⟨13, _⟩ => ⟨S4096x50, .i32⟩
  | .hbm, ⟨14, _⟩ => ⟨S4096x50, .i32⟩
  | .hbm, ⟨15, _⟩ => ⟨S4096x50, .i32⟩
  | .hbm, ⟨16, _⟩ => ⟨S4096x50x1, .i32⟩
  | .hbm, ⟨17, _⟩ => ⟨S4096x50x128, .f32⟩
  | .hbm, ⟨18, _⟩ => ⟨S_, .f32⟩
  | .hbm, ⟨19, _⟩ => ⟨S4096x128, .f32⟩
  | .hbm, ⟨20, _⟩ => ⟨S4096x1, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S1x4096x128, .f32⟩
  | .hbm, ⟨27, _⟩ => ⟨S1x4096x128, .f32⟩
  | .hbm, ⟨28, _⟩ => ⟨S1x4096x128, .f32⟩
  | .hbm, ⟨29, _⟩ => ⟨S1x4096x128, .f32⟩
  | .hbm, ⟨30, _⟩ => ⟨S4x4096x128, .f32⟩
  | .hbm, ⟨31, _⟩ => ⟨S_, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S4096x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  concatenates_S1x128_S100000x128_S100001x128_d0 : Shape.Concatenates [S1x128, S100000x128] S100001x128 0
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  reducesTo_S4096x50x128_S4096x128_d1 : S4096x50x128.ReducesTo [1] S4096x128
  h_S_ : 0 < S_.numel
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S4096x128_S1x4096x128_1_2 : S4096x128.BroadcastsInDim S1x4096x128 (![1, 2] : Fin 2 → Fin S1x4096x128.rank)
  concatenates_S1x4096x128_S1x4096x128_S1x4096x128_S1x4096x128_S4x4096x128_d0 : Shape.Concatenates [S1x4096x128, S1x4096x128, S1x4096x128, S1x4096x128] S4x4096x128 0
  reducesTo_S4x4096x128_S4096x128_d0 : S4x4096x128.ReducesTo [0] S4096x128
  bcast_S_S4096x128 : S_.BroadcastsInDim S4096x128 (![] : Fin 0 → Fin S4096x128.rank)
  dot_S4096x4096_S4096x4096_S4096x4096_1_0_0_1_n_n_wf : DotDims.WF S4096x4096 S4096x4096 S4096x4096 [1] [0] [0] [1] [] []
  gather_S100001x128_S4096x50x1_S4096x50x128_2_0_n_n_0_2_1128_wf : GatherDims.WF S100001x128 S4096x50x1 S4096x50x128 [2] [0] [] [0] [] 2 ![1, 128]
  dot_S4096x4096_S4096x128_S4096x128_1_0_0_1_n_n_wf : DotDims.WF S4096x4096 S4096x128 S4096x128 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def gather_S100001x128_S4096x50x1_S4096x50x128_2_0_n_n_0_2_1128 : GatherDims S100001x128 S4096x50x1 S4096x50x128 where
  offsetDims := [2]
  collapsedSliceDims := [0]
  operandBatchingDims := []
  startIndicesBatchingDims := []
  startIndexMap := [0]
  indexVectorDim := 2
  sliceSizes := ![1, 128]
  wf := gather_S100001x128_S4096x50x1_S4096x50x128_2_0_n_n_0_2_1128_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Bits.Runs0.lean ====
/-
  Pallas call 0: the two conditions of its body decided over the grid, and the body run once in each of the three
  situations a grid point can be in along the contraction axis — the first block (the accumulator is reset, then
  receives the first partial product), a middle block (the accumulator receives one more partial product), the last
  block (one more partial product, then the accumulator is copied to the output block).  Each run records, as a list
  of stored pieces, what the accumulator and the output block hold afterwards.
-/
import proofs.«123347_j77695958385169_1_alg».proof.Proof.Gen.Kernel.Launch
import proofs.«123347_j77695958385169_1_alg».proof.Proof.Gen.Kernel.Skeleton
import proofs.«123347_j77695958385169_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This is the first block along the contraction axis", as the body computes it from the grid coordinates. -/
abbrev cond0_0 (i : grid0.Coords) : Prop := (Scalar.cmpi .ne (Scalar.extui (Scalar.cmpi .eq (BitVec.ofNat 32 (i 2).val) 0#32)) 0#32) = 1#1
/-- It holds exactly at the points whose position is a multiple of four. -/
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last block along the contraction axis". -/
abbrev cond0_1 (i : grid0.Coords) : Prop := k0_cond2 i = 1#1
/-- It holds exactly at the points whose position is three modulo four. -/
theorem hcond0_1 : ∀ t : Fin cfg0.N, cond0_1 (grid0.coords t) ↔ t.val % 4 = 3 :=
  (by decide +kernel : ∀ t : Fin grid0.N, cond0_1 (grid0.coords t) ↔ t.val % 4 = 3)

/-- The two input windows are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last block the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last block it is live. -/
theorem liveAt0_2 : ∀ t : Fin cfg0.N, cond0_1 (grid0.coords t) → cfg0.idle 2 (grid0.coords t) = false := by decide +kernel

/-- Each window's current staging memref at point `t`, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x1024 .f32 := Memref.whole cc0_scratch0
abbrev VS0 : View sig .tc .vmem S1024x1024 .f32 := (scM0).view
abbrev VO0 : View sig .tc .vmem S1024x1024 .f32 := (Memref.whole cc0_stg2_0 : Memref sig .tc .vmem S1024x1024 .f32).view

/-- The scoped buffers of the core other than this call's staging buffers and its accumulator: carried through the
    region unopened. -/
abbrev rest0 (c : Dev nD) : sProp 𝕄 :=
  Pipeline.scopedRestBut (Ix := Unit) (Name := ℕ) (U := UR sig nD τ) (Lvl := ℕ) (Val := Elt F) spec0 c [cc0_scratch0]

/-- What the region's invariant holds besides the windows: the accumulator at some contents, the other scoped buffers,
    and the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [Idealize.SL.BI.bigSepL_singleton, scM0, owns_whole]; try rfl

set_option maxHeartbeats 1000000 in
/-- FIRST BLOCK: the accumulator, whatever it held, is reset and receives the first partial product; the output block is
    handed back untouched. -/
noncomputable def kernelRun0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- MIDDLE BLOCK: the accumulator, holding `xs`, receives one more partial product; the output block is handed back
    untouched. -/
noncomputable def kernelRun0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (xs : Vec F S1024x1024 .f32) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- LAST BLOCK: the accumulator, holding `xs`, receives the last partial product and is copied to the output block. -/
noncomputable def kernelRun0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Hand

end
-- ==== Proof.Bits.Region0.lean ====
/-
  Pallas call 0 at a parameter `V`, the contents of the core's buffers when the region is entered: each window's
  block at a grid point; what the accumulator holds after each point, by recursion along the grid (reset at a first
  block, one more partial product at every block) and what the output block holds at a last block (the accumulator);
  the proof data of the pipeline; and the body's obligation at every point, by cases on the block's position.
-/
import proofs.«123347_j77695958385169_1_alg».proof.Proof.Bits.Runs0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each situation leaves -/

/-- The stores of a first block cover the accumulator. -/
theorem scover0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) (y : S1024x1024.Idx) :
    ∃ pc ∈ (kernelRun0_A c i arg3 harg3 arg4 harg4 arg5 harg5 arg6 harg6 hc0 hc1 x0 x1).1, y ∈ pc.1.set :=
  View.cover_of_tiledL (kernelRun0_A c i arg3 harg3 arg4 harg4 arg5 harg5 arg6 harg6 hc0 hc1 x0 x1).1 S1024x1024.size (by sl_kernel_rfl) y
/-- What a first block leaves in the accumulator. -/
def sout0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) : Vec F S1024x1024 .f32 :=
  VS0.read (Elt F) (VS0.writes (Elt F) VS0.junk (kernelRun0_A c i arg3 harg3 arg4 harg4 arg5 harg5 arg6 harg6 hc0 hc1 x0 x1).1)

/-- The stores of a middle block cover the accumulator. -/
theorem scover0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (xs : Vec F S1024x1024 .f32) (y : S1024x1024.Idx) :
    ∃ pc ∈ (kernelRun0_B c i arg3 harg3 arg4 harg4 arg5 harg5 arg6 harg6 hc0 hc1 x0 x1 xs).1, y ∈ pc.1.set :=
  View.cover_of_tiledL (kernelRun0_B c i arg3 harg3 arg4 harg4 arg5 harg5 arg6 harg6 hc0 hc1 x0 x1 xs).1 S1024x1024.size (by sl_kernel_rfl) y
/-- What a middle block leaves in the accumulator. -/
def sout0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (xs : Vec F S1024x1024 .f32) : Vec F S1024x1024 .f32 :=
  VS0.read (Elt F) (VS0.writes (Elt F) VS0.junk (kernelRun0_B c i arg3 harg3 arg4 harg4 arg5 harg5 arg6 harg6 hc0 hc1 x0 x1 xs).1)

/-- The stores of a last block cover the output block, -/
theorem cover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) (y : S1024x1024.Idx) :
    ∃ pc ∈ (kernelRun0_C c i arg3 harg3 arg4 harg4 arg5 harg5 arg6 harg6 hc0 hc1 x0 x1 xs).1, y ∈ pc.1.set :=
  View.cover_of_tiledL (kernelRun0_C c i arg3 harg3 arg4 harg4 arg5 harg5 arg6 harg6 hc0 hc1 x0 x1 xs).1 S1024x1024.size (by sl_kernel_rfl) y
/-- which then holds this: -/
def out0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) : Vec F S1024x1024 .f32 :=
  VO0.read (Elt F) (VO0.writes (Elt F) VO0.junk (kernelRun0_C c i arg3 harg3 arg4 harg4 arg5 harg5 arg6 harg6 hc0 hc1 x0 x1 xs).1)
/-- and the accumulator. -/
theorem scover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) (y : S1024x1024.Idx) :
    ∃ pc ∈ (kernelRun0_C c i arg3 harg3 arg4 harg4 arg5 harg5 arg6 harg6 hc0 hc1 x0 x1 xs).2.1, y ∈ pc.1.set :=
  View.cover_of_tiledL (kernelRun0_C c i arg3 harg3 arg4 harg4 arg5 harg5 arg6 harg6 hc0 hc1 x0 x1 xs).2.1 S1024x1024.size (by sl_kernel_rfl) y
def sout0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) : Vec F S1024x1024 .f32 :=
  VS0.read (Elt F) (VS0.writes (Elt F) VS0.junk (kernelRun0_C c i arg3 harg3 arg4 harg4 arg5 harg5 arg6 harg6 hc0 hc1 x0 x1 xs).2.1)

/-- Contents nobody reads: what is recorded for the output block at the points that store nothing into it. -/
def idleOut0 : Vec F S1024x1024 .f32 := VO0.read (Elt F) VO0.junk

/-! ## Along the grid -/

/-- What the output block (first component) and the accumulator (second component) hold after the body at position
    `n`: a first block starts afresh, any other block continues from what position `n - 1` left in the accumulator. -/
def outsAt0 (c : Dev nD) : (n : ℕ) → n < cfg0.N → Vec F S1024x1024 .f32 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then False.elim (by omega)
      else (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first block. -/
theorem outsAt0_A (c : Dev nD) (t : Fin cfg0.N) (h0 : t.val % 4 = 0) (h1 : ¬t.val % 4 = 3) :
    outsAt0 V c t.val t.isLt = (idleOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle block. -/
theorem outsAt0_B (c : Dev nD) (t : Fin cfg0.N) (h0 : ¬t.val % 4 = 0) (h1 : ¬t.val % 4 = 3) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards it
    holds what the point before left; the other scoped buffers and the generator register ride along. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The pipeline's proof data -/

/-- The arrays as the region finds them; after the body at a point each input's buffer at its block, the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' staging buffers hold their blocks; the position modulo four says which situation
    the point is in; the invariant hands the body the accumulator (at what the point before left, or at anything before
    the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- After any point the invariant gives the region's rest back, the accumulator's contents forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.Bits.Runs1.lean ====
/-
  Pallas call 1: the two conditions of its body decided over the grid, and the body run once in each of the three
  situations a grid point can be in along the contraction axis — the first block (the accumulator is reset, then
  receives the first partial product), a middle block (the accumulator receives one more partial product), the last
  block (one more partial product, then the accumulator is copied to the output block).  Each run records, as a list
  of stored pieces, what the accumulator and the output block hold afterwards.
-/
import proofs.«123347_j77695958385169_1_alg».proof.Proof.Gen.Kernel.Launch
import proofs.«123347_j77695958385169_1_alg».proof.Proof.Gen.Kernel.Skeleton
import proofs.«123347_j77695958385169_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This is the first block along the contraction axis", as the body computes it from the grid coordinates. -/
abbrev cond1_0 (i : grid1.Coords) : Prop := (Scalar.cmpi .ne (Scalar.extui (Scalar.cmpi .eq (BitVec.ofNat 32 (i 2).val) 0#32)) 0#32) = 1#1
/-- It holds exactly at the points whose position is a multiple of four. -/
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last block along the contraction axis". -/
abbrev cond1_1 (i : grid1.Coords) : Prop := k1_cond2 i = 1#1
/-- It holds exactly at the points whose position is three modulo four. -/
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last block the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last block it is live. -/
theorem liveAt1_2 : ∀ t : Fin cfg1.N, cond1_1 (grid1.coords t) → cfg1.idle 2 (grid1.coords t) = false := by decide +kernel

/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x128 .f32 := Memref.whole cc1_scratch0
abbrev VS1 : View sig .tc .vmem S1024x128 .f32 := (scM1).view
abbrev VO1 : View sig .tc .vmem S1024x128 .f32 := (Memref.whole cc1_stg2_0 : Memref sig .tc .vmem S1024x128 .f32).view

/-- The scoped buffers of the core other than this call's staging buffers and its accumulator: carried through the
    region unopened. -/
abbrev rest1 (c : Dev nD) : sProp 𝕄 :=
  Pipeline.scopedRestBut (Ix := Unit) (Name := ℕ) (U := UR sig nD τ) (Lvl := ℕ) (Val := Elt F) spec1 c [cc1_scratch0]

/-- What the region's invariant holds besides the windows: the accumulator at some contents, the other scoped buffers,
    and the generator register. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [Idealize.SL.BI.bigSepL_singleton, scM1, owns_whole]; try rfl

set_option maxHeartbeats 1000000 in
/-- FIRST BLOCK: the accumulator, whatever it held, is reset and receives the first partial product; the output block is
    handed back untouched. -/
noncomputable def kernelRun1_A (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- MIDDLE BLOCK: the accumulator, holding `xs`, receives one more partial product; the output block is handed back
    untouched. -/
noncomputable def kernelRun1_B (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- LAST BLOCK: the accumulator, holding `xs`, receives the last partial product and is copied to the output block. -/
noncomputable def kernelRun1_C (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Hand

end
-- ==== Proof.Bits.Region1.lean ====
/-
  Pallas call 1 at a parameter `V`, the contents of the core's buffers when the region is entered: each window's
  block at a grid point; what the accumulator holds after each point, by recursion along the grid (reset at a first
  block, one more partial product at every block) and what the output block holds at a last block (the accumulator);
  the proof data of the pipeline; and the body's obligation at every point, by cases on the block's position.
-/
import proofs.«123347_j77695958385169_1_alg».proof.Proof.Bits.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each situation leaves -/

/-- The stores of a first block cover the accumulator. -/
theorem scover1_A (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (y : S1024x128.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S1024x128.size (by sl_kernel_rfl) y
/-- What a first block leaves in the accumulator. -/
def sout1_A (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) : Vec F S1024x128 .f32 :=
  VS1.read (Elt F) (VS1.writes (Elt F) VS1.junk (kernelRun1_A c i arg3 harg3 arg4 harg4 arg5 harg5 arg6 harg6 hc0 hc1 x0 x1).1)

/-- The stores of a middle block cover the accumulator. -/
theorem scover1_B (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (xs : Vec F S1024x128 .f32) (y : S1024x128.Idx) :
    ∃ pc ∈ (kernelRun1_B c i arg3 harg3 arg4 harg4 arg5 harg5 arg6 harg6 hc0 hc1 x0 x1 xs).1, y ∈ pc.1.set :=
  View.cover_of_tiledL (kernelRun1_B c i arg3 harg3 arg4 harg4 arg5 harg5 arg6 harg6 hc0 hc1 x0 x1 xs).1 S1024x128.size (by sl_kernel_rfl) y
/-- What a middle block leaves in the accumulator. -/
def sout1_B (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (xs : Vec F S1024x128 .f32) : Vec F S1024x128 .f32 :=
  VS1.read (Elt F) (VS1.writes (Elt F) VS1.junk (kernelRun1_B c i arg3 harg3 arg4 harg4 arg5 harg5 arg6 harg6 hc0 hc1 x0 x1 xs).1)

/-- The stores of a last block cover the output block, -/
theorem cover1_C (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) (y : S1024x128.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S1024x128.size (by sl_kernel_rfl) y
/-- which then holds this: -/
def out1_C (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) : Vec F S1024x128 .f32 :=
  VO1.read (Elt F) (VO1.writes (Elt F) VO1.junk (kernelRun1_C c i arg3 harg3 arg4 harg4 arg5 harg5 arg6 harg6 hc0 hc1 x0 x1 xs).1)
/-- and the accumulator. -/
theorem scover1_C (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) (y : S1024x128.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S1024x128.size (by sl_kernel_rfl) y
def sout1_C (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) : Vec F S1024x128 .f32 :=
  VS1.read (Elt F) (VS1.writes (Elt F) VS1.junk (kernelRun1_C c i arg3 harg3 arg4 harg4 arg5 harg5 arg6 harg6 hc0 hc1 x0 x1 xs).2.1)

/-- Contents nobody reads: what is recorded for the output block at the points that store nothing into it. -/
def idleOut1 : Vec F S1024x128 .f32 := VO1.read (Elt F) VO1.junk

/-! ## Along the grid -/

/-- What the output block (first component) and the accumulator (second component) hold after the body at position
    `n`: a first block starts afresh, any other block continues from what position `n - 1` left in the accumulator. -/
def outsAt1 (c : Dev nD) : (n : ℕ) → n < cfg1.N → Vec F S1024x128 .f32 × Vec F S1024x128 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then False.elim (by omega)
      else (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first block. -/
theorem outsAt1_A (c : Dev nD) (t : Fin cfg1.N) (h0 : t.val % 4 = 0) (h1 : ¬t.val % 4 = 3) :
    outsAt1 V c t.val t.isLt = (idleOut1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle block. -/
theorem outsAt1_B (c : Dev nD) (t : Fin cfg1.N) (h0 : ¬t.val % 4 = 0) (h1 : ¬t.val % 4 = 3) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards it
    holds what the point before left; the other scoped buffers and the generator register ride along. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The pipeline's proof data -/

/-- The arrays as the region finds them; after the body at a point each input's buffer at its block, the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' staging buffers hold their blocks; the position modulo four says which situation
    the point is in; the invariant hands the body the accumulator (at what the point before left, or at anything before
    the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives the region's rest back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.Bits.Runs2.lean ====
/-
  Pallas call 2: the two conditions of its body decided over the grid, and the body run once in each of the three
  situations a grid point can be in along the contraction axis — the first block (the accumulator is reset, then
  receives the first partial product), a middle block (the accumulator receives one more partial product), the last
  block (one more partial product, then the accumulator is copied to the output block).  Each run records, as a list
  of stored pieces, what the accumulator and the output block hold afterwards.
-/
import proofs.«123347_j77695958385169_1_alg».proof.Proof.Gen.Kernel.Launch
import proofs.«123347_j77695958385169_1_alg».proof.Proof.Gen.Kernel.Skeleton
import proofs.«123347_j77695958385169_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This is the first block along the contraction axis", as the body computes it from the grid coordinates. -/
abbrev cond2_0 (i : grid2.Coords) : Prop := (Scalar.cmpi .ne (Scalar.extui (Scalar.cmpi .eq (BitVec.ofNat 32 (i 2).val) 0#32)) 0#32) = 1#1
/-- It holds exactly at the points whose position is a multiple of four. -/
theorem hcond2_0 : ∀ t : Fin cfg2.N, cond2_0 (grid2.coords t) ↔ t.val % 4 = 0 :=
  (by decide +kernel : ∀ t : Fin grid2.N, cond2_0 (grid2.coords t) ↔ t.val % 4 = 0)
/-- "This is the last block along the contraction axis". -/
abbrev cond2_1 (i : grid2.Coords) : Prop := k2_cond2 i = 1#1
/-- It holds exactly at the points whose position is three modulo four. -/
theorem hcond2_1 : ∀ t : Fin cfg2.N, cond2_1 (grid2.coords t) ↔ t.val % 4 = 3 :=
  (by decide +kernel : ∀ t : Fin grid2.N, cond2_1 (grid2.coords t) ↔ t.val % 4 = 3)

/-- The two input windows are live at every point. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the last block the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last block it is live. -/
theorem liveAt2_2 : ∀ t : Fin cfg2.N, cond2_1 (grid2.coords t) → cfg2.idle 2 (grid2.coords t) = false := by decide +kernel

/-- Each window's current staging memref at point `t`, and its wholeness. -/
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S1024x128 .f32 := Memref.whole cc2_scratch0
abbrev VS2 : View sig .tc .vmem S1024x128 .f32 := (scM2).view
abbrev VO2 : View sig .tc .vmem S1024x128 .f32 := (Memref.whole cc2_stg2_0 : Memref sig .tc .vmem S1024x128 .f32).view

/-- The scoped buffers of the core other than this call's staging buffers and its accumulator: carried through the
    region unopened. -/
abbrev rest2 (c : Dev nD) : sProp 𝕄 :=
  Pipeline.scopedRestBut (Ix := Unit) (Name := ℕ) (U := UR sig nD τ) (Lvl := ℕ) (Val := Elt F) spec2 c [cc2_scratch0]

/-- What the region's invariant holds besides the windows: the accumulator at some contents, the other scoped buffers,
    and the generator register. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [Idealize.SL.BI.bigSepL_singleton, scM2, owns_whole]; try rfl

set_option maxHeartbeats 1000000 in
/-- FIRST BLOCK: the accumulator, whatever it held, is reset and receives the first partial product; the output block is
    handed back untouched. -/
noncomputable def kernelRun2_A (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S1024x1024 .f32) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc2__matmul_kernel i arg3 harg3 arg4 harg4 arg5 harg5 arg6 harg6) K } := by
  refine ⟨?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- MIDDLE BLOCK: the accumulator, holding `xs`, receives one more partial product; the output block is handed back
    untouched. -/
noncomputable def kernelRun2_B (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : ¬cond2_1 i)
    (x0 : Vec F S1024x1024 .f32) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc2__matmul_kernel i arg3 harg3 arg4 harg4 arg5 harg5 arg6 harg6) K } := by
  refine ⟨?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- LAST BLOCK: the accumulator, holding `xs`, receives the last partial product and is copied to the output block. -/
noncomputable def kernelRun2_C (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Hand

end
-- ==== Proof.Bits.Region2.lean ====
/-
  Pallas call 2 at a parameter `V`, the contents of the core's buffers when the region is entered: each window's
  block at a grid point; what the accumulator holds after each point, by recursion along the grid (reset at a first
  block, one more partial product at every block) and what the output block holds at a last block (the accumulator);
  the proof data of the pipeline; and the body's obligation at every point, by cases on the block's position.
-/
import proofs.«123347_j77695958385169_1_alg».proof.Proof.Bits.Runs2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the
    region-entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each situation leaves -/

/-- The stores of a first block cover the accumulator. -/
theorem scover2_A (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S1024x1024 .f32) (x1 : Vec F S1024x128 .f32) (y : S1024x128.Idx) :
    ∃ pc ∈ (kernelRun2_A c i arg3 harg3 arg4 harg4 arg5 harg5 arg6 harg6 hc0 hc1 x0 x1).1, y ∈ pc.1.set :=
  View.cover_of_tiledL (kernelRun2_A c i arg3 harg3 arg4 harg4 arg5 harg5 arg6 harg6 hc0 hc1 x0 x1).1 S1024x128.size (by sl_kernel_rfl) y
/-- What a first block leaves in the accumulator. -/
def sout2_A (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S1024x1024 .f32) (x1 : Vec F S1024x128 .f32) : Vec F S1024x128 .f32 :=
  VS2.read (Elt F) (VS2.writes (Elt F) VS2.junk (kernelRun2_A c i arg3 harg3 arg4 harg4 arg5 harg5 arg6 harg6 hc0 hc1 x0 x1).1)

/-- The stores of a middle block cover the accumulator. -/
theorem scover2_B (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : ¬cond2_1 i)
    (x0 : Vec F S1024x1024 .f32) (x1 : Vec F S1024x128 .f32) (xs : Vec F S1024x128 .f32) (y : S1024x128.Idx) :
    ∃ pc ∈ (kernelRun2_B c i arg3 harg3 arg4 harg4 arg5 harg5 arg6 harg6 hc0 hc1 x0 x1 xs).1, y ∈ pc.1.set :=
  View.cover_of_tiledL (kernelRun2_B c i arg3 harg3 arg4 harg4 arg5 harg5 arg6 harg6 hc0 hc1 x0 x1 xs).1 S1024x128.size (by sl_kernel_rfl) y
/-- What a middle block leaves in the accumulator. -/
def sout2_B (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : ¬cond2_1 i)
    (x0 : Vec F S1024x1024 .f32) (x1 : Vec F S1024x128 .f32) (xs : Vec F S1024x128 .f32) : Vec F S1024x128 .f32 :=
  VS2.read (Elt F) (VS2.writes (Elt F) VS2.junk (kernelRun2_B c i arg3 harg3 arg4 harg4 arg5 harg5 arg6 harg6 hc0 hc1 x0 x1 xs).1)

/-- The stores of a last block cover the output block, -/
theorem cover2_C (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) (y : S1024x128.Idx) :
    ∃ pc ∈ (kernelRun2_C c i arg3 harg3 arg4 harg4 arg5 harg5 arg6 harg6 hc0 hc1 x0 x1 xs).1, y ∈ pc.1.set :=
  View.cover_of_tiledL (kernelRun2_C c i arg3 harg3 arg4 harg4 arg5 harg5 arg6 harg6 hc0 hc1 x0 x1 xs).1 S1024x128.size (by sl_kernel_rfl) y
/-- which then holds this: -/
def out2_C (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) : Vec F S1024x128 .f32 :=
  VO2.read (Elt F) (VO2.writes (Elt F) VO2.junk (kernelRun2_C c i arg3 harg3 arg4 harg4 arg5 harg5 arg6 harg6 hc0 hc1 x0 x1 xs).1)
/-- and the accumulator. -/
theorem scover2_C (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) (y : S1024x128.Idx) :
    ∃ pc ∈ (kernelRun2_C c i arg3 harg3 arg4 harg4 arg5 harg5 arg6 harg6 hc0 hc1 x0 x1 xs).2.1, y ∈ pc.1.set :=
  View.cover_of_tiledL (kernelRun2_C c i arg3 harg3 arg4 harg4 arg5 harg5 arg6 harg6 hc0 hc1 x0 x1 xs).2.1 S1024x128.size (by sl_kernel_rfl) y
def sout2_C (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) : Vec F S1024x128 .f32 :=
  VS2.read (Elt F) (VS2.writes (Elt F) VS2.junk (kernelRun2_C c i arg3 harg3 arg4 harg4 arg5 harg5 arg6 harg6 hc0 hc1 x0 x1 xs).2.1)

/-- Contents nobody reads: what is recorded for the output block at the points that store nothing into it. -/
def idleOut2 : Vec F S1024x128 .f32 := VO2.read (Elt F) VO2.junk

/-! ## Along the grid -/

/-- What the output block (first component) and the accumulator (second component) hold after the body at position
    `n`: a first block starts afresh, any other block continues from what position `n - 1` left in the accumulator. -/
def outsAt2 (c : Dev nD) : (n : ℕ) → n < cfg2.N → Vec F S1024x128 .f32 × Vec F S1024x128 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then False.elim (by omega)
      else (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At a first block. -/
theorem outsAt2_A (c : Dev nD) (t : Fin cfg2.N) (h0 : t.val % 4 = 0) (h1 : ¬t.val % 4 = 3) :
    outsAt2 V c t.val t.isLt = (idleOut2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- At a middle block. -/
theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block. -/
theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards it
    holds what the point before left; the other scoped buffers and the generator register ride along. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ rest2 c) ∗ (∃ r, prngReg c r)) := by
  cases n with
  | zero => exact absurd rfl hz
  | succ n => rfl

/-! ## The pipeline's proof data -/

/-- The arrays as the region finds them; after the body at a point each input's buffer at its block, the output's at
    `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' staging buffers hold their blocks; the position modulo four says which situation
    the point is in; the invariant hands the body the accumulator (at what the point before left, or at anything before
    the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C sout2_C; (try dsimp only)
      rw [PhiS2_castSucc V c t, PhiS2_pos V c _ _ hz]
      iintro ⟨⟨⟨HS, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ hz]
      iintro ⟨⟨⟨HS, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- After any point the invariant gives the region's rest back, the accumulator's contents forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg
theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.Bits.Runs3.lean ====
/-
  Pallas call 3: the two conditions of its body decided over the grid, and the body run once in each of the three
  situations a grid point can be in along the contraction axis — the first block (the accumulator is reset, then
  receives the first partial product), a middle block (the accumulator receives one more partial product), the last
  block (one more partial product, then the accumulator is copied to the output block).  Each run records, as a list
  of stored pieces, what the accumulator and the output block hold afterwards.
-/
import proofs.«123347_j77695958385169_1_alg».proof.Proof.Gen.Kernel.Launch
import proofs.«123347_j77695958385169_1_alg».proof.Proof.Gen.Kernel.Skeleton
import proofs.«123347_j77695958385169_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This is the first block along the contraction axis", as the body computes it from the grid coordinates. -/
abbrev cond3_0 (i : grid3.Coords) : Prop := (Scalar.cmpi .ne (Scalar.extui (Scalar.cmpi .eq (BitVec.ofNat 32 (i 2).val) 0#32)) 0#32) = 1#1
/-- It holds exactly at the points whose position is a multiple of four. -/
theorem hcond3_0 : ∀ t : Fin cfg3.N, cond3_0 (grid3.coords t) ↔ t.val % 4 = 0 :=
  (by decide +kernel : ∀ t : Fin grid3.N, cond3_0 (grid3.coords t) ↔ t.val % 4 = 0)
/-- "This is the last block along the contraction axis". -/
abbrev cond3_1 (i : grid3.Coords) : Prop := k3_cond2 i = 1#1
/-- It holds exactly at the points whose position is three modulo four. -/
theorem hcond3_1 : ∀ t : Fin cfg3.N, cond3_1 (grid3.coords t) ↔ t.val % 4 = 3 :=
  (by decide +kernel : ∀ t : Fin grid3.N, cond3_1 (grid3.coords t) ↔ t.val % 4 = 3)

/-- The two input windows are live at every point. -/
theorem liveAt3_0 : ∀ t : Fin cfg3.N, cfg3.idle 0 (grid3.coords t) = false := by decide +kernel
theorem liveAt3_1 : ∀ t : Fin cfg3.N, cfg3.idle 1 (grid3.coords t) = false := by decide +kernel
/-- Away from the last block the output window is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- At the last block it is live. -/
theorem liveAt3_2 : ∀ t : Fin cfg3.N, cond3_1 (grid3.coords t) → cfg3.idle 2 (grid3.coords t) = false := by decide +kernel

/-- Each window's current staging memref at point `t`, and its wholeness. -/
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3 : Memref sig .tc .vmem S1024x128 .f32 := Memref.whole cc3_scratch0
abbrev VS3 : View sig .tc .vmem S1024x128 .f32 := (scM3).view
abbrev VO3 : View sig .tc .vmem S1024x128 .f32 := (Memref.whole cc3_stg2_0 : Memref sig .tc .vmem S1024x128 .f32).view

/-- The scoped buffers of the core other than this call's staging buffers and its accumulator: carried through the
    region unopened. -/
abbrev rest3 (c : Dev nD) : sProp 𝕄 :=
  Pipeline.scopedRestBut (Ix := Unit) (Name := ℕ) (U := UR sig nD τ) (Lvl := ℕ) (Val := Elt F) spec3 c [cc3_scratch0]

/-- What the region's invariant holds besides the windows: the accumulator at some contents, the other scoped buffers,
    and the generator register. -/
theorem PhiA3_eq (c : Dev nD) :
    (Pipeline.ΦA spec3 c : sProp 𝕄)
      = iprop(iprop((∃ d, owns (c : Thread nD τ) scM3 fullShare d) ∗ rest3 c) ∗ (∃ r, prngReg c r)) := by
  unfold Pipeline.ΦA
  rw [Pipeline.scopedRest_split_of_list spec3 c [cc3_scratch0] (by decide) (by decide)]
  simp only [Idealize.SL.BI.bigSepL_singleton, scM3, owns_whole]; try rfl

set_option maxHeartbeats 1000000 in
/-- FIRST BLOCK: the accumulator, whatever it held, is reset and receives the first partial product; the output block is
    handed back untouched. -/
noncomputable def kernelRun3_A (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc3__matmul_kernel i arg3 harg3 arg4 harg4 arg5 harg5 arg6 harg6) K } := by
  refine ⟨?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- MIDDLE BLOCK: the accumulator, holding `xs`, receives one more partial product; the output block is handed back
    untouched. -/
noncomputable def kernelRun3_B (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc3__matmul_kernel i arg3 harg3 arg4 harg4 arg5 harg5 arg6 harg6) K } := by
  refine ⟨?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- LAST BLOCK: the accumulator, holding `xs`, receives the last partial product and is copied to the output block. -/
noncomputable def kernelRun3_C (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3__matmul_kernel i arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Hand

end
-- ==== Proof.Bits.Region3.lean ====
/-
  Pallas call 3 at a parameter `V`, the contents of the core's buffers when the region is entered: each window's
  block at a grid point; what the accumulator holds after each point, by recursion along the grid (reset at a first
  block, one more partial product at every block) and what the output block holds at a last block (the accumulator);
  the proof data of the pipeline; and the body's obligation at every point, by cases on the block's position.
-/
import proofs.«123347_j77695958385169_1_alg».proof.Proof.Bits.Runs3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data whose array is the
    region-entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What each situation leaves -/

/-- The stores of a first block cover the accumulator. -/
theorem scover3_A (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (y : S1024x128.Idx) :
    ∃ pc ∈ (kernelRun3_A c i arg3 harg3 arg4 harg4 arg5 harg5 arg6 harg6 hc0 hc1 x0 x1).1, y ∈ pc.1.set :=
  View.cover_of_tiledL (kernelRun3_A c i arg3 harg3 arg4 harg4 arg5 harg5 arg6 harg6 hc0 hc1 x0 x1).1 S1024x128.size (by sl_kernel_rfl) y
/-- What a first block leaves in the accumulator. -/
def sout3_A (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) : Vec F S1024x128 .f32 :=
  VS3.read (Elt F) (VS3.writes (Elt F) VS3.junk (kernelRun3_A c i arg3 harg3 arg4 harg4 arg5 harg5 arg6 harg6 hc0 hc1 x0 x1).1)

/-- The stores of a middle block cover the accumulator. -/
theorem scover3_B (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (xs : Vec F S1024x128 .f32) (y : S1024x128.Idx) :
    ∃ pc ∈ (kernelRun3_B c i arg3 harg3 arg4 harg4 arg5 harg5 arg6 harg6 hc0 hc1 x0 x1 xs).1, y ∈ pc.1.set :=
  View.cover_of_tiledL (kernelRun3_B c i arg3 harg3 arg4 harg4 arg5 harg5 arg6 harg6 hc0 hc1 x0 x1 xs).1 S1024x128.size (by sl_kernel_rfl) y
/-- What a middle block leaves in the accumulator. -/
def sout3_B (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (xs : Vec F S1024x128 .f32) : Vec F S1024x128 .f32 :=
  VS3.read (Elt F) (VS3.writes (Elt F) VS3.junk (kernelRun3_B c i arg3 harg3 arg4 harg4 arg5 harg5 arg6 harg6 hc0 hc1 x0 x1 xs).1)

/-- The stores of a last block cover the output block, -/
theorem cover3_C (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) (y : S1024x128.Idx) :
    ∃ pc ∈ (kernelRun3_C c i arg3 harg3 arg4 harg4 arg5 harg5 arg6 harg6 hc0 hc1 x0 x1 xs).1, y ∈ pc.1.set :=
  View.cover_of_tiledL (kernelRun3_C c i arg3 harg3 arg4 harg4 arg5 harg5 arg6 harg6 hc0 hc1 x0 x1 xs).1 S1024x128.size (by sl_kernel_rfl) y
/-- which then holds this: -/
def out3_C (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) : Vec F S1024x128 .f32 :=
  VO3.read (Elt F) (VO3.writes (Elt F) VO3.junk (kernelRun3_C c i arg3 harg3 arg4 harg4 arg5 harg5 arg6 harg6 hc0 hc1 x0 x1 xs).1)
/-- and the accumulator. -/
theorem scover3_C (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) (y : S1024x128.Idx) :
    ∃ pc ∈ (kernelRun3_C c i arg3 harg3 arg4 harg4 arg5 harg5 arg6 harg6 hc0 hc1 x0 x1 xs).2.1, y ∈ pc.1.set :=
  View.cover_of_tiledL (kernelRun3_C c i arg3 harg3 arg4 harg4 arg5 harg5 arg6 harg6 hc0 hc1 x0 x1 xs).2.1 S1024x128.size (by sl_kernel_rfl) y
def sout3_C (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) : Vec F S1024x128 .f32 :=
  VS3.read (Elt F) (VS3.writes (Elt F) VS3.junk (kernelRun3_C c i arg3 harg3 arg4 harg4 arg5 harg5 arg6 harg6 hc0 hc1 x0 x1 xs).2.1)

/-- Contents nobody reads: what is recorded for the output block at the points that store nothing into it. -/
def idleOut3 : Vec F S1024x128 .f32 := VO3.read (Elt F) VO3.junk

/-! ## Along the grid -/

/-- What the output block (first component) and the accumulator (second component) hold after the body at position
    `n`: a first block starts afresh, any other block continues from what position `n - 1` left in the accumulator. -/
def outsAt3 (c : Dev nD) : (n : ℕ) → n < cfg3.N → Vec F S1024x128 .f32 × Vec F S1024x128 .f32
  | 0, hn => (idleOut3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 4 = 0 then
      if h1 : (n + 1) % 4 = 3 then False.elim (by omega)
      else (idleOut3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 4 = 3 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (idleOut3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- At a first block. -/
theorem outsAt3_A (c : Dev nD) (t : Fin cfg3.N) (h0 : t.val % 4 = 0) (h1 : ¬t.val % 4 = 3) :
    outsAt3 V c t.val t.isLt = (idleOut3, sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- At a middle block. -/
theorem outsAt3_B (c : Dev nD) (t : Fin cfg3.N) (h0 : ¬t.val % 4 = 0) (h1 : ¬t.val % 4 = 3) :
    outsAt3 V c t.val t.isLt = (idleOut3, sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block. -/
theorem outsAt3_C (c : Dev nD) (t : Fin cfg3.N) (h0 : ¬t.val % 4 = 0) (h1 : t.val % 4 = 3) :
    outsAt3 V c t.val t.isLt = (out3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards it
    holds what the point before left; the other scoped buffers and the generator register ride along. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ rest3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2) ∗ rest3 c) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ rest3 c) ∗ (∃ r, prngReg c r)) := by
  cases n with
  | zero => exact absurd rfl hz
  | succ n => rfl

/-! ## The pipeline's proof data -/

/-- The arrays as the region finds them; after the body at a point each input's buffer at its block, the output's at
    `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' staging buffers hold their blocks; the position modulo four says which situation
    the point is in; the invariant hands the body the accumulator (at what the point before left, or at anything before
    the first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 4 = 0
  · have h1 : ¬t.val % 4 = 3 := by omega
    rw [Dat.leavesExact_idle (dat3 V c) 2 t (idleAt3_2 t (fun h => h1 ((hcond3_1 t).mp h))) (noFlush3_2 t (fun h => h1 ((hcond3_1 t).mp h)))]
    rw [outsAt3_A V c t h0 h1]
    unfold sout3_A; (try dsimp only)
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _)
          iexact HR
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨HS, HR⟩, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold out3_C sout3_C; (try dsimp only)
      rw [PhiS3_castSucc V c t, PhiS3_pos V c _ _ hz]
      iintro ⟨⟨⟨HS, HR⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover3_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C c _ _ _ _ _ _ _ _ _ _ _ _ _ _)
    · rw [Dat.leavesExact_idle (dat3 V c) 2 t (idleAt3_2 t (fun h => h1 ((hcond3_1 t).mp h))) (noFlush3_2 t (fun h => h1 ((hcond3_1 t).mp h)))]
      rw [outsAt3_B V c t h0 h1]
      unfold sout3_B; (try dsimp only)
      rw [PhiS3_castSucc V c t, PhiS3_pos V c _ _ hz]
      iintro ⟨⟨⟨HS, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover3_B c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

/-- After any point the invariant gives the region's rest back, the accumulator's contents forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg
theorem hout3 (c : Dev nD) : (dat3 V c).Φ (Fin.last cfg3.N) ⊢ Pipeline.ΦA spec3 c :=
  Phi_out3 V c _ (by rw [Fin.val_last]; have : cfg3.N = 16 := N_3; omega)

end Cert.Kernel.Hand

end
-- ==== Proof.Bits.Frame.lean ====
/-
  The whole program as a chain of six segments — the host operations before the first Pallas call, the four Pallas
  calls, the host operations after the last — and the contents of every buffer at each boundary, folded from the
  launch memory: a stretch of host operations applies them; a Pallas call leaves its input arrays as entered and its
  output array at what the write-backs of its pipeline leave.  Every weakly fair execution terminates with every
  unscoped buffer at the last fold.  The argument arrays are touched by no segment, so they end as launched.
-/
import proofs.«123347_j77695958385169_1_alg».proof.Proof.Bits.Region0
import proofs.«123347_j77695958385169_1_alg».proof.Proof.Bits.Region1
import proofs.«123347_j77695958385169_1_alg».proof.Proof.Bits.Region2
import proofs.«123347_j77695958385169_1_alg».proof.Proof.Bits.Region3
import proofs.«123347_j77695958385169_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Call 0 changes only its output array `main_v13`: an input window's array ends as it was entered, and no other
    buffer is touched. -/
theorem W2_keep (c : Dev nD) (b : Ref sig .tc) (hb : b ≠ main_v13) :
    W2 m ρ c (Proc.devRef .tc b) = W1 m ρ c (Proc.devRef .tc b) := by
  by_cases h0 : b = Pipeline.arrRef spec0 0
  · subst h0
    exact (W2_arr m ρ c 0).trans (((dat0 (V1 m ρ) c).arrAt_in 0 rfl _).trans (A_eq0 (V1 m ρ) c 0))
  · by_cases h1 : b = Pipeline.arrRef spec0 1
    · subst h1
      exact (W2_arr m ρ c 1).trans (((dat0 (V1 m ρ) c).arrAt_in 1 rfl _).trans (A_eq0 (V1 m ρ) c 1))
    · refine W2_of_ne m ρ c b fun w e => ?_
      match w with
      | ⟨0, _⟩ => exact h0 e.symm
      | ⟨1, _⟩ => exact h1 e.symm
      | ⟨2, _⟩ => exact hb e.symm

/-- At call 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- Call 1 changes only its output array `main_v14`: an input window's array ends as it was entered, and no other
    buffer is touched. -/
theorem W3_keep (c : Dev nD) (b : Ref sig .tc) (hb : b ≠ main_v14) :
    W3 m ρ c (Proc.devRef .tc b) = W2 m ρ c (Proc.devRef .tc b) := by
  by_cases h0 : b = Pipeline.arrRef spec1 0
  · subst h0
    exact (W3_arr m ρ c 0).trans (((dat1 (V2 m ρ) c).arrAt_in 0 rfl _).trans (A_eq1 (V2 m ρ) c 0))
  · by_cases h1 : b = Pipeline.arrRef spec1 1
    · subst h1
      exact (W3_arr m ρ c 1).trans (((dat1 (V2 m ρ) c).arrAt_in 1 rfl _).trans (A_eq1 (V2 m ρ) c 1))
    · refine W3_of_ne m ρ c b fun w e => ?_
      match w with
      | ⟨0, _⟩ => exact h0 e.symm
      | ⟨1, _⟩ => exact h1 e.symm
      | ⟨2, _⟩ => exact hb e.symm

/-- At call 2's exit: its arrays at what the pipeline leaves (the inputs as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- Call 2 changes only its output array `main_v15`: an input window's array ends as it was entered, and no other
    buffer is touched. -/
theorem W4_keep (c : Dev nD) (b : Ref sig .tc) (hb : b ≠ main_v15) :
    W4 m ρ c (Proc.devRef .tc b) = W3 m ρ c (Proc.devRef .tc b) := by
  by_cases h0 : b = Pipeline.arrRef spec2 0
  · subst h0
    exact (W4_arr m ρ c 0).trans (((dat2 (V3 m ρ) c).arrAt_in 0 rfl _).trans (A_eq2 (V3 m ρ) c 0))
  · by_cases h1 : b = Pipeline.arrRef spec2 1
    · subst h1
      exact (W4_arr m ρ c 1).trans (((dat2 (V3 m ρ) c).arrAt_in 1 rfl _).trans (A_eq2 (V3 m ρ) c 1))
    · refine W4_of_ne m ρ c b fun w e => ?_
      match w with
      | ⟨0, _⟩ => exact h0 e.symm
      | ⟨1, _⟩ => exact h1 e.symm
      | ⟨2, _⟩ => exact hb e.symm

/-- At call 3's exit: its arrays at what the pipeline leaves (the inputs as entered, the output's write-backs folded),
    every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)
/-- Call 3 changes only its output array `main_v16`: an input window's array ends as it was entered, and no other
    buffer is touched. -/
theorem W5_keep (c : Dev nD) (b : Ref sig .tc) (hb : b ≠ main_v16) :
    W5 m ρ c (Proc.devRef .tc b) = W4 m ρ c (Proc.devRef .tc b) := by
  by_cases h0 : b = Pipeline.arrRef spec3 0
  · subst h0
    exact (W5_arr m ρ c 0).trans (((dat3 (V4 m ρ) c).arrAt_in 0 rfl _).trans (A_eq3 (V4 m ρ) c 0))
  · by_cases h1 : b = Pipeline.arrRef spec3 1
    · subst h1
      exact (W5_arr m ρ c 1).trans (((dat3 (V4 m ρ) c).arrAt_in 1 rfl _).trans (A_eq3 (V4 m ρ) c 1))
    · refine W5_of_ne m ρ c b fun w e => ?_
      match w with
      | ⟨0, _⟩ => exact h0 e.symm
      | ⟨1, _⟩ => exact h1 e.symm
      | ⟨2, _⟩ => exact hb e.symm

/-- After the last stretch of host operations. -/
abbrev W6 : Dev nD → Valuation τ sig (Elt F) := fun c => StableHlo.after hostOps4 (W5 m ρ c)

/-- A buffer that no host operation writes and that is no call's output array ends as launched. -/
theorem W6_untouched (c : Dev nD) (b : Ref sig .tc) (h0 : b ∉ hostOps0_W) (h4 : b ∉ hostOps4_W)
    (hb0 : b ≠ main_v13) (hb1 : b ≠ main_v14) (hb2 : b ≠ main_v15) (hb3 : b ≠ main_v16) :
    W6 m ρ c (Proc.devRef .tc b) = m ((c : Thread nD τ).loc b) :=
  calc W6 m ρ c (Proc.devRef .tc b)
    _ = W5 m ρ c (Proc.devRef .tc b) := StableHlo.after_of_writes_sub hostOps4 _ hostOps4_writes h4
    _ = W4 m ρ c (Proc.devRef .tc b) := W5_keep m ρ c b hb3
    _ = W3 m ρ c (Proc.devRef .tc b) := W4_keep m ρ c b hb2
    _ = W2 m ρ c (Proc.devRef .tc b) := W3_keep m ρ c b hb1
    _ = W1 m ρ c (Proc.devRef .tc b) := W2_keep m ρ c b hb0
    _ = W0 m ρ c (Proc.devRef .tc b) := StableHlo.after_of_writes_sub hostOps0 _ hostOps0_writes h0
    _ = m ((c : Thread nD τ).loc b) := rfl

/-! ## The proof data family and the thread state -/

abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Pallas call 0 as a segment: entered from every unscoped buffer at `W1`, left at `W2`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered from every unscoped buffer at `W2`, left at `W3`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment: entered from every unscoped buffer at `W3`, left at `W4`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 as a segment: entered from every unscoped buffer at `W4`, left at `W5`. Its arrays are split
    out of the unscoped buffers and put back at the exit contents; the generator register goes into the region's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state holds every unscoped buffer at the last fold `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every execution terminates and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_untouched m ρ c main_arg0 (by decide) (by decide) (by decide) (by decide) (by decide) (by decide)),
     (h c _ (mem_uc main_arg1 (by decide))).trans (W6_untouched m ρ c main_arg1 (by decide) (by decide) (by decide) (by decide) (by decide) (by decide)),
     (h c _ (mem_uc main_arg2 (by decide))).trans (W6_untouched m ρ c main_arg2 (by decide) (by decide) (by decide) (by decide) (by decide) (by decide)),
     (h c _ (mem_uc main_arg3 (by decide))).trans (W6_untouched m ρ c main_arg3 (by decide) (by decide) (by decide) (by decide) (by decide) (by decide)),
     (h c _ (mem_uc main_arg4 (by decide))).trans (W6_untouched m ρ c main_arg4 (by decide) (by decide) (by decide) (by decide) (by decide) (by decide))⟩)
    (run_all m ρ)

end Cert.Kernel.Hand

end
-- ==== Proof.Ideal.Runs0.lean ====
/-
  Pallas call 0: the two conditions of its body decided over the grid, and the body run once in each of the three
  situations a grid point can be in along the contraction axis — the first block (the accumulator is reset, then
  receives the first partial product), a middle block (the accumulator receives one more partial product), the last
  block (one more partial product, then the accumulator is copied to the output block).  Each run records, as a list
  of stored pieces, what the accumulator and the output block hold afterwards.
-/
import proofs.«123347_j77695958385169_1_alg».proof.Proof.Gen.KernelIdeal.Launch
import proofs.«123347_j77695958385169_1_alg».proof.Proof.Gen.KernelIdeal.Skeleton
import proofs.«123347_j77695958385169_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This is the first block along the contraction axis", as the body computes it from the grid coordinates. -/
abbrev cond0_0 (i : grid0.Coords) : Prop := (Scalar.cmpi .ne (Scalar.extui (Scalar.cmpi .eq (BitVec.ofNat 32 (i 2).val) 0#32)) 0#32) = 1#1
/-- It holds exactly at the points whose position is a multiple of four. -/
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last block along the contraction axis". -/
abbrev cond0_1 (i : grid0.Coords) : Prop := k0_cond2 i = 1#1
/-- It holds exactly at the points whose position is three modulo four. -/
theorem hcond0_1 : ∀ t : Fin cfg0.N, cond0_1 (grid0.coords t) ↔ t.val % 4 = 3 :=
  (by decide +kernel : ∀ t : Fin grid0.N, cond0_1 (grid0.coords t) ↔ t.val % 4 = 3)

/-- The two input windows are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last block the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last block it is live. -/
theorem liveAt0_2 : ∀ t : Fin cfg0.N, cond0_1 (grid0.coords t) → cfg0.idle 2 (grid0.coords t) = false := by decide +kernel

/-- Each window's current staging memref at point `t`, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x1024 .f32 := Memref.whole cc0_scratch0
abbrev VS0 : View sig .tc .vmem S1024x1024 .f32 := (scM0).view
abbrev VO0 : View sig .tc .vmem S1024x1024 .f32 := (Memref.whole cc0_stg2_0 : Memref sig .tc .vmem S1024x1024 .f32).view

/-- The scoped buffers of the core other than this call's staging buffers and its accumulator: carried through the
    region unopened. -/
abbrev rest0 (c : Dev nD) : sProp 𝕄 :=
  Pipeline.scopedRestBut (Ix := Unit) (Name := ℕ) (U := UR sig nD τ) (Lvl := ℕ) (Val := Elt F) spec0 c [cc0_scratch0]

/-- What the region's invariant holds besides the windows: the accumulator at some contents, the other scoped buffers,
    and the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [Idealize.SL.BI.bigSepL_singleton, scM0, owns_whole]; try rfl

set_option maxHeartbeats 1000000 in
/-- FIRST BLOCK: the accumulator, whatever it held, is reset and receives the first partial product; the output block is
    handed back untouched. -/
noncomputable def kernelRun0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- MIDDLE BLOCK: the accumulator, holding `xs`, receives one more partial product; the output block is handed back
    untouched. -/
noncomputable def kernelRun0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (xs : Vec F S1024x1024 .f32) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- LAST BLOCK: the accumulator, holding `xs`, receives the last partial product and is copied to the output block. -/
noncomputable def kernelRun0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Hand

end
-- ==== Proof.Ideal.Region0.lean ====
/-
  Pallas call 0 at a parameter `V`, the contents of the core's buffers when the region is entered: each window's
  block at a grid point; what the accumulator holds after each point, by recursion along the grid (reset at a first
  block, one more partial product at every block) and what the output block holds at a last block (the accumulator);
  the proof data of the pipeline; and the body's obligation at every point, by cases on the block's position.
-/
import proofs.«123347_j77695958385169_1_alg».proof.Proof.Ideal.Runs0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each situation leaves -/

/-- The stores of a first block cover the accumulator. -/
theorem scover0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) (y : S1024x1024.Idx) :
    ∃ pc ∈ (kernelRun0_A c i arg3 harg3 arg4 harg4 arg5 harg5 arg6 harg6 hc0 hc1 x0 x1).1, y ∈ pc.1.set :=
  View.cover_of_tiledL (kernelRun0_A c i arg3 harg3 arg4 harg4 arg5 harg5 arg6 harg6 hc0 hc1 x0 x1).1 S1024x1024.size (by sl_kernel_rfl) y
/-- What a first block leaves in the accumulator. -/
def sout0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) : Vec F S1024x1024 .f32 :=
  VS0.read (Elt F) (VS0.writes (Elt F) VS0.junk (kernelRun0_A c i arg3 harg3 arg4 harg4 arg5 harg5 arg6 harg6 hc0 hc1 x0 x1).1)

/-- The stores of a middle block cover the accumulator. -/
theorem scover0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (xs : Vec F S1024x1024 .f32) (y : S1024x1024.Idx) :
    ∃ pc ∈ (kernelRun0_B c i arg3 harg3 arg4 harg4 arg5 harg5 arg6 harg6 hc0 hc1 x0 x1 xs).1, y ∈ pc.1.set :=
  View.cover_of_tiledL (kernelRun0_B c i arg3 harg3 arg4 harg4 arg5 harg5 arg6 harg6 hc0 hc1 x0 x1 xs).1 S1024x1024.size (by sl_kernel_rfl) y
/-- What a middle block leaves in the accumulator. -/
def sout0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (xs : Vec F S1024x1024 .f32) : Vec F S1024x1024 .f32 :=
  VS0.read (Elt F) (VS0.writes (Elt F) VS0.junk (kernelRun0_B c i arg3 harg3 arg4 harg4 arg5 harg5 arg6 harg6 hc0 hc1 x0 x1 xs).1)

/-- The stores of a last block cover the output block, -/
theorem cover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) (y : S1024x1024.Idx) :
    ∃ pc ∈ (kernelRun0_C c i arg3 harg3 arg4 harg4 arg5 harg5 arg6 harg6 hc0 hc1 x0 x1 xs).1, y ∈ pc.1.set :=
  View.cover_of_tiledL (kernelRun0_C c i arg3 harg3 arg4 harg4 arg5 harg5 arg6 harg6 hc0 hc1 x0 x1 xs).1 S1024x1024.size (by sl_kernel_rfl) y
/-- which then holds this: -/
def out0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) : Vec F S1024x1024 .f32 :=
  VO0.read (Elt F) (VO0.writes (Elt F) VO0.junk (kernelRun0_C c i arg3 harg3 arg4 harg4 arg5 harg5 arg6 harg6 hc0 hc1 x0 x1 xs).1)
/-- and the accumulator. -/
theorem scover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) (y : S1024x1024.Idx) :
    ∃ pc ∈ (kernelRun0_C c i arg3 harg3 arg4 harg4 arg5 harg5 arg6 harg6 hc0 hc1 x0 x1 xs).2.1, y ∈ pc.1.set :=
  View.cover_of_tiledL (kernelRun0_C c i arg3 harg3 arg4 harg4 arg5 harg5 arg6 harg6 hc0 hc1 x0 x1 xs).2.1 S1024x1024.size (by sl_kernel_rfl) y
def sout0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) : Vec F S1024x1024 .f32 :=
  VS0.read (Elt F) (VS0.writes (Elt F) VS0.junk (kernelRun0_C c i arg3 harg3 arg4 harg4 arg5 harg5 arg6 harg6 hc0 hc1 x0 x1 xs).2.1)

/-- Contents nobody reads: what is recorded for the output block at the points that store nothing into it. -/
def idleOut0 : Vec F S1024x1024 .f32 := VO0.read (Elt F) VO0.junk

/-! ## Along the grid -/

/-- What the output block (first component) and the accumulator (second component) hold after the body at position
    `n`: a first block starts afresh, any other block continues from what position `n - 1` left in the accumulator. -/
def outsAt0 (c : Dev nD) : (n : ℕ) → n < cfg0.N → Vec F S1024x1024 .f32 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then False.elim (by omega)
      else (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first block. -/
theorem outsAt0_A (c : Dev nD) (t : Fin cfg0.N) (h0 : t.val % 4 = 0) (h1 : ¬t.val % 4 = 3) :
    outsAt0 V c t.val t.isLt = (idleOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle block. -/
theorem outsAt0_B (c : Dev nD) (t : Fin cfg0.N) (h0 : ¬t.val % 4 = 0) (h1 : ¬t.val % 4 = 3) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards it
    holds what the point before left; the other scoped buffers and the generator register ride along. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The pipeline's proof data -/

/-- The arrays as the region finds them; after the body at a point each input's buffer at its block, the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' staging buffers hold their blocks; the position modulo four says which situation
    the point is in; the invariant hands the body the accumulator (at what the point before left, or at anything before
    the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- After any point the invariant gives the region's rest back, the accumulator's contents forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.Ideal.Runs1.lean ====
/-
  Pallas call 1: the two conditions of its body decided over the grid, and the body run once in each of the three
  situations a grid point can be in along the contraction axis — the first block (the accumulator is reset, then
  receives the first partial product), a middle block (the accumulator receives one more partial product), the last
  block (one more partial product, then the accumulator is copied to the output block).  Each run records, as a list
  of stored pieces, what the accumulator and the output block hold afterwards.
-/
import proofs.«123347_j77695958385169_1_alg».proof.Proof.Gen.KernelIdeal.Launch
import proofs.«123347_j77695958385169_1_alg».proof.Proof.Gen.KernelIdeal.Skeleton
import proofs.«123347_j77695958385169_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This is the first block along the contraction axis", as the body computes it from the grid coordinates. -/
abbrev cond1_0 (i : grid1.Coords) : Prop := (Scalar.cmpi .ne (Scalar.extui (Scalar.cmpi .eq (BitVec.ofNat 32 (i 2).val) 0#32)) 0#32) = 1#1
/-- It holds exactly at the points whose position is a multiple of four. -/
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last block along the contraction axis". -/
abbrev cond1_1 (i : grid1.Coords) : Prop := k1_cond2 i = 1#1
/-- It holds exactly at the points whose position is three modulo four. -/
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last block the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last block it is live. -/
theorem liveAt1_2 : ∀ t : Fin cfg1.N, cond1_1 (grid1.coords t) → cfg1.idle 2 (grid1.coords t) = false := by decide +kernel

/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x128 .f32 := Memref.whole cc1_scratch0
abbrev VS1 : View sig .tc .vmem S1024x128 .f32 := (scM1).view
abbrev VO1 : View sig .tc .vmem S1024x128 .f32 := (Memref.whole cc1_stg2_0 : Memref sig .tc .vmem S1024x128 .f32).view

/-- The scoped buffers of the core other than this call's staging buffers and its accumulator: carried through the
    region unopened. -/
abbrev rest1 (c : Dev nD) : sProp 𝕄 :=
  Pipeline.scopedRestBut (Ix := Unit) (Name := ℕ) (U := UR sig nD τ) (Lvl := ℕ) (Val := Elt F) spec1 c [cc1_scratch0]

/-- What the region's invariant holds besides the windows: the accumulator at some contents, the other scoped buffers,
    and the generator register. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [Idealize.SL.BI.bigSepL_singleton, scM1, owns_whole]; try rfl

set_option maxHeartbeats 1000000 in
/-- FIRST BLOCK: the accumulator, whatever it held, is reset and receives the first partial product; the output block is
    handed back untouched. -/
noncomputable def kernelRun1_A (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- MIDDLE BLOCK: the accumulator, holding `xs`, receives one more partial product; the output block is handed back
    untouched. -/
noncomputable def kernelRun1_B (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- LAST BLOCK: the accumulator, holding `xs`, receives the last partial product and is copied to the output block. -/
noncomputable def kernelRun1_C (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Hand

end
-- ==== Proof.Ideal.Region1.lean ====
/-
  Pallas call 1 at a parameter `V`, the contents of the core's buffers when the region is entered: each window's
  block at a grid point; what the accumulator holds after each point, by recursion along the grid (reset at a first
  block, one more partial product at every block) and what the output block holds at a last block (the accumulator);
  the proof data of the pipeline; and the body's obligation at every point, by cases on the block's position.
-/
import proofs.«123347_j77695958385169_1_alg».proof.Proof.Ideal.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each situation leaves -/

/-- The stores of a first block cover the accumulator. -/
theorem scover1_A (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (y : S1024x128.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S1024x128.size (by sl_kernel_rfl) y
/-- What a first block leaves in the accumulator. -/
def sout1_A (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) : Vec F S1024x128 .f32 :=
  VS1.read (Elt F) (VS1.writes (Elt F) VS1.junk (kernelRun1_A c i arg3 harg3 arg4 harg4 arg5 harg5 arg6 harg6 hc0 hc1 x0 x1).1)

/-- The stores of a middle block cover the accumulator. -/
theorem scover1_B (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (xs : Vec F S1024x128 .f32) (y : S1024x128.Idx) :
    ∃ pc ∈ (kernelRun1_B c i arg3 harg3 arg4 harg4 arg5 harg5 arg6 harg6 hc0 hc1 x0 x1 xs).1, y ∈ pc.1.set :=
  View.cover_of_tiledL (kernelRun1_B c i arg3 harg3 arg4 harg4 arg5 harg5 arg6 harg6 hc0 hc1 x0 x1 xs).1 S1024x128.size (by sl_kernel_rfl) y
/-- What a middle block leaves in the accumulator. -/
def sout1_B (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (xs : Vec F S1024x128 .f32) : Vec F S1024x128 .f32 :=
  VS1.read (Elt F) (VS1.writes (Elt F) VS1.junk (kernelRun1_B c i arg3 harg3 arg4 harg4 arg5 harg5 arg6 harg6 hc0 hc1 x0 x1 xs).1)

/-- The stores of a last block cover the output block, -/
theorem cover1_C (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) (y : S1024x128.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S1024x128.size (by sl_kernel_rfl) y
/-- which then holds this: -/
def out1_C (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) : Vec F S1024x128 .f32 :=
  VO1.read (Elt F) (VO1.writes (Elt F) VO1.junk (kernelRun1_C c i arg3 harg3 arg4 harg4 arg5 harg5 arg6 harg6 hc0 hc1 x0 x1 xs).1)
/-- and the accumulator. -/
theorem scover1_C (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) (y : S1024x128.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S1024x128.size (by sl_kernel_rfl) y
def sout1_C (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) : Vec F S1024x128 .f32 :=
  VS1.read (Elt F) (VS1.writes (Elt F) VS1.junk (kernelRun1_C c i arg3 harg3 arg4 harg4 arg5 harg5 arg6 harg6 hc0 hc1 x0 x1 xs).2.1)

/-- Contents nobody reads: what is recorded for the output block at the points that store nothing into it. -/
def idleOut1 : Vec F S1024x128 .f32 := VO1.read (Elt F) VO1.junk

/-! ## Along the grid -/

/-- What the output block (first component) and the accumulator (second component) hold after the body at position
    `n`: a first block starts afresh, any other block continues from what position `n - 1` left in the accumulator. -/
def outsAt1 (c : Dev nD) : (n : ℕ) → n < cfg1.N → Vec F S1024x128 .f32 × Vec F S1024x128 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then False.elim (by omega)
      else (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first block. -/
theorem outsAt1_A (c : Dev nD) (t : Fin cfg1.N) (h0 : t.val % 4 = 0) (h1 : ¬t.val % 4 = 3) :
    outsAt1 V c t.val t.isLt = (idleOut1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle block. -/
theorem outsAt1_B (c : Dev nD) (t : Fin cfg1.N) (h0 : ¬t.val % 4 = 0) (h1 : ¬t.val % 4 = 3) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards it
    holds what the point before left; the other scoped buffers and the generator register ride along. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The pipeline's proof data -/

/-- The arrays as the region finds them; after the body at a point each input's buffer at its block, the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' staging buffers hold their blocks; the position modulo four says which situation
    the point is in; the invariant hands the body the accumulator (at what the point before left, or at anything before
    the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives the region's rest back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.Ideal.Runs2.lean ====
/-
  Pallas call 2: the two conditions of its body decided over the grid, and the body run once in each of the three
  situations a grid point can be in along the contraction axis — the first block (the accumulator is reset, then
  receives the first partial product), a middle block (the accumulator receives one more partial product), the last
  block (one more partial product, then the accumulator is copied to the output block).  Each run records, as a list
  of stored pieces, what the accumulator and the output block hold afterwards.
-/
import proofs.«123347_j77695958385169_1_alg».proof.Proof.Gen.KernelIdeal.Launch
import proofs.«123347_j77695958385169_1_alg».proof.Proof.Gen.KernelIdeal.Skeleton
import proofs.«123347_j77695958385169_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This is the first block along the contraction axis", as the body computes it from the grid coordinates. -/
abbrev cond2_0 (i : grid2.Coords) : Prop := (Scalar.cmpi .ne (Scalar.extui (Scalar.cmpi .eq (BitVec.ofNat 32 (i 2).val) 0#32)) 0#32) = 1#1
/-- It holds exactly at the points whose position is a multiple of four. -/
theorem hcond2_0 : ∀ t : Fin cfg2.N, cond2_0 (grid2.coords t) ↔ t.val % 4 = 0 :=
  (by decide +kernel : ∀ t : Fin grid2.N, cond2_0 (grid2.coords t) ↔ t.val % 4 = 0)
/-- "This is the last block along the contraction axis". -/
abbrev cond2_1 (i : grid2.Coords) : Prop := k2_cond2 i = 1#1
/-- It holds exactly at the points whose position is three modulo four. -/
theorem hcond2_1 : ∀ t : Fin cfg2.N, cond2_1 (grid2.coords t) ↔ t.val % 4 = 3 :=
  (by decide +kernel : ∀ t : Fin grid2.N, cond2_1 (grid2.coords t) ↔ t.val % 4 = 3)

/-- The two input windows are live at every point. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the last block the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last block it is live. -/
theorem liveAt2_2 : ∀ t : Fin cfg2.N, cond2_1 (grid2.coords t) → cfg2.idle 2 (grid2.coords t) = false := by decide +kernel

/-- Each window's current staging memref at point `t`, and its wholeness. -/
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S1024x128 .f32 := Memref.whole cc2_scratch0
abbrev VS2 : View sig .tc .vmem S1024x128 .f32 := (scM2).view
abbrev VO2 : View sig .tc .vmem S1024x128 .f32 := (Memref.whole cc2_stg2_0 : Memref sig .tc .vmem S1024x128 .f32).view

/-- The scoped buffers of the core other than this call's staging buffers and its accumulator: carried through the
    region unopened. -/
abbrev rest2 (c : Dev nD) : sProp 𝕄 :=
  Pipeline.scopedRestBut (Ix := Unit) (Name := ℕ) (U := UR sig nD τ) (Lvl := ℕ) (Val := Elt F) spec2 c [cc2_scratch0]

/-- What the region's invariant holds besides the windows: the accumulator at some contents, the other scoped buffers,
    and the generator register. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [Idealize.SL.BI.bigSepL_singleton, scM2, owns_whole]; try rfl

set_option maxHeartbeats 1000000 in
/-- FIRST BLOCK: the accumulator, whatever it held, is reset and receives the first partial product; the output block is
    handed back untouched. -/
noncomputable def kernelRun2_A (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S1024x1024 .f32) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc2__matmul_kernel i arg3 harg3 arg4 harg4 arg5 harg5 arg6 harg6) K } := by
  refine ⟨?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- MIDDLE BLOCK: the accumulator, holding `xs`, receives one more partial product; the output block is handed back
    untouched. -/
noncomputable def kernelRun2_B (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : ¬cond2_1 i)
    (x0 : Vec F S1024x1024 .f32) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc2__matmul_kernel i arg3 harg3 arg4 harg4 arg5 harg5 arg6 harg6) K } := by
  refine ⟨?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- LAST BLOCK: the accumulator, holding `xs`, receives the last partial product and is copied to the output block. -/
noncomputable def kernelRun2_C (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Hand

end
-- ==== Proof.Ideal.Region2.lean ====
/-
  Pallas call 2 at a parameter `V`, the contents of the core's buffers when the region is entered: each window's
  block at a grid point; what the accumulator holds after each point, by recursion along the grid (reset at a first
  block, one more partial product at every block) and what the output block holds at a last block (the accumulator);
  the proof data of the pipeline; and the body's obligation at every point, by cases on the block's position.
-/
import proofs.«123347_j77695958385169_1_alg».proof.Proof.Ideal.Runs2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the
    region-entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each situation leaves -/

/-- The stores of a first block cover the accumulator. -/
theorem scover2_A (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S1024x1024 .f32) (x1 : Vec F S1024x128 .f32) (y : S1024x128.Idx) :
    ∃ pc ∈ (kernelRun2_A c i arg3 harg3 arg4 harg4 arg5 harg5 arg6 harg6 hc0 hc1 x0 x1).1, y ∈ pc.1.set :=
  View.cover_of_tiledL (kernelRun2_A c i arg3 harg3 arg4 harg4 arg5 harg5 arg6 harg6 hc0 hc1 x0 x1).1 S1024x128.size (by sl_kernel_rfl) y
/-- What a first block leaves in the accumulator. -/
def sout2_A (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S1024x1024 .f32) (x1 : Vec F S1024x128 .f32) : Vec F S1024x128 .f32 :=
  VS2.read (Elt F) (VS2.writes (Elt F) VS2.junk (kernelRun2_A c i arg3 harg3 arg4 harg4 arg5 harg5 arg6 harg6 hc0 hc1 x0 x1).1)

/-- The stores of a middle block cover the accumulator. -/
theorem scover2_B (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : ¬cond2_1 i)
    (x0 : Vec F S1024x1024 .f32) (x1 : Vec F S1024x128 .f32) (xs : Vec F S1024x128 .f32) (y : S1024x128.Idx) :
    ∃ pc ∈ (kernelRun2_B c i arg3 harg3 arg4 harg4 arg5 harg5 arg6 harg6 hc0 hc1 x0 x1 xs).1, y ∈ pc.1.set :=
  View.cover_of_tiledL (kernelRun2_B c i arg3 harg3 arg4 harg4 arg5 harg5 arg6 harg6 hc0 hc1 x0 x1 xs).1 S1024x128.size (by sl_kernel_rfl) y
/-- What a middle block leaves in the accumulator. -/
def sout2_B (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : ¬cond2_1 i)
    (x0 : Vec F S1024x1024 .f32) (x1 : Vec F S1024x128 .f32) (xs : Vec F S1024x128 .f32) : Vec F S1024x128 .f32 :=
  VS2.read (Elt F) (VS2.writes (Elt F) VS2.junk (kernelRun2_B c i arg3 harg3 arg4 harg4 arg5 harg5 arg6 harg6 hc0 hc1 x0 x1 xs).1)

/-- The stores of a last block cover the output block, -/
theorem cover2_C (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) (y : S1024x128.Idx) :
    ∃ pc ∈ (kernelRun2_C c i arg3 harg3 arg4 harg4 arg5 harg5 arg6 harg6 hc0 hc1 x0 x1 xs).1, y ∈ pc.1.set :=
  View.cover_of_tiledL (kernelRun2_C c i arg3 harg3 arg4 harg4 arg5 harg5 arg6 harg6 hc0 hc1 x0 x1 xs).1 S1024x128.size (by sl_kernel_rfl) y
/-- which then holds this: -/
def out2_C (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) : Vec F S1024x128 .f32 :=
  VO2.read (Elt F) (VO2.writes (Elt F) VO2.junk (kernelRun2_C c i arg3 harg3 arg4 harg4 arg5 harg5 arg6 harg6 hc0 hc1 x0 x1 xs).1)
/-- and the accumulator. -/
theorem scover2_C (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) (y : S1024x128.Idx) :
    ∃ pc ∈ (kernelRun2_C c i arg3 harg3 arg4 harg4 arg5 harg5 arg6 harg6 hc0 hc1 x0 x1 xs).2.1, y ∈ pc.1.set :=
  View.cover_of_tiledL (kernelRun2_C c i arg3 harg3 arg4 harg4 arg5 harg5 arg6 harg6 hc0 hc1 x0 x1 xs).2.1 S1024x128.size (by sl_kernel_rfl) y
def sout2_C (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) : Vec F S1024x128 .f32 :=
  VS2.read (Elt F) (VS2.writes (Elt F) VS2.junk (kernelRun2_C c i arg3 harg3 arg4 harg4 arg5 harg5 arg6 harg6 hc0 hc1 x0 x1 xs).2.1)

/-- Contents nobody reads: what is recorded for the output block at the points that store nothing into it. -/
def idleOut2 : Vec F S1024x128 .f32 := VO2.read (Elt F) VO2.junk

/-! ## Along the grid -/

/-- What the output block (first component) and the accumulator (second component) hold after the body at position
    `n`: a first block starts afresh, any other block continues from what position `n - 1` left in the accumulator. -/
def outsAt2 (c : Dev nD) : (n : ℕ) → n < cfg2.N → Vec F S1024x128 .f32 × Vec F S1024x128 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then False.elim (by omega)
      else (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At a first block. -/
theorem outsAt2_A (c : Dev nD) (t : Fin cfg2.N) (h0 : t.val % 4 = 0) (h1 : ¬t.val % 4 = 3) :
    outsAt2 V c t.val t.isLt = (idleOut2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- At a middle block. -/
theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block. -/
theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards it
    holds what the point before left; the other scoped buffers and the generator register ride along. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ rest2 c) ∗ (∃ r, prngReg c r)) := by
  cases n with
  | zero => exact absurd rfl hz
  | succ n => rfl

/-! ## The pipeline's proof data -/

/-- The arrays as the region finds them; after the body at a point each input's buffer at its block, the output's at
    `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' staging buffers hold their blocks; the position modulo four says which situation
    the point is in; the invariant hands the body the accumulator (at what the point before left, or at anything before
    the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C sout2_C; (try dsimp only)
      rw [PhiS2_castSucc V c t, PhiS2_pos V c _ _ hz]
      iintro ⟨⟨⟨HS, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ hz]
      iintro ⟨⟨⟨HS, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- After any point the invariant gives the region's rest back, the accumulator's contents forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg
theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.Ideal.Runs3.lean ====
/-
  Pallas call 3: the two conditions of its body decided over the grid, and the body run once in each of the three
  situations a grid point can be in along the contraction axis — the first block (the accumulator is reset, then
  receives the first partial product), a middle block (the accumulator receives one more partial product), the last
  block (one more partial product, then the accumulator is copied to the output block).  Each run records, as a list
  of stored pieces, what the accumulator and the output block hold afterwards.
-/
import proofs.«123347_j77695958385169_1_alg».proof.Proof.Gen.KernelIdeal.Launch
import proofs.«123347_j77695958385169_1_alg».proof.Proof.Gen.KernelIdeal.Skeleton
import proofs.«123347_j77695958385169_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This is the first block along the contraction axis", as the body computes it from the grid coordinates. -/
abbrev cond3_0 (i : grid3.Coords) : Prop := (Scalar.cmpi .ne (Scalar.extui (Scalar.cmpi .eq (BitVec.ofNat 32 (i 2).val) 0#32)) 0#32) = 1#1
/-- It holds exactly at the points whose position is a multiple of four. -/
theorem hcond3_0 : ∀ t : Fin cfg3.N, cond3_0 (grid3.coords t) ↔ t.val % 4 = 0 :=
  (by decide +kernel : ∀ t : Fin grid3.N, cond3_0 (grid3.coords t) ↔ t.val % 4 = 0)
/-- "This is the last block along the contraction axis". -/
abbrev cond3_1 (i : grid3.Coords) : Prop := k3_cond2 i = 1#1
/-- It holds exactly at the points whose position is three modulo four. -/
theorem hcond3_1 : ∀ t : Fin cfg3.N, cond3_1 (grid3.coords t) ↔ t.val % 4 = 3 :=
  (by decide +kernel : ∀ t : Fin grid3.N, cond3_1 (grid3.coords t) ↔ t.val % 4 = 3)

/-- The two input windows are live at every point. -/
theorem liveAt3_0 : ∀ t : Fin cfg3.N, cfg3.idle 0 (grid3.coords t) = false := by decide +kernel
theorem liveAt3_1 : ∀ t : Fin cfg3.N, cfg3.idle 1 (grid3.coords t) = false := by decide +kernel
/-- Away from the last block the output window is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- At the last block it is live. -/
theorem liveAt3_2 : ∀ t : Fin cfg3.N, cond3_1 (grid3.coords t) → cfg3.idle 2 (grid3.coords t) = false := by decide +kernel

/-- Each window's current staging memref at point `t`, and its wholeness. -/
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3 : Memref sig .tc .vmem S1024x128 .f32 := Memref.whole cc3_scratch0
abbrev VS3 : View sig .tc .vmem S1024x128 .f32 := (scM3).view
abbrev VO3 : View sig .tc .vmem S1024x128 .f32 := (Memref.whole cc3_stg2_0 : Memref sig .tc .vmem S1024x128 .f32).view

/-- The scoped buffers of the core other than this call's staging buffers and its accumulator: carried through the
    region unopened. -/
abbrev rest3 (c : Dev nD) : sProp 𝕄 :=
  Pipeline.scopedRestBut (Ix := Unit) (Name := ℕ) (U := UR sig nD τ) (Lvl := ℕ) (Val := Elt F) spec3 c [cc3_scratch0]

/-- What the region's invariant holds besides the windows: the accumulator at some contents, the other scoped buffers,
    and the generator register. -/
theorem PhiA3_eq (c : Dev nD) :
    (Pipeline.ΦA spec3 c : sProp 𝕄)
      = iprop(iprop((∃ d, owns (c : Thread nD τ) scM3 fullShare d) ∗ rest3 c) ∗ (∃ r, prngReg c r)) := by
  unfold Pipeline.ΦA
  rw [Pipeline.scopedRest_split_of_list spec3 c [cc3_scratch0] (by decide) (by decide)]
  simp only [Idealize.SL.BI.bigSepL_singleton, scM3, owns_whole]; try rfl

set_option maxHeartbeats 1000000 in
/-- FIRST BLOCK: the accumulator, whatever it held, is reset and receives the first partial product; the output block is
    handed back untouched. -/
noncomputable def kernelRun3_A (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc3__matmul_kernel i arg3 harg3 arg4 harg4 arg5 harg5 arg6 harg6) K } := by
  refine ⟨?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- MIDDLE BLOCK: the accumulator, holding `xs`, receives one more partial product; the output block is handed back
    untouched. -/
noncomputable def kernelRun3_B (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc3__matmul_kernel i arg3 harg3 arg4 harg4 arg5 harg5 arg6 harg6) K } := by
  refine ⟨?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- LAST BLOCK: the accumulator, holding `xs`, receives the last partial product and is copied to the output block. -/
noncomputable def kernelRun3_C (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3__matmul_kernel i arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Hand

end
-- ==== Proof.Ideal.Region3.lean ====
/-
  Pallas call 3 at a parameter `V`, the contents of the core's buffers when the region is entered: each window's
  block at a grid point; what the accumulator holds after each point, by recursion along the grid (reset at a first
  block, one more partial product at every block) and what the output block holds at a last block (the accumulator);
  the proof data of the pipeline; and the body's obligation at every point, by cases on the block's position.
-/
import proofs.«123347_j77695958385169_1_alg».proof.Proof.Ideal.Runs3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data whose array is the
    region-entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What each situation leaves -/

/-- The stores of a first block cover the accumulator. -/
theorem scover3_A (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (y : S1024x128.Idx) :
    ∃ pc ∈ (kernelRun3_A c i arg3 harg3 arg4 harg4 arg5 harg5 arg6 harg6 hc0 hc1 x0 x1).1, y ∈ pc.1.set :=
  View.cover_of_tiledL (kernelRun3_A c i arg3 harg3 arg4 harg4 arg5 harg5 arg6 harg6 hc0 hc1 x0 x1).1 S1024x128.size (by sl_kernel_rfl) y
/-- What a first block leaves in the accumulator. -/
def sout3_A (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) : Vec F S1024x128 .f32 :=
  VS3.read (Elt F) (VS3.writes (Elt F) VS3.junk (kernelRun3_A c i arg3 harg3 arg4 harg4 arg5 harg5 arg6 harg6 hc0 hc1 x0 x1).1)

/-- The stores of a middle block cover the accumulator. -/
theorem scover3_B (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (xs : Vec F S1024x128 .f32) (y : S1024x128.Idx) :
    ∃ pc ∈ (kernelRun3_B c i arg3 harg3 arg4 harg4 arg5 harg5 arg6 harg6 hc0 hc1 x0 x1 xs).1, y ∈ pc.1.set :=
  View.cover_of_tiledL (kernelRun3_B c i arg3 harg3 arg4 harg4 arg5 harg5 arg6 harg6 hc0 hc1 x0 x1 xs).1 S1024x128.size (by sl_kernel_rfl) y
/-- What a middle block leaves in the accumulator. -/
def sout3_B (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (xs : Vec F S1024x128 .f32) : Vec F S1024x128 .f32 :=
  VS3.read (Elt F) (VS3.writes (Elt F) VS3.junk (kernelRun3_B c i arg3 harg3 arg4 harg4 arg5 harg5 arg6 harg6 hc0 hc1 x0 x1 xs).1)

/-- The stores of a last block cover the output block, -/
theorem cover3_C (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) (y : S1024x128.Idx) :
    ∃ pc ∈ (kernelRun3_C c i arg3 harg3 arg4 harg4 arg5 harg5 arg6 harg6 hc0 hc1 x0 x1 xs).1, y ∈ pc.1.set :=
  View.cover_of_tiledL (kernelRun3_C c i arg3 harg3 arg4 harg4 arg5 harg5 arg6 harg6 hc0 hc1 x0 x1 xs).1 S1024x128.size (by sl_kernel_rfl) y
/-- which then holds this: -/
def out3_C (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) : Vec F S1024x128 .f32 :=
  VO3.read (Elt F) (VO3.writes (Elt F) VO3.junk (kernelRun3_C c i arg3 harg3 arg4 harg4 arg5 harg5 arg6 harg6 hc0 hc1 x0 x1 xs).1)
/-- and the accumulator. -/
theorem scover3_C (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) (y : S1024x128.Idx) :
    ∃ pc ∈ (kernelRun3_C c i arg3 harg3 arg4 harg4 arg5 harg5 arg6 harg6 hc0 hc1 x0 x1 xs).2.1, y ∈ pc.1.set :=
  View.cover_of_tiledL (kernelRun3_C c i arg3 harg3 arg4 harg4 arg5 harg5 arg6 harg6 hc0 hc1 x0 x1 xs).2.1 S1024x128.size (by sl_kernel_rfl) y
def sout3_C (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) : Vec F S1024x128 .f32 :=
  VS3.read (Elt F) (VS3.writes (Elt F) VS3.junk (kernelRun3_C c i arg3 harg3 arg4 harg4 arg5 harg5 arg6 harg6 hc0 hc1 x0 x1 xs).2.1)

/-- Contents nobody reads: what is recorded for the output block at the points that store nothing into it. -/
def idleOut3 : Vec F S1024x128 .f32 := VO3.read (Elt F) VO3.junk

/-! ## Along the grid -/

/-- What the output block (first component) and the accumulator (second component) hold after the body at position
    `n`: a first block starts afresh, any other block continues from what position `n - 1` left in the accumulator. -/
def outsAt3 (c : Dev nD) : (n : ℕ) → n < cfg3.N → Vec F S1024x128 .f32 × Vec F S1024x128 .f32
  | 0, hn => (idleOut3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 4 = 0 then
      if h1 : (n + 1) % 4 = 3 then False.elim (by omega)
      else (idleOut3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 4 = 3 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (idleOut3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- At a first block. -/
theorem outsAt3_A (c : Dev nD) (t : Fin cfg3.N) (h0 : t.val % 4 = 0) (h1 : ¬t.val % 4 = 3) :
    outsAt3 V c t.val t.isLt = (idleOut3, sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- At a middle block. -/
theorem outsAt3_B (c : Dev nD) (t : Fin cfg3.N) (h0 : ¬t.val % 4 = 0) (h1 : ¬t.val % 4 = 3) :
    outsAt3 V c t.val t.isLt = (idleOut3, sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block. -/
theorem outsAt3_C (c : Dev nD) (t : Fin cfg3.N) (h0 : ¬t.val % 4 = 0) (h1 : t.val % 4 = 3) :
    outsAt3 V c t.val t.isLt = (out3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards it
    holds what the point before left; the other scoped buffers and the generator register ride along. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ rest3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2) ∗ rest3 c) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ rest3 c) ∗ (∃ r, prngReg c r)) := by
  cases n with
  | zero => exact absurd rfl hz
  | succ n => rfl

/-! ## The pipeline's proof data -/

/-- The arrays as the region finds them; after the body at a point each input's buffer at its block, the output's at
    `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' staging buffers hold their blocks; the position modulo four says which situation
    the point is in; the invariant hands the body the accumulator (at what the point before left, or at anything before
    the first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 4 = 0
  · have h1 : ¬t.val % 4 = 3 := by omega
    rw [Dat.leavesExact_idle (dat3 V c) 2 t (idleAt3_2 t (fun h => h1 ((hcond3_1 t).mp h))) (noFlush3_2 t (fun h => h1 ((hcond3_1 t).mp h)))]
    rw [outsAt3_A V c t h0 h1]
    unfold sout3_A; (try dsimp only)
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _)
          iexact HR
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨HS, HR⟩, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold out3_C sout3_C; (try dsimp only)
      rw [PhiS3_castSucc V c t, PhiS3_pos V c _ _ hz]
      iintro ⟨⟨⟨HS, HR⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover3_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C c _ _ _ _ _ _ _ _ _ _ _ _ _ _)
    · rw [Dat.leavesExact_idle (dat3 V c) 2 t (idleAt3_2 t (fun h => h1 ((hcond3_1 t).mp h))) (noFlush3_2 t (fun h => h1 ((hcond3_1 t).mp h)))]
      rw [outsAt3_B V c t h0 h1]
      unfold sout3_B; (try dsimp only)
      rw [PhiS3_castSucc V c t, PhiS3_pos V c _ _ hz]
      iintro ⟨⟨⟨HS, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover3_B c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

/-- After any point the invariant gives the region's rest back, the accumulator's contents forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg
theorem hout3 (c : Dev nD) : (dat3 V c).Φ (Fin.last cfg3.N) ⊢ Pipeline.ΦA spec3 c :=
  Phi_out3 V c _ (by rw [Fin.val_last]; have : cfg3.N = 16 := N_3; omega)

end Cert.KernelIdeal.Hand

end
-- ==== Proof.Ideal.Frame.lean ====
/-
  The whole program as a chain of six segments — the host operations before the first Pallas call, the four Pallas
  calls, the host operations after the last — and the contents of every buffer at each boundary, folded from the
  launch memory: a stretch of host operations applies them; a Pallas call leaves its input arrays as entered and its
  output array at what the write-backs of its pipeline leave.  Every weakly fair execution terminates with every
  unscoped buffer at the last fold.  The argument arrays are touched by no segment, so they end as launched.
-/
import proofs.«123347_j77695958385169_1_alg».proof.Proof.Ideal.Region0
import proofs.«123347_j77695958385169_1_alg».proof.Proof.Ideal.Region1
import proofs.«123347_j77695958385169_1_alg».proof.Proof.Ideal.Region2
import proofs.«123347_j77695958385169_1_alg».proof.Proof.Ideal.Region3
import proofs.«123347_j77695958385169_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Call 0 changes only its output array `main_v13`: an input window's array ends as it was entered, and no other
    buffer is touched. -/
theorem W2_keep (c : Dev nD) (b : Ref sig .tc) (hb : b ≠ main_v13) :
    W2 m ρ c (Proc.devRef .tc b) = W1 m ρ c (Proc.devRef .tc b) := by
  by_cases h0 : b = Pipeline.arrRef spec0 0
  · subst h0
    exact (W2_arr m ρ c 0).trans (((dat0 (V1 m ρ) c).arrAt_in 0 rfl _).trans (A_eq0 (V1 m ρ) c 0))
  · by_cases h1 : b = Pipeline.arrRef spec0 1
    · subst h1
      exact (W2_arr m ρ c 1).trans (((dat0 (V1 m ρ) c).arrAt_in 1 rfl _).trans (A_eq0 (V1 m ρ) c 1))
    · refine W2_of_ne m ρ c b fun w e => ?_
      match w with
      | ⟨0, _⟩ => exact h0 e.symm
      | ⟨1, _⟩ => exact h1 e.symm
      | ⟨2, _⟩ => exact hb e.symm

/-- At call 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- Call 1 changes only its output array `main_v14`: an input window's array ends as it was entered, and no other
    buffer is touched. -/
theorem W3_keep (c : Dev nD) (b : Ref sig .tc) (hb : b ≠ main_v14) :
    W3 m ρ c (Proc.devRef .tc b) = W2 m ρ c (Proc.devRef .tc b) := by
  by_cases h0 : b = Pipeline.arrRef spec1 0
  · subst h0
    exact (W3_arr m ρ c 0).trans (((dat1 (V2 m ρ) c).arrAt_in 0 rfl _).trans (A_eq1 (V2 m ρ) c 0))
  · by_cases h1 : b = Pipeline.arrRef spec1 1
    · subst h1
      exact (W3_arr m ρ c 1).trans (((dat1 (V2 m ρ) c).arrAt_in 1 rfl _).trans (A_eq1 (V2 m ρ) c 1))
    · refine W3_of_ne m ρ c b fun w e => ?_
      match w with
      | ⟨0, _⟩ => exact h0 e.symm
      | ⟨1, _⟩ => exact h1 e.symm
      | ⟨2, _⟩ => exact hb e.symm

/-- At call 2's exit: its arrays at what the pipeline leaves (the inputs as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- Call 2 changes only its output array `main_v15`: an input window's array ends as it was entered, and no other
    buffer is touched. -/
theorem W4_keep (c : Dev nD) (b : Ref sig .tc) (hb : b ≠ main_v15) :
    W4 m ρ c (Proc.devRef .tc b) = W3 m ρ c (Proc.devRef .tc b) := by
  by_cases h0 : b = Pipeline.arrRef spec2 0
  · subst h0
    exact (W4_arr m ρ c 0).trans (((dat2 (V3 m ρ) c).arrAt_in 0 rfl _).trans (A_eq2 (V3 m ρ) c 0))
  · by_cases h1 : b = Pipeline.arrRef spec2 1
    · subst h1
      exact (W4_arr m ρ c 1).trans (((dat2 (V3 m ρ) c).arrAt_in 1 rfl _).trans (A_eq2 (V3 m ρ) c 1))
    · refine W4_of_ne m ρ c b fun w e => ?_
      match w with
      | ⟨0, _⟩ => exact h0 e.symm
      | ⟨1, _⟩ => exact h1 e.symm
      | ⟨2, _⟩ => exact hb e.symm

/-- At call 3's exit: its arrays at what the pipeline leaves (the inputs as entered, the output's write-backs folded),
    every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)
/-- Call 3 changes only its output array `main_v16`: an input window's array ends as it was entered, and no other
    buffer is touched. -/
theorem W5_keep (c : Dev nD) (b : Ref sig .tc) (hb : b ≠ main_v16) :
    W5 m ρ c (Proc.devRef .tc b) = W4 m ρ c (Proc.devRef .tc b) := by
  by_cases h0 : b = Pipeline.arrRef spec3 0
  · subst h0
    exact (W5_arr m ρ c 0).trans (((dat3 (V4 m ρ) c).arrAt_in 0 rfl _).trans (A_eq3 (V4 m ρ) c 0))
  · by_cases h1 : b = Pipeline.arrRef spec3 1
    · subst h1
      exact (W5_arr m ρ c 1).trans (((dat3 (V4 m ρ) c).arrAt_in 1 rfl _).trans (A_eq3 (V4 m ρ) c 1))
    · refine W5_of_ne m ρ c b fun w e => ?_
      match w with
      | ⟨0, _⟩ => exact h0 e.symm
      | ⟨1, _⟩ => exact h1 e.symm
      | ⟨2, _⟩ => exact hb e.symm

/-- After the last stretch of host operations. -/
abbrev W6 : Dev nD → Valuation τ sig (Elt F) := fun c => StableHlo.after hostOps4 (W5 m ρ c)

/-- A buffer that no host operation writes and that is no call's output array ends as launched. -/
theorem W6_untouched (c : Dev nD) (b : Ref sig .tc) (h0 : b ∉ hostOps0_W) (h4 : b ∉ hostOps4_W)
    (hb0 : b ≠ main_v13) (hb1 : b ≠ main_v14) (hb2 : b ≠ main_v15) (hb3 : b ≠ main_v16) :
    W6 m ρ c (Proc.devRef .tc b) = m ((c : Thread nD τ).loc b) :=
  calc W6 m ρ c (Proc.devRef .tc b)
    _ = W5 m ρ c (Proc.devRef .tc b) := StableHlo.after_of_writes_sub hostOps4 _ hostOps4_writes h4
    _ = W4 m ρ c (Proc.devRef .tc b) := W5_keep m ρ c b hb3
    _ = W3 m ρ c (Proc.devRef .tc b) := W4_keep m ρ c b hb2
    _ = W2 m ρ c (Proc.devRef .tc b) := W3_keep m ρ c b hb1
    _ = W1 m ρ c (Proc.devRef .tc b) := W2_keep m ρ c b hb0
    _ = W0 m ρ c (Proc.devRef .tc b) := StableHlo.after_of_writes_sub hostOps0 _ hostOps0_writes h0
    _ = m ((c : Thread nD τ).loc b) := rfl

/-! ## The proof data family and the thread state -/

abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Pallas call 0 as a segment: entered from every unscoped buffer at `W1`, left at `W2`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered from every unscoped buffer at `W2`, left at `W3`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment: entered from every unscoped buffer at `W3`, left at `W4`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 as a segment: entered from every unscoped buffer at `W4`, left at `W5`. Its arrays are split
    out of the unscoped buffers and put back at the exit contents; the generator register goes into the region's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state holds every unscoped buffer at the last fold `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every execution terminates and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_untouched m ρ c main_arg0 (by decide) (by decide) (by decide) (by decide) (by decide) (by decide)),
     (h c _ (mem_uc main_arg1 (by decide))).trans (W6_untouched m ρ c main_arg1 (by decide) (by decide) (by decide) (by decide) (by decide) (by decide)),
     (h c _ (mem_uc main_arg2 (by decide))).trans (W6_untouched m ρ c main_arg2 (by decide) (by decide) (by decide) (by decide) (by decide) (by decide)),
     (h c _ (mem_uc main_arg3 (by decide))).trans (W6_untouched m ρ c main_arg3 (by decide) (by decide) (by decide) (by decide) (by decide) (by decide)),
     (h c _ (mem_uc main_arg4 (by decide))).trans (W6_untouched m ρ c main_arg4 (by decide) (by decide) (by decide) (by decide) (by decide) (by decide))⟩)
    (run_all m ρ)

end Cert.KernelIdeal.Hand

end
-- ==== Proof.Ideal.Pieces0.lean ====
/-
  Pallas call 0: what each situation leaves, read back from the recorded stores.  Every store goes through the whole
  buffer, so the last store wins and a load after a store reads the stored value: a first block leaves
  "zero, plus this block's partial product", any other block "what was there, plus this block's partial product", and
  a last block copies that to the output block.
-/
import proofs.«123347_j77695958385169_1_alg».proof.Proof.Ideal.Region0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hzL0 : (![0, 0] : Fin S1024x1024.rank → Nat) = fun _ => 0 := by funext a; fin_cases a <;> rfl
theorem hzR0 : (![0, 0] : Fin S1024x1024.rank → Nat) = fun _ => 0 := by funext a; fin_cases a <;> rfl

theorem sout0_A_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) :
    sout0_A c i arg3 harg3 arg4 harg4 arg5 harg5 arg6 harg6 hc0 hc1 x0 x1 = k0_pay2 x0 x1 (k0_pay1 (F := F)) := by
  unfold sout0_A
  rw [View.read_writes_eq_canon _ _ _ (scover0_A c i arg3 harg3 arg4 harg4 arg5 harg5 arg6 harg6 hc0 hc1 x0 x1)]
  unfold kernelRun0_A
  dsimp only
  sl_unfold_words
  rw [View.canon_cons_unit_zero hzR0]
  simp only [View.readAt_eq_ld, harg3.read_unread, harg4.read_unread, harg6.read_unread, View.ld_unit_zero (S := S1024x1024) hzL0, View.ld_unit_zero (S := S1024x1024) hzR0, View.readCov_unit_zero (S := S1024x1024) arg6.view hzR0]

theorem sout0_B_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (xs : Vec F S1024x1024 .f32) :
    sout0_B c i arg3 harg3 arg4 harg4 arg5 harg5 arg6 harg6 hc0 hc1 x0 x1 xs = k0_pay2 x0 x1 xs := by
  unfold sout0_B
  rw [View.read_writes_eq_canon _ _ _ (scover0_B c i arg3 harg3 arg4 harg4 arg5 harg5 arg6 harg6 hc0 hc1 x0 x1 xs)]
  unfold kernelRun0_B
  dsimp only
  sl_unfold_words
  rw [View.canon_cons_unit_zero hzR0]
  simp only [View.readAt_eq_ld, harg3.read_unread, harg4.read_unread, harg6.read_unread, View.ld_unit_zero (S := S1024x1024) hzL0, View.ld_unit_zero (S := S1024x1024) hzR0, View.readCov_unit_zero (S := S1024x1024) arg6.view hzR0]

theorem sout0_C_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) :
    sout0_C c i arg3 harg3 arg4 harg4 arg5 harg5 arg6 harg6 hc0 hc1 x0 x1 xs = k0_pay2 x0 x1 xs := by
  unfold sout0_C
  rw [View.read_writes_eq_canon _ _ _ (scover0_C c i arg3 harg3 arg4 harg4 arg5 harg5 arg6 harg6 hc0 hc1 x0 x1 xs)]
  unfold kernelRun0_C
  dsimp only
  sl_unfold_words
  rw [View.canon_cons_unit_zero hzR0]
  simp only [View.readAt_eq_ld, harg3.read_unread, harg4.read_unread, harg6.read_unread, View.ld_unit_zero (S := S1024x1024) hzL0, View.ld_unit_zero (S := S1024x1024) hzR0, View.readCov_unit_zero (S := S1024x1024) arg6.view hzR0]

theorem out0_C_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs : Vec F S1024x1024 .f32) :
    out0_C c i arg3 harg3 arg4 harg4 arg5 harg5 arg6 harg6 hc0 hc1 x0 x1 xs = k0_pay2 x0 x1 xs := by
  unfold out0_C
  rw [View.read_writes_eq_canon _ _ _ (cover0_C c i arg3 harg3 arg4 harg4 arg5 harg5 arg6 harg6 hc0 hc1 x0 x1 xs)]
  unfold kernelRun0_C
  dsimp only
  sl_unfold_words
  rw [View.canon_cons_unit_zero hzR0]
  simp only [View.readAt_eq_ld, harg3.read_unread, harg4.read_unread, harg6.read_unread, View.ld_unit_zero (S := S1024x1024) hzL0, View.ld_unit_zero (S := S1024x1024) hzR0, View.readCov_unit_zero (S := S1024x1024) arg6.view hzR0]

end Cert.KernelIdeal.Hand

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibSumSplit.lean ====
/-
  Two ways of regrouping a finite sum in a commutative monoid.

  A sum over the first `2·n` naturals that keeps only the even ones (or only the odd ones), each contributing a term
  that depends on its half, is the sum of those terms over the first `n` naturals.  A sum over the first `a·b`
  naturals is the sum over `a` consecutive runs of length `b`.  Both use only associativity and commutativity of the
  addition, so they hold on the extended reals with no finiteness assumption.
-/
import Mathlib.Algebra.BigOperators.Fin
import Mathlib.Algebra.BigOperators.Intervals

open scoped BigOperators

namespace Cert.LibSumSplit

variable {M : Type*} [AddCommMonoid M]

/-- Keeping the even naturals below `2·n`, the one `2·i` contributing `f i`: the sum of `f` over `i < n`. -/
theorem sum_range_even (f : ℕ → M) (n : ℕ) :
    ∑ s ∈ Finset.range (2 * n), (if s % 2 = 0 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : (2 * n) % 2 = 0 := by omega
    have h1 : ¬(2 * n + 1) % 2 = 0 := by omega
    have h2 : (2 * n) / 2 = n := by omega
    rw [if_pos h0, if_neg h1, h2, add_zero]

/-- Keeping the odd naturals below `2·n`, the one `2·i + 1` contributing `f i`: the sum of `f` over `i < n`. -/
theorem sum_range_odd (f : ℕ → M) (n : ℕ) :
    ∑ s ∈ Finset.range (2 * n), (if s % 2 = 1 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : ¬(2 * n) % 2 = 1 := by omega
    have h1 : (2 * n + 1) % 2 = 1 := by omega
    have h2 : (2 * n + 1) / 2 = n := by omega
    rw [if_neg h0, if_pos h1, h2, add_zero]

/-- The first `a·b` naturals are `a` consecutive runs of `b`. -/
theorem sum_range_mul (g : ℕ → M) (a b : ℕ) :
    ∑ k ∈ Finset.range (a * b), g k = ∑ i ∈ Finset.range a, ∑ j ∈ Finset.range b, g (i * b + j) := by
  induction a with
  | zero => simp
  | succ a ih =>
    rw [Finset.sum_range_succ, ← ih, Nat.succ_mul, Finset.sum_range_add]

end Cert.LibSumSplit
-- ==== Proof.LibBlocked.lean ====
/-
  A matrix read at natural-number coordinates, and a matrix product as a sum over the naturals below the contracted
  extent.  With coordinates in ℕ, "row r of block (bi, kb)" is just row bi·a + r, and a sum over the contracted axis
  splits into consecutive runs (one per block) by regrouping a finite sum — associativity and commutativity of the
  addition of extended reals, nothing more.
-/
import proofs.«123347_j77695958385169_1_alg».proof.Proof.LibMatProd
import proofs.«123347_j77695958385169_1_alg».proof.Proof.LibSumSplit

noncomputable section

open scoped BigOperators

namespace Cert.Blocked

open Cert.Linear Idealize.ShloMosaic Idealize.ShloMosaic.ValueIdx

/-- Entry (r, k) of a matrix, with zero outside its extent. -/
def at2 {R C : Nat} (X : (Mat R C).Idx → EReal) (r k : ℕ) : EReal :=
  if h : r < R ∧ k < C then X (ix2 (n0 := R) (n1 := C) ⟨r, h.1⟩ ⟨k, h.2⟩) else 0

theorem at2_ix2 {R C : Nat} (X : (Mat R C).Idx → EReal) (r : Fin R) (k : Fin C) :
    at2 X r.val k.val = X (ix2 r k) := by
  unfold at2; rw [dif_pos ⟨r.isLt, k.isLt⟩]

/-- Entry (r, k) at coordinates known to be inside. -/
theorem at2_of_lt {R C : Nat} (X : (Mat R C).Idx → EReal) (r k : ℕ) (hr : r < R) (hk : k < C) :
    at2 X r k = X (ix2 (n0 := R) (n1 := C) ⟨r, hr⟩ ⟨k, hk⟩) := by
  unfold at2; rw [dif_pos ⟨hr, hk⟩]

/-- An entry of a product is the sum, over the naturals below the contracted extent, of the products of entries. -/
theorem matProd_range {R K N : Nat} (X : (Mat R K).Idx → EReal) (W : (Mat K N).Idx → EReal) (r : Fin R) (q : Fin N) :
    matProd X W (ix2 r q) = ∑ k ∈ Finset.range K, at2 X r.val k * at2 W k q.val := by
  unfold matProd
  rw [← Fin.sum_univ_eq_sum_range (fun k => at2 X r.val k * at2 W k q.val) K]
  refine Finset.sum_congr rfl fun k _ => ?_
  rw [at2_ix2 X r k, at2_ix2 W k q]
  rfl

/-- The same at any index. -/
theorem matProd_apply {R K N : Nat} (X : (Mat R K).Idx → EReal) (W : (Mat K N).Idx → EReal) (i : (Mat R N).Idx) :
    matProd X W i = ∑ k ∈ Finset.range K, at2 X (i 0).val k * at2 W k (i 1).val := by
  conv_lhs => rw [eq_ix2 i]
  exact matProd_range X W (i 0) (i 1)

/-- A product whose contracted axis is cut into `nb` consecutive blocks of `bk`: the sum of the blocks' partial sums. -/
theorem matProd_blocks {R N : Nat} (nb bk : Nat) (X : (Mat R (nb * bk)).Idx → EReal) (W : (Mat (nb * bk) N).Idx → EReal)
    (i : (Mat R N).Idx) :
    matProd X W i = ∑ kb ∈ Finset.range nb, ∑ kk ∈ Finset.range bk,
      at2 X (i 0).val (kb * bk + kk) * at2 W (kb * bk + kk) (i 1).val := by
  rw [matProd_apply]
  exact Cert.LibSumSplit.sum_range_mul (fun k => at2 X (i 0).val k * at2 W k (i 1).val) nb bk

end Cert.Blocked

end
-- ==== Proof.Ideal.Value0.lean ====
/-
  Pallas call 0 at the ideal values: the array it leaves is the matrix product of its two operand arrays.
  A block's partial product is a run of 1024 consecutive terms of the product's sum; after the point at position
  k along the contraction axis the accumulator holds the first k + 1 runs (induction along the grid); the last
  position writes all four runs, the whole sum, to the output block; the output blocks tile the array.
-/
import proofs.«123347_j77695958385169_1_alg».proof.Proof.Ideal.Pieces0
import proofs.«123347_j77695958385169_1_alg».proof.Proof.LibBlocked
import Idealize.ShloMosaic.Lib.Pipeline.Value
import Idealize.ShloMosaic.PureOps.Ideal.Laws
import Idealize.ShloMosaic.Lib.ValueIdx

set_option maxRecDepth 16384

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Linear Cert.Blocked

variable (V : (c : Dev nD) → (b : Ref sig .tc) → Buf (Elt Ideal) ((c : Thread nD τ).loc b))

/-- The kernel's dimension record contracts the left operand's columns with the right operand's rows. -/
theorem contracts0 : Contracts (R := 1024) (K := 1024) (N := 1024) dot_S1024x1024_S1024x1024_S1024x1024_1_0_0_1_n_n where
  rank := rfl
  size := rfl
  lhs0 := fun i q => by
    unfold DotDims.lhsIdx
    rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
    rfl
  lhs1 := fun i q => dot_S1024x1024_S1024x1024_S1024x1024_1_0_0_1_n_n.lhsIdx_val_of_single rfl i q
  rhs0 := fun i q => dot_S1024x1024_S1024x1024_S1024x1024_1_0_0_1_n_n.rhsIdx_val_of_single rfl i q
  rhs1 := fun i q => by
    unfold DotDims.rhsIdx
    rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
    rfl

/-- The reset value is zero everywhere. -/
theorem pay0_1_apply (y : S1024x1024.Idx) : k0_pay1 (F := Ideal) y = 0 := by
  unfold k0_pay1
  simp only [shapeCast_self]
  exact Ideal.ofBits_zero_f32

/-- One accumulation step adds the product of the two loaded blocks, entry by entry. -/
theorem pay0_2_apply (x0 : Vec Ideal S1024x1024 .f32) (x1 acc : Vec Ideal S1024x1024 .f32) (y : S1024x1024.Idx) :
    k0_pay2 (F := Ideal) x0 x1 acc y = acc y + matProd (R := 1024) (K := 1024) (N := 1024) x0 x1 y := by
  unfold k0_pay2
  simp only [shapeCast_self]
  show acc y + _ = _
  refine congrArg (acc y + ·) ?_
  exact congrFun (matmul_zero_eq contracts0 none _ _) y

/-- The windows' block indices at a point, in closed form. -/
theorem idx0_facts : ∀ t : Fin cfg0.N, win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The two operand arrays as the region finds them. -/
abbrev opA0 (c : Dev nD) : (Mat 4096 4096).Idx → EReal := V c main_arg0
abbrev opB0 (c : Dev nD) : (Mat 4096 4096).Idx → EReal := V c main_arg1

/-- The left operand's block at a point, entry by entry. -/
theorem iblk0_0_apply (c : Dev nD) (t : Fin cfg0.N) (y : S1024x1024.Idx) :
    (iblk0 V c 0 t : Vec Ideal S1024x1024 .f32) y = at2 (opA0 V c) (t.val / 16 * 1024 + (y 0).val) (t.val % 4 * 1024 + (y 1).val) := by
  obtain ⟨e0, e1, -, -, -, -⟩ := idx0_facts t
  have hN : t.val < 64 := lt_of_lt_of_eq t.isLt (show cfg0.N = 64 from N_0)
  have hy0 : (y 0).val < 1024 := (y 0).isLt
  have hy1 : (y 1).val < 1024 := (y 1).isLt
  rw [at2_of_lt _ _ _ (by omega : t.val / 16 * 1024 + (y 0).val < 4096) (by omega : t.val % 4 * 1024 + (y 1).val < 4096)]
  unfold iblk0
  rw [View.read_apply]
  show V c main_arg0 _ = V c main_arg0 _
  refine congrArg (V c main_arg0) ?_
  funext a; apply Fin.ext
  match a with
  | ⟨0, _⟩ => show win0_0.index t (0 : Fin 2) * 1024 + 1 * (y 0).val = t.val / 16 * 1024 + (y 0).val; rw [e0]; omega
  | ⟨1, _⟩ => show win0_0.index t (1 : Fin 2) * 1024 + 1 * (y 1).val = t.val % 4 * 1024 + (y 1).val; rw [e1]; omega

/-- The right operand's block at a point, entry by entry. -/
theorem iblk0_1_apply (c : Dev nD) (t : Fin cfg0.N) (y : S1024x1024.Idx) :
    (iblk0 V c 1 t : Vec Ideal S1024x1024 .f32) y = at2 (opB0 V c) (t.val % 4 * 1024 + (y 0).val) (t.val / 4 % 4 * 1024 + (y 1).val) := by
  obtain ⟨-, -, e0, e1, -, -⟩ := idx0_facts t
  have hN : t.val < 64 := lt_of_lt_of_eq t.isLt (show cfg0.N = 64 from N_0)
  have hy0 : (y 0).val < 1024 := (y 0).isLt
  have hy1 : (y 1).val < 1024 := (y 1).isLt
  rw [at2_of_lt _ _ _ (by omega : t.val % 4 * 1024 + (y 0).val < 4096) (by omega : t.val / 4 % 4 * 1024 + (y 1).val < 4096)]
  unfold iblk0
  rw [View.read_apply]
  show V c main_arg1 _ = V c main_arg1 _
  refine congrArg (V c main_arg1) ?_
  funext a; apply Fin.ext
  match a with
  | ⟨0, _⟩ => show win0_1.index t (0 : Fin 2) * 1024 + 1 * (y 0).val = t.val % 4 * 1024 + (y 0).val; rw [e0]; omega
  | ⟨1, _⟩ => show win0_1.index t (1 : Fin 2) * 1024 + 1 * (y 1).val = t.val / 4 % 4 * 1024 + (y 1).val; rw [e1]; omega

/-- Run `kb` of the sum that is entry (r, q) of the product: the 1024 terms of contraction block `kb`. -/
def part0 (c : Dev nD) (r q kb : ℕ) : EReal :=
  ∑ kk ∈ Finset.range 1024, at2 (opA0 V c) r (kb * 1024 + kk) * at2 (opB0 V c) (kb * 1024 + kk) q

/-- The partial product of the blocks at a point is that point's run. -/
theorem step0 (c : Dev nD) (t : Fin cfg0.N) (y : S1024x1024.Idx) :
    matProd (R := 1024) (K := 1024) (N := 1024) (iblk0 V c 0 t : Vec Ideal S1024x1024 .f32) (iblk0 V c 1 t : Vec Ideal S1024x1024 .f32) y
      = part0 V c (t.val / 16 * 1024 + (y 0).val) (t.val / 4 % 4 * 1024 + (y 1).val) (t.val % 4) := by
  have hy0 : (y 0).val < 1024 := (y 0).isLt
  have hy1 : (y 1).val < 1024 := (y 1).isLt
  rw [matProd_apply]
  unfold part0
  refine Finset.sum_congr rfl fun kk hkk => ?_
  have hk : kk < 1024 := Finset.mem_range.mp hkk
  rw [at2_of_lt _ _ _ hy0 hk, at2_of_lt _ _ _ hk hy1, iblk0_0_apply, iblk0_1_apply]

/-- THE ACCUMULATOR after the point at position `n`: the first `n % 4 + 1` runs of each entry's sum. -/
theorem acc0_eq (c : Dev nD) (n : ℕ) : ∀ (hn : n < cfg0.N) (y : S1024x1024.Idx),
    (outsAt0 V c n hn).2 y = ∑ kb ∈ Finset.range (n % 4 + 1), part0 V c (n / 16 * 1024 + (y 0).val) (n / 4 % 4 * 1024 + (y 1).val) kb := by
  induction n using Nat.strong_induction_on with
  | _ n ih =>
    intro hn y
    by_cases h0 : n % 4 = 0
    · have h1 : ¬n % 4 = 3 := by omega
      have e := congrArg Prod.snd (outsAt0_A V c ⟨n, hn⟩ h0 h1)
      dsimp only at e
      rw [e, sout0_A_eq (F := Ideal), pay0_2_apply, pay0_1_apply, zero_add, step0 V c ⟨n, hn⟩ y, h0]
      show _ = ∑ kb ∈ Finset.range 1, _
      rw [Finset.sum_range_one]
    · have hpos : n - 1 < n := by omega
      have hI : (n - 1) / 16 = n / 16 := by omega
      have hJ : (n - 1) / 4 % 4 = n / 4 % 4 := by omega
      have hm : (n - 1) % 4 + 1 = n % 4 := by omega
      have hprev := ih (n - 1) hpos (Nat.lt_of_le_of_lt (Nat.sub_le _ _) hn) y
      rw [hI, hJ, hm] at hprev
      by_cases h1 : n % 4 = 3
      · have e := congrArg Prod.snd (outsAt0_C V c ⟨n, hn⟩ h0 h1)
        dsimp only at e
        rw [e, sout0_C_eq (F := Ideal), pay0_2_apply, step0 V c ⟨n, hn⟩ y, Finset.sum_range_succ]
        exact congrArg (· + _) hprev
      · have e := congrArg Prod.snd (outsAt0_B V c ⟨n, hn⟩ h0 h1)
        dsimp only at e
        rw [e, sout0_B_eq (F := Ideal), pay0_2_apply, step0 V c ⟨n, hn⟩ y, Finset.sum_range_succ]
        exact congrArg (· + _) hprev

/-- At a last block the output block is what the accumulator then holds. -/
theorem out0_last (c : Dev nD) (t : Fin cfg0.N) (h1 : t.val % 4 = 3) :
    (outsAt0 V c t.val t.isLt).1 = (outsAt0 V c t.val t.isLt).2 := by
  have h0 : ¬t.val % 4 = 0 := by omega
  rw [outsAt0_C V c t h0 h1]
  dsimp only
  rw [out0_C_eq (F := Ideal), sout0_C_eq (F := Ideal)]

/-- The product of the two operand arrays. -/
abbrev prod0 (c : Dev nD) : (Mat 4096 4096).Idx → EReal := matProd (R := 4096) (K := 4096) (N := 4096) (opA0 V c) (opB0 V c)

/-- WHAT A LAST BLOCK WRITES BACK is its block of the product. -/
theorem flushed0_eq (c : Dev nD) (t : Fin cfg0.N) (hf : (cfg0.win 2).flush t = true) :
    (dat0 V c).flushed 2 t = ((cfg0.win 2).blk t).view.read (Elt Ideal) (prod0 V c) := by
  have h3 : t.val % 4 = 3 := (flush0_2 t).mp hf
  have hN : t.val < 64 := lt_of_lt_of_eq t.isLt (show cfg0.N = 64 from N_0)
  obtain ⟨-, -, -, -, e0, e1⟩ := idx0_facts t
  show (cfg0.win 2).cut (grid0.coords t) ((dat0 V c).after 2 t) = _
  rw [after0_2, out0_last V c t h3]
  funext j
  have hj0 : (j 0).val < 1024 := (j 0).isLt
  have hj1 : (j 1).val < 1024 := (j 1).isLt
  show (outsAt0 V c t.val t.isLt).2 j = prod0 V c (((cfg0.win 2).blk t).view.emb j)
  rw [acc0_eq V c t.val t.isLt j, h3]
  have hb := matProd_blocks (R := 4096) (N := 4096) 4 1024 (opA0 V c) (opB0 V c) (((cfg0.win 2).blk t).view.emb j)
  have c0 : ((((cfg0.win 2).blk t).view.emb j) 0).val = t.val / 16 * 1024 + (j 0).val := by
    show win0_2.index t (0 : Fin 2) * 1024 + 1 * (j 0).val = _; rw [e0]; omega
  have c1 : ((((cfg0.win 2).blk t).view.emb j) 1).val = t.val / 4 % 4 * 1024 + (j 1).val := by
    show win0_2.index t (1 : Fin 2) * 1024 + 1 * (j 1).val = _; rw [e1]; omega
  rw [c0, c1] at hb
  exact hb.symm

/-- An index of the output array is in point `t`'s block iff each coordinate is in the block's range. -/
theorem mem_blk0 (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v13).slice (win0_2.rect t)).set ↔ _
  rw [View.set_slice_whole, Rect.mem_set_unit]
  exact Iff.rfl

/-- The output blocks written back tile the array. -/
theorem cover0 (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 64 := N_0
  refine ⟨⟨(i 0).val / 1024 * 16 + (i 1).val / 1024 * 4 + 3, by rw [hN]; omega⟩, (flush0_2 _).mpr (by show ((i 0).val / 1024 * 16 + (i 1).val / 1024 * 4 + 3) % 4 = 3; omega), ?_⟩
  obtain ⟨-, -, -, -, e0, e1⟩ := idx0_facts ⟨(i 0).val / 1024 * 16 + (i 1).val / 1024 * 4 + 3, by rw [hN]; omega⟩
  rw [mem_blk0]
  intro a
  match a with
  | ⟨0, _⟩ =>
    show win0_2.index _ (0 : Fin 2) * 1024 ≤ (i 0).val ∧ (i 0).val < win0_2.index _ (0 : Fin 2) * 1024 + 1024
    rw [e0]; show (((i 0).val / 1024 * 16 + (i 1).val / 1024 * 4 + 3) / 16) * 1024 ≤ (i 0).val ∧ (i 0).val < (((i 0).val / 1024 * 16 + (i 1).val / 1024 * 4 + 3) / 16) * 1024 + 1024; omega
  | ⟨1, _⟩ =>
    show win0_2.index _ (1 : Fin 2) * 1024 ≤ (i 1).val ∧ (i 1).val < win0_2.index _ (1 : Fin 2) * 1024 + 1024
    rw [e1]; show (((i 0).val / 1024 * 16 + (i 1).val / 1024 * 4 + 3) / 4 % 4) * 1024 ≤ (i 1).val ∧ (i 1).val < (((i 0).val / 1024 * 16 + (i 1).val / 1024 * 4 + 3) / 4 % 4) * 1024 + 1024; omega

/-- THE OUTPUT ARRAY after the call: the product of the two operand arrays as the call found them. -/
theorem final0 (c : Dev nD) : (dat0 V c).arrAt 2 cfg0.N = prod0 V c :=
  (dat0 V c).arrAt_eq_of_cover 2 (prod0 V c) (flushed0_eq V c) (cover0)

end Cert.KernelIdeal.Hand

end
-- ==== Proof.Ideal.Pieces1.lean ====
/-
  Pallas call 1: what each situation leaves, read back from the recorded stores.  Every store goes through the whole
  buffer, so the last store wins and a load after a store reads the stored value: a first block leaves
  "zero, plus this block's partial product", any other block "what was there, plus this block's partial product", and
  a last block copies that to the output block.
-/
import proofs.«123347_j77695958385169_1_alg».proof.Proof.Ideal.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hzL1 : (![0, 0] : Fin S1024x1024.rank → Nat) = fun _ => 0 := by funext a; fin_cases a <;> rfl
theorem hzR1 : (![0, 0] : Fin S1024x128.rank → Nat) = fun _ => 0 := by funext a; fin_cases a <;> rfl

theorem sout1_A_eq (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) :
    sout1_A c i arg3 harg3 arg4 harg4 arg5 harg5 arg6 harg6 hc0 hc1 x0 x1 = k1_pay2 x0 x1 (k1_pay1 (F := F)) := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero hzR1]
  simp only [View.readAt_eq_ld, harg3.read_unread, harg4.read_unread, harg6.read_unread, View.ld_unit_zero (S := S1024x1024) hzL1, View.ld_unit_zero (S := S1024x128) hzR1, View.readCov_unit_zero (S := S1024x128) arg6.view hzR1]

theorem sout1_B_eq (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (xs : Vec F S1024x128 .f32) :
    sout1_B c i arg3 harg3 arg4 harg4 arg5 harg5 arg6 harg6 hc0 hc1 x0 x1 xs = k1_pay2 x0 x1 xs := by
  unfold sout1_B
  rw [View.read_writes_eq_canon _ _ _ (scover1_B c i arg3 harg3 arg4 harg4 arg5 harg5 arg6 harg6 hc0 hc1 x0 x1 xs)]
  unfold kernelRun1_B
  dsimp only
  sl_unfold_words
  rw [View.canon_cons_unit_zero hzR1]
  simp only [View.readAt_eq_ld, harg3.read_unread, harg4.read_unread, harg6.read_unread, View.ld_unit_zero (S := S1024x1024) hzL1, View.ld_unit_zero (S := S1024x128) hzR1, View.readCov_unit_zero (S := S1024x128) arg6.view hzR1]

theorem sout1_C_eq (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) :
    sout1_C c i arg3 harg3 arg4 harg4 arg5 harg5 arg6 harg6 hc0 hc1 x0 x1 xs = k1_pay2 x0 x1 xs := by
  unfold sout1_C
  rw [View.read_writes_eq_canon _ _ _ (scover1_C c i arg3 harg3 arg4 harg4 arg5 harg5 arg6 harg6 hc0 hc1 x0 x1 xs)]
  unfold kernelRun1_C
  dsimp only
  sl_unfold_words
  rw [View.canon_cons_unit_zero hzR1]
  simp only [View.readAt_eq_ld, harg3.read_unread, harg4.read_unread, harg6.read_unread, View.ld_unit_zero (S := S1024x1024) hzL1, View.ld_unit_zero (S := S1024x128) hzR1, View.readCov_unit_zero (S := S1024x128) arg6.view hzR1]

theorem out1_C_eq (c : Dev nD) (i : grid1.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (xs : Vec F S1024x128 .f32) :
    out1_C c i arg3 harg3 arg4 harg4 arg5 harg5 arg6 harg6 hc0 hc1 x0 x1 xs = k1_pay2 x0 x1 xs := by
  unfold out1_C
  rw [View.read_writes_eq_canon _ _ _ (cover1_C c i arg3 harg3 arg4 harg4 arg5 harg5 arg6 harg6 hc0 hc1 x0 x1 xs)]
  unfold kernelRun1_C
  dsimp only
  sl_unfold_words
  rw [View.canon_cons_unit_zero hzR1]
  simp only [View.readAt_eq_ld, harg3.read_unread, harg4.read_unread, harg6.read_unread, View.ld_unit_zero (S := S1024x1024) hzL1, View.ld_unit_zero (S := S1024x128) hzR1, View.readCov_unit_zero (S := S1024x128) arg6.view hzR1]

end Cert.KernelIdeal.Hand

end
-- ==== Proof.Ideal.Value1.lean ====
/-
  Pallas call 1 at the ideal values: the array it leaves is the matrix product of its two operand arrays.
  A block's partial product is a run of 1024 consecutive terms of the product's sum; after the point at position
  k along the contraction axis the accumulator holds the first k + 1 runs (induction along the grid); the last
  position writes all four runs, the whole sum, to the output block; the output blocks tile the array.
-/
import proofs.«123347_j77695958385169_1_alg».proof.Proof.Ideal.Pieces1
import proofs.«123347_j77695958385169_1_alg».proof.Proof.LibBlocked
import Idealize.ShloMosaic.Lib.Pipeline.Value
import Idealize.ShloMosaic.PureOps.Ideal.Laws
import Idealize.ShloMosaic.Lib.ValueIdx

set_option maxRecDepth 16384

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Linear Cert.Blocked

variable (V : (c : Dev nD) → (b : Ref sig .tc) → Buf (Elt Ideal) ((c : Thread nD τ).loc b))

/-- The kernel's dimension record contracts the left operand's columns with the right operand's rows. -/
theorem contracts1 : Contracts (R := 1024) (K := 1024) (N := 128) dot_S1024x1024_S1024x128_S1024x128_1_0_0_1_n_n where
  rank := rfl
  size := rfl
  lhs0 := fun i q => by
    unfold DotDims.lhsIdx
    rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
    rfl
  lhs1 := fun i q => dot_S1024x1024_S1024x128_S1024x128_1_0_0_1_n_n.lhsIdx_val_of_single rfl i q
  rhs0 := fun i q => dot_S1024x1024_S1024x128_S1024x128_1_0_0_1_n_n.rhsIdx_val_of_single rfl i q
  rhs1 := fun i q => by
    unfold DotDims.rhsIdx
    rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
    rfl

/-- The reset value is zero everywhere. -/
theorem pay1_1_apply (y : S1024x128.Idx) : k1_pay1 (F := Ideal) y = 0 := by
  unfold k1_pay1
  simp only [shapeCast_self]
  exact Ideal.ofBits_zero_f32

/-- One accumulation step adds the product of the two loaded blocks, entry by entry. -/
theorem pay1_2_apply (x0 : Vec Ideal S1024x1024 .f32) (x1 acc : Vec Ideal S1024x128 .f32) (y : S1024x128.Idx) :
    k1_pay2 (F := Ideal) x0 x1 acc y = acc y + matProd (R := 1024) (K := 1024) (N := 128) x0 x1 y := by
  unfold k1_pay2
  simp only [shapeCast_self]
  show acc y + _ = _
  refine congrArg (acc y + ·) ?_
  exact congrFun (matmul_zero_eq contracts1 none _ _) y

/-- The windows' block indices at a point, in closed form. -/
theorem idx1_facts : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- The two operand arrays as the region finds them. -/
abbrev opA1 (c : Dev nD) : (Mat 4096 4096).Idx → EReal := V c main_v13
abbrev opB1 (c : Dev nD) : (Mat 4096 128).Idx → EReal := V c main_v12

/-- The left operand's block at a point, entry by entry. -/
theorem iblk1_0_apply (c : Dev nD) (t : Fin cfg1.N) (y : S1024x1024.Idx) :
    (iblk1 V c 0 t : Vec Ideal S1024x1024 .f32) y = at2 (opA1 V c) (t.val / 4 * 1024 + (y 0).val) (t.val % 4 * 1024 + (y 1).val) := by
  obtain ⟨e0, e1, -, -, -, -⟩ := idx1_facts t
  have hN : t.val < 16 := lt_of_lt_of_eq t.isLt (show cfg1.N = 16 from N_1)
  have hy0 : (y 0).val < 1024 := (y 0).isLt
  have hy1 : (y 1).val < 1024 := (y 1).isLt
  rw [at2_of_lt _ _ _ (by omega : t.val / 4 * 1024 + (y 0).val < 4096) (by omega : t.val % 4 * 1024 + (y 1).val < 4096)]
  unfold iblk1
  rw [View.read_apply]
  show V c main_v13 _ = V c main_v13 _
  refine congrArg (V c main_v13) ?_
  funext a; apply Fin.ext
  match a with
  | ⟨0, _⟩ => show win1_0.index t (0 : Fin 2) * 1024 + 1 * (y 0).val = t.val / 4 * 1024 + (y 0).val; rw [e0]; omega
  | ⟨1, _⟩ => show win1_0.index t (1 : Fin 2) * 1024 + 1 * (y 1).val = t.val % 4 * 1024 + (y 1).val; rw [e1]; omega

/-- The right operand's block at a point, entry by entry. -/
theorem iblk1_1_apply (c : Dev nD) (t : Fin cfg1.N) (y : S1024x128.Idx) :
    (iblk1 V c 1 t : Vec Ideal S1024x128 .f32) y = at2 (opB1 V c) (t.val % 4 * 1024 + (y 0).val) (0 * 128 + (y 1).val) := by
  obtain ⟨-, -, e0, e1, -, -⟩ := idx1_facts t
  have hN : t.val < 16 := lt_of_lt_of_eq t.isLt (show cfg1.N = 16 from N_1)
  have hy0 : (y 0).val < 1024 := (y 0).isLt
  have hy1 : (y 1).val < 128 := (y 1).isLt
  rw [at2_of_lt _ _ _ (by omega : t.val % 4 * 1024 + (y 0).val < 4096) (by omega : 0 * 128 + (y 1).val < 128)]
  unfold iblk1
  rw [View.read_apply]
  show V c main_v12 _ = V c main_v12 _
  refine congrArg (V c main_v12) ?_
  funext a; apply Fin.ext
  match a with
  | ⟨0, _⟩ => show win1_1.index t (0 : Fin 2) * 1024 + 1 * (y 0).val = t.val % 4 * 1024 + (y 0).val; rw [e0]; omega
  | ⟨1, _⟩ => show win1_1.index t (1 : Fin 2) * 128 + 1 * (y 1).val = 0 * 128 + (y 1).val; rw [e1]; omega

/-- Run `kb` of the sum that is entry (r, q) of the product: the 1024 terms of contraction block `kb`. -/
def part1 (c : Dev nD) (r q kb : ℕ) : EReal :=
  ∑ kk ∈ Finset.range 1024, at2 (opA1 V c) r (kb * 1024 + kk) * at2 (opB1 V c) (kb * 1024 + kk) q

/-- The partial product of the blocks at a point is that point's run. -/
theorem step1 (c : Dev nD) (t : Fin cfg1.N) (y : S1024x128.Idx) :
    matProd (R := 1024) (K := 1024) (N := 128) (iblk1 V c 0 t : Vec Ideal S1024x1024 .f32) (iblk1 V c 1 t : Vec Ideal S1024x128 .f32) y
      = part1 V c (t.val / 4 * 1024 + (y 0).val) (0 * 128 + (y 1).val) (t.val % 4) := by
  have hy0 : (y 0).val < 1024 := (y 0).isLt
  have hy1 : (y 1).val < 128 := (y 1).isLt
  rw [matProd_apply]
  unfold part1
  refine Finset.sum_congr rfl fun kk hkk => ?_
  have hk : kk < 1024 := Finset.mem_range.mp hkk
  rw [at2_of_lt _ _ _ hy0 hk, at2_of_lt _ _ _ hk hy1, iblk1_0_apply, iblk1_1_apply]

/-- THE ACCUMULATOR after the point at position `n`: the first `n % 4 + 1` runs of each entry's sum. -/
theorem acc1_eq (c : Dev nD) (n : ℕ) : ∀ (hn : n < cfg1.N) (y : S1024x128.Idx),
    (outsAt1 V c n hn).2 y = ∑ kb ∈ Finset.range (n % 4 + 1), part1 V c (n / 4 * 1024 + (y 0).val) (0 * 128 + (y 1).val) kb := by
  induction n using Nat.strong_induction_on with
  | _ n ih =>
    intro hn y
    by_cases h0 : n % 4 = 0
    · have h1 : ¬n % 4 = 3 := by omega
      have e := congrArg Prod.snd (outsAt1_A V c ⟨n, hn⟩ h0 h1)
      dsimp only at e
      rw [e, sout1_A_eq (F := Ideal), pay1_2_apply, pay1_1_apply, zero_add, step1 V c ⟨n, hn⟩ y, h0]
      show _ = ∑ kb ∈ Finset.range 1, _
      rw [Finset.sum_range_one]
    · have hpos : n - 1 < n := by omega
      have hI : (n - 1) / 4 = n / 4 := by omega
      have hJ : 0 = 0 := by omega
      have hm : (n - 1) % 4 + 1 = n % 4 := by omega
      have hprev := ih (n - 1) hpos (Nat.lt_of_le_of_lt (Nat.sub_le _ _) hn) y
      rw [hI, hJ, hm] at hprev
      by_cases h1 : n % 4 = 3
      · have e := congrArg Prod.snd (outsAt1_C V c ⟨n, hn⟩ h0 h1)
        dsimp only at e
        rw [e, sout1_C_eq (F := Ideal), pay1_2_apply, step1 V c ⟨n, hn⟩ y, Finset.sum_range_succ]
        exact congrArg (· + _) hprev
      · have e := congrArg Prod.snd (outsAt1_B V c ⟨n, hn⟩ h0 h1)
        dsimp only at e
        rw [e, sout1_B_eq (F := Ideal), pay1_2_apply, step1 V c ⟨n, hn⟩ y, Finset.sum_range_succ]
        exact congrArg (· + _) hprev

/-- At a last block the output block is what the accumulator then holds. -/
theorem out1_last (c : Dev nD) (t : Fin cfg1.N) (h1 : t.val % 4 = 3) :
    (outsAt1 V c t.val t.isLt).1 = (outsAt1 V c t.val t.isLt).2 := by
  have h0 : ¬t.val % 4 = 0 := by omega
  rw [outsAt1_C V c t h0 h1]
  dsimp only
  rw [out1_C_eq (F := Ideal), sout1_C_eq (F := Ideal)]

/-- The product of the two operand arrays. -/
abbrev prod1 (c : Dev nD) : (Mat 4096 128).Idx → EReal := matProd (R := 4096) (K := 4096) (N := 128) (opA1 V c) (opB1 V c)

/-- WHAT A LAST BLOCK WRITES BACK is its block of the product. -/
theorem flushed1_eq (c : Dev nD) (t : Fin cfg1.N) (hf : (cfg1.win 2).flush t = true) :
    (dat1 V c).flushed 2 t = ((cfg1.win 2).blk t).view.read (Elt Ideal) (prod1 V c) := by
  have h3 : t.val % 4 = 3 := (flush1_2 t).mp hf
  have hN : t.val < 16 := lt_of_lt_of_eq t.isLt (show cfg1.N = 16 from N_1)
  obtain ⟨-, -, -, -, e0, e1⟩ := idx1_facts t
  show (cfg1.win 2).cut (grid1.coords t) ((dat1 V c).after 2 t) = _
  rw [after1_2, out1_last V c t h3]
  funext j
  have hj0 : (j 0).val < 1024 := (j 0).isLt
  have hj1 : (j 1).val < 128 := (j 1).isLt
  show (outsAt1 V c t.val t.isLt).2 j = prod1 V c (((cfg1.win 2).blk t).view.emb j)
  rw [acc1_eq V c t.val t.isLt j, h3]
  have hb := matProd_blocks (R := 4096) (N := 128) 4 1024 (opA1 V c) (opB1 V c) (((cfg1.win 2).blk t).view.emb j)
  have c0 : ((((cfg1.win 2).blk t).view.emb j) 0).val = t.val / 4 * 1024 + (j 0).val := by
    show win1_2.index t (0 : Fin 2) * 1024 + 1 * (j 0).val = _; rw [e0]; omega
  have c1 : ((((cfg1.win 2).blk t).view.emb j) 1).val = 0 * 128 + (j 1).val := by
    show win1_2.index t (1 : Fin 2) * 128 + 1 * (j 1).val = _; rw [e1]; omega
  rw [c0, c1] at hb
  exact hb.symm

/-- An index of the output array is in point `t`'s block iff each coordinate is in the block's range. -/
theorem mem_blk1 (t : Fin cfg1.N) (i : S4096x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v14).slice (win1_2.rect t)).set ↔ _
  rw [View.set_slice_whole, Rect.mem_set_unit]
  exact Iff.rfl

/-- The output blocks written back tile the array. -/
theorem cover1 (i : S4096x128.Idx) : ∃ t : Fin cfg1.N, (cfg1.win 2).flush t = true ∧ i ∈ ((cfg1.win 2).blk t).view.set := by
  have hi0 : (i 0).val < 4096 := (i 0).isLt
  have hi1 : (i 1).val < 128 := (i 1).isLt
  have hN : cfg1.N = 16 := N_1
  refine ⟨⟨(i 0).val / 1024 * 4 + 3, by rw [hN]; omega⟩, (flush1_2 _).mpr (by show ((i 0).val / 1024 * 4 + 3) % 4 = 3; omega), ?_⟩
  obtain ⟨-, -, -, -, e0, e1⟩ := idx1_facts ⟨(i 0).val / 1024 * 4 + 3, by rw [hN]; omega⟩
  rw [mem_blk1]
  intro a
  match a with
  | ⟨0, _⟩ =>
    show win1_2.index _ (0 : Fin 2) * 1024 ≤ (i 0).val ∧ (i 0).val < win1_2.index _ (0 : Fin 2) * 1024 + 1024
    rw [e0]; show (((i 0).val / 1024 * 4 + 3) / 4) * 1024 ≤ (i 0).val ∧ (i 0).val < (((i 0).val / 1024 * 4 + 3) / 4) * 1024 + 1024; omega
  | ⟨1, _⟩ =>
    show win1_2.index _ (1 : Fin 2) * 128 ≤ (i 1).val ∧ (i 1).val < win1_2.index _ (1 : Fin 2) * 128 + 128
    rw [e1]; show (0) * 128 ≤ (i 1).val ∧ (i 1).val < (0) * 128 + 128; omega

/-- THE OUTPUT ARRAY after the call: the product of the two operand arrays as the call found them. -/
theorem final1 (c : Dev nD) : (dat1 V c).arrAt 2 cfg1.N = prod1 V c :=
  (dat1 V c).arrAt_eq_of_cover 2 (prod1 V c) (flushed1_eq V c) (cover1)

end Cert.KernelIdeal.Hand

end
-- ==== Proof.Ideal.Pieces2.lean ====
/-
  Pallas call 2: what each situation leaves, read back from the recorded stores.  Every store goes through the whole
  buffer, so the last store wins and a load after a store reads the stored value: a first block leaves
  "zero, plus this block's partial product", any other block "what was there, plus this block's partial product", and
  a last block copies that to the output block.
-/
import proofs.«123347_j77695958385169_1_alg».proof.Proof.Ideal.Region2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hzL2 : (![0, 0] : Fin S1024x1024.rank → Nat) = fun _ => 0 := by funext a; fin_cases a <;> rfl
theorem hzR2 : (![0, 0] : Fin S1024x128.rank → Nat) = fun _ => 0 := by funext a; fin_cases a <;> rfl

theorem sout2_A_eq (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S1024x1024 .f32) (x1 : Vec F S1024x128 .f32) :
    sout2_A c i arg3 harg3 arg4 harg4 arg5 harg5 arg6 harg6 hc0 hc1 x0 x1 = k2_pay2 x0 x1 (k2_pay1 (F := F)) := by
  unfold sout2_A
  rw [View.read_writes_eq_canon _ _ _ (scover2_A c i arg3 harg3 arg4 harg4 arg5 harg5 arg6 harg6 hc0 hc1 x0 x1)]
  unfold kernelRun2_A
  dsimp only
  sl_unfold_words
  rw [View.canon_cons_unit_zero hzR2]
  simp only [View.readAt_eq_ld, harg3.read_unread, harg4.read_unread, harg6.read_unread, View.ld_unit_zero (S := S1024x1024) hzL2, View.ld_unit_zero (S := S1024x128) hzR2, View.readCov_unit_zero (S := S1024x128) arg6.view hzR2]

theorem sout2_B_eq (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : ¬cond2_1 i)
    (x0 : Vec F S1024x1024 .f32) (x1 : Vec F S1024x128 .f32) (xs : Vec F S1024x128 .f32) :
    sout2_B c i arg3 harg3 arg4 harg4 arg5 harg5 arg6 harg6 hc0 hc1 x0 x1 xs = k2_pay2 x0 x1 xs := by
  unfold sout2_B
  rw [View.read_writes_eq_canon _ _ _ (scover2_B c i arg3 harg3 arg4 harg4 arg5 harg5 arg6 harg6 hc0 hc1 x0 x1 xs)]
  unfold kernelRun2_B
  dsimp only
  sl_unfold_words
  rw [View.canon_cons_unit_zero hzR2]
  simp only [View.readAt_eq_ld, harg3.read_unread, harg4.read_unread, harg6.read_unread, View.ld_unit_zero (S := S1024x1024) hzL2, View.ld_unit_zero (S := S1024x128) hzR2, View.readCov_unit_zero (S := S1024x128) arg6.view hzR2]

theorem sout2_C_eq (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) :
    sout2_C c i arg3 harg3 arg4 harg4 arg5 harg5 arg6 harg6 hc0 hc1 x0 x1 xs = k2_pay2 x0 x1 xs := by
  unfold sout2_C
  rw [View.read_writes_eq_canon _ _ _ (scover2_C c i arg3 harg3 arg4 harg4 arg5 harg5 arg6 harg6 hc0 hc1 x0 x1 xs)]
  unfold kernelRun2_C
  dsimp only
  sl_unfold_words
  rw [View.canon_cons_unit_zero hzR2]
  simp only [View.readAt_eq_ld, harg3.read_unread, harg4.read_unread, harg6.read_unread, View.ld_unit_zero (S := S1024x1024) hzL2, View.ld_unit_zero (S := S1024x128) hzR2, View.readCov_unit_zero (S := S1024x128) arg6.view hzR2]

theorem out2_C_eq (c : Dev nD) (i : grid2.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x1024 .f32) (x1 : Vec F S1024x128 .f32) (xs : Vec F S1024x128 .f32) :
    out2_C c i arg3 harg3 arg4 harg4 arg5 harg5 arg6 harg6 hc0 hc1 x0 x1 xs = k2_pay2 x0 x1 xs := by
  unfold out2_C
  rw [View.read_writes_eq_canon _ _ _ (cover2_C c i arg3 harg3 arg4 harg4 arg5 harg5 arg6 harg6 hc0 hc1 x0 x1 xs)]
  unfold kernelRun2_C
  dsimp only
  sl_unfold_words
  rw [View.canon_cons_unit_zero hzR2]
  simp only [View.readAt_eq_ld, harg3.read_unread, harg4.read_unread, harg6.read_unread, View.ld_unit_zero (S := S1024x1024) hzL2, View.ld_unit_zero (S := S1024x128) hzR2, View.readCov_unit_zero (S := S1024x128) arg6.view hzR2]

end Cert.KernelIdeal.Hand

end
-- ==== Proof.Ideal.Value2.lean ====
/-
  Pallas call 2 at the ideal values: the array it leaves is the matrix product of its two operand arrays.
  A block's partial product is a run of 1024 consecutive terms of the product's sum; after the point at position
  k along the contraction axis the accumulator holds the first k + 1 runs (induction along the grid); the last
  position writes all four runs, the whole sum, to the output block; the output blocks tile the array.
-/
import proofs.«123347_j77695958385169_1_alg».proof.Proof.Ideal.Pieces2
import proofs.«123347_j77695958385169_1_alg».proof.Proof.LibBlocked
import Idealize.ShloMosaic.Lib.Pipeline.Value
import Idealize.ShloMosaic.PureOps.Ideal.Laws
import Idealize.ShloMosaic.Lib.ValueIdx

set_option maxRecDepth 16384

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Linear Cert.Blocked

variable (V : (c : Dev nD) → (b : Ref sig .tc) → Buf (Elt Ideal) ((c : Thread nD τ).loc b))

/-- The kernel's dimension record contracts the left operand's columns with the right operand's rows. -/
theorem contracts2 : Contracts (R := 1024) (K := 1024) (N := 128) dot_S1024x1024_S1024x128_S1024x128_1_0_0_1_n_n where
  rank := rfl
  size := rfl
  lhs0 := fun i q => by
    unfold DotDims.lhsIdx
    rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
    rfl
  lhs1 := fun i q => dot_S1024x1024_S1024x128_S1024x128_1_0_0_1_n_n.lhsIdx_val_of_single rfl i q
  rhs0 := fun i q => dot_S1024x1024_S1024x128_S1024x128_1_0_0_1_n_n.rhsIdx_val_of_single rfl i q
  rhs1 := fun i q => by
    unfold DotDims.rhsIdx
    rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
    rfl

/-- The reset value is zero everywhere. -/
theorem pay2_1_apply (y : S1024x128.Idx) : k2_pay1 (F := Ideal) y = 0 := by
  unfold k2_pay1
  simp only [shapeCast_self]
  exact Ideal.ofBits_zero_f32

/-- One accumulation step adds the product of the two loaded blocks, entry by entry. -/
theorem pay2_2_apply (x0 : Vec Ideal S1024x1024 .f32) (x1 acc : Vec Ideal S1024x128 .f32) (y : S1024x128.Idx) :
    k2_pay2 (F := Ideal) x0 x1 acc y = acc y + matProd (R := 1024) (K := 1024) (N := 128) x0 x1 y := by
  unfold k2_pay2
  simp only [shapeCast_self]
  show acc y + _ = _
  refine congrArg (acc y + ·) ?_
  exact congrFun (matmul_zero_eq contracts2 none _ _) y

/-- The windows' block indices at a point, in closed form. -/
theorem idx2_facts : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

/-- The two operand arrays as the region finds them. -/
abbrev opA2 (c : Dev nD) : (Mat 4096 4096).Idx → EReal := V c main_v13
abbrev opB2 (c : Dev nD) : (Mat 4096 128).Idx → EReal := V c main_v14

/-- The left operand's block at a point, entry by entry. -/
theorem iblk2_0_apply (c : Dev nD) (t : Fin cfg2.N) (y : S1024x1024.Idx) :
    (iblk2 V c 0 t : Vec Ideal S1024x1024 .f32) y = at2 (opA2 V c) (t.val / 4 * 1024 + (y 0).val) (t.val % 4 * 1024 + (y 1).val) := by
  obtain ⟨e0, e1, -, -, -, -⟩ := idx2_facts t
  have hN : t.val < 16 := lt_of_lt_of_eq t.isLt (show cfg2.N = 16 from N_2)
  have hy0 : (y 0).val < 1024 := (y 0).isLt
  have hy1 : (y 1).val < 1024 := (y 1).isLt
  rw [at2_of_lt _ _ _ (by omega : t.val / 4 * 1024 + (y 0).val < 4096) (by omega : t.val % 4 * 1024 + (y 1).val < 4096)]
  unfold iblk2
  rw [View.read_apply]
  show V c main_v13 _ = V c main_v13 _
  refine congrArg (V c main_v13) ?_
  funext a; apply Fin.ext
  match a with
  | ⟨0, _⟩ => show win2_0.index t (0 : Fin 2) * 1024 + 1 * (y 0).val = t.val / 4 * 1024 + (y 0).val; rw [e0]; omega
  | ⟨1, _⟩ => show win2_0.index t (1 : Fin 2) * 1024 + 1 * (y 1).val = t.val % 4 * 1024 + (y 1).val; rw [e1]; omega

/-- The right operand's block at a point, entry by entry. -/
theorem iblk2_1_apply (c : Dev nD) (t : Fin cfg2.N) (y : S1024x128.Idx) :
    (iblk2 V c 1 t : Vec Ideal S1024x128 .f32) y = at2 (opB2 V c) (t.val % 4 * 1024 + (y 0).val) (0 * 128 + (y 1).val) := by
  obtain ⟨-, -, e0, e1, -, -⟩ := idx2_facts t
  have hN : t.val < 16 := lt_of_lt_of_eq t.isLt (show cfg2.N = 16 from N_2)
  have hy0 : (y 0).val < 1024 := (y 0).isLt
  have hy1 : (y 1).val < 128 := (y 1).isLt
  rw [at2_of_lt _ _ _ (by omega : t.val % 4 * 1024 + (y 0).val < 4096) (by omega : 0 * 128 + (y 1).val < 128)]
  unfold iblk2
  rw [View.read_apply]
  show V c main_v14 _ = V c main_v14 _
  refine congrArg (V c main_v14) ?_
  funext a; apply Fin.ext
  match a with
  | ⟨0, _⟩ => show win2_1.index t (0 : Fin 2) * 1024 + 1 * (y 0).val = t.val % 4 * 1024 + (y 0).val; rw [e0]; omega
  | ⟨1, _⟩ => show win2_1.index t (1 : Fin 2) * 128 + 1 * (y 1).val = 0 * 128 + (y 1).val; rw [e1]; omega

/-- Run `kb` of the sum that is entry (r, q) of the product: the 1024 terms of contraction block `kb`. -/
def part2 (c : Dev nD) (r q kb : ℕ) : EReal :=
  ∑ kk ∈ Finset.range 1024, at2 (opA2 V c) r (kb * 1024 + kk) * at2 (opB2 V c) (kb * 1024 + kk) q

/-- The partial product of the blocks at a point is that point's run. -/
theorem step2 (c : Dev nD) (t : Fin cfg2.N) (y : S1024x128.Idx) :
    matProd (R := 1024) (K := 1024) (N := 128) (iblk2 V c 0 t : Vec Ideal S1024x1024 .f32) (iblk2 V c 1 t : Vec Ideal S1024x128 .f32) y
      = part2 V c (t.val / 4 * 1024 + (y 0).val) (0 * 128 + (y 1).val) (t.val % 4) := by
  have hy0 : (y 0).val < 1024 := (y 0).isLt
  have hy1 : (y 1).val < 128 := (y 1).isLt
  rw [matProd_apply]
  unfold part2
  refine Finset.sum_congr rfl fun kk hkk => ?_
  have hk : kk < 1024 := Finset.mem_range.mp hkk
  rw [at2_of_lt _ _ _ hy0 hk, at2_of_lt _ _ _ hk hy1, iblk2_0_apply, iblk2_1_apply]

/-- THE ACCUMULATOR after the point at position `n`: the first `n % 4 + 1` runs of each entry's sum. -/
theorem acc2_eq (c : Dev nD) (n : ℕ) : ∀ (hn : n < cfg2.N) (y : S1024x128.Idx),
    (outsAt2 V c n hn).2 y = ∑ kb ∈ Finset.range (n % 4 + 1), part2 V c (n / 4 * 1024 + (y 0).val) (0 * 128 + (y 1).val) kb := by
  induction n using Nat.strong_induction_on with
  | _ n ih =>
    intro hn y
    by_cases h0 : n % 4 = 0
    · have h1 : ¬n % 4 = 3 := by omega
      have e := congrArg Prod.snd (outsAt2_A V c ⟨n, hn⟩ h0 h1)
      dsimp only at e
      rw [e, sout2_A_eq (F := Ideal), pay2_2_apply, pay2_1_apply, zero_add, step2 V c ⟨n, hn⟩ y, h0]
      show _ = ∑ kb ∈ Finset.range 1, _
      rw [Finset.sum_range_one]
    · have hpos : n - 1 < n := by omega
      have hI : (n - 1) / 4 = n / 4 := by omega
      have hJ : 0 = 0 := by omega
      have hm : (n - 1) % 4 + 1 = n % 4 := by omega
      have hprev := ih (n - 1) hpos (Nat.lt_of_le_of_lt (Nat.sub_le _ _) hn) y
      rw [hI, hJ, hm] at hprev
      by_cases h1 : n % 4 = 3
      · have e := congrArg Prod.snd (outsAt2_C V c ⟨n, hn⟩ h0 h1)
        dsimp only at e
        rw [e, sout2_C_eq (F := Ideal), pay2_2_apply, step2 V c ⟨n, hn⟩ y, Finset.sum_range_succ]
        exact congrArg (· + _) hprev
      · have e := congrArg Prod.snd (outsAt2_B V c ⟨n, hn⟩ h0 h1)
        dsimp only at e
        rw [e, sout2_B_eq (F := Ideal), pay2_2_apply, step2 V c ⟨n, hn⟩ y, Finset.sum_range_succ]
        exact congrArg (· + _) hprev

/-- At a last block the output block is what the accumulator then holds. -/
theorem out2_last (c : Dev nD) (t : Fin cfg2.N) (h1 : t.val % 4 = 3) :
    (outsAt2 V c t.val t.isLt).1 = (outsAt2 V c t.val t.isLt).2 := by
  have h0 : ¬t.val % 4 = 0 := by omega
  rw [outsAt2_C V c t h0 h1]
  dsimp only
  rw [out2_C_eq (F := Ideal), sout2_C_eq (F := Ideal)]

/-- The product of the two operand arrays. -/
abbrev prod2 (c : Dev nD) : (Mat 4096 128).Idx → EReal := matProd (R := 4096) (K := 4096) (N := 128) (opA2 V c) (opB2 V c)

/-- WHAT A LAST BLOCK WRITES BACK is its block of the product. -/
theorem flushed2_eq (c : Dev nD) (t : Fin cfg2.N) (hf : (cfg2.win 2).flush t = true) :
    (dat2 V c).flushed 2 t = ((cfg2.win 2).blk t).view.read (Elt Ideal) (prod2 V c) := by
  have h3 : t.val % 4 = 3 := (flush2_2 t).mp hf
  have hN : t.val < 16 := lt_of_lt_of_eq t.isLt (show cfg2.N = 16 from N_2)
  obtain ⟨-, -, -, -, e0, e1⟩ := idx2_facts t
  show (cfg2.win 2).cut (grid2.coords t) ((dat2 V c).after 2 t) = _
  rw [after2_2, out2_last V c t h3]
  funext j
  have hj0 : (j 0).val < 1024 := (j 0).isLt
  have hj1 : (j 1).val < 128 := (j 1).isLt
  show (outsAt2 V c t.val t.isLt).2 j = prod2 V c (((cfg2.win 2).blk t).view.emb j)
  rw [acc2_eq V c t.val t.isLt j, h3]
  have hb := matProd_blocks (R := 4096) (N := 128) 4 1024 (opA2 V c) (opB2 V c) (((cfg2.win 2).blk t).view.emb j)
  have c0 : ((((cfg2.win 2).blk t).view.emb j) 0).val = t.val / 4 * 1024 + (j 0).val := by
    show win2_2.index t (0 : Fin 2) * 1024 + 1 * (j 0).val = _; rw [e0]; omega
  have c1 : ((((cfg2.win 2).blk t).view.emb j) 1).val = 0 * 128 + (j 1).val := by
    show win2_2.index t (1 : Fin 2) * 128 + 1 * (j 1).val = _; rw [e1]; omega
  rw [c0, c1] at hb
  exact hb.symm

/-- An index of the output array is in point `t`'s block iff each coordinate is in the block's range. -/
theorem mem_blk2 (t : Fin cfg2.N) (i : S4096x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v15).slice (win2_2.rect t)).set ↔ _
  rw [View.set_slice_whole, Rect.mem_set_unit]
  exact Iff.rfl

/-- The output blocks written back tile the array. -/
theorem cover2 (i : S4096x128.Idx) : ∃ t : Fin cfg2.N, (cfg2.win 2).flush t = true ∧ i ∈ ((cfg2.win 2).blk t).view.set := by
  have hi0 : (i 0).val < 4096 := (i 0).isLt
  have hi1 : (i 1).val < 128 := (i 1).isLt
  have hN : cfg2.N = 16 := N_2
  refine ⟨⟨(i 0).val / 1024 * 4 + 3, by rw [hN]; omega⟩, (flush2_2 _).mpr (by show ((i 0).val / 1024 * 4 + 3) % 4 = 3; omega), ?_⟩
  obtain ⟨-, -, -, -, e0, e1⟩ := idx2_facts ⟨(i 0).val / 1024 * 4 + 3, by rw [hN]; omega⟩
  rw [mem_blk2]
  intro a
  match a with
  | ⟨0, _⟩ =>
    show win2_2.index _ (0 : Fin 2) * 1024 ≤ (i 0).val ∧ (i 0).val < win2_2.index _ (0 : Fin 2) * 1024 + 1024
    rw [e0]; show (((i 0).val / 1024 * 4 + 3) / 4) * 1024 ≤ (i 0).val ∧ (i 0).val < (((i 0).val / 1024 * 4 + 3) / 4) * 1024 + 1024; omega
  | ⟨1, _⟩ =>
    show win2_2.index _ (1 : Fin 2) * 128 ≤ (i 1).val ∧ (i 1).val < win2_2.index _ (1 : Fin 2) * 128 + 128
    rw [e1]; show (0) * 128 ≤ (i 1).val ∧ (i 1).val < (0) * 128 + 128; omega

/-- THE OUTPUT ARRAY after the call: the product of the two operand arrays as the call found them. -/
theorem final2 (c : Dev nD) : (dat2 V c).arrAt 2 cfg2.N = prod2 V c :=
  (dat2 V c).arrAt_eq_of_cover 2 (prod2 V c) (flushed2_eq V c) (cover2)

end Cert.KernelIdeal.Hand

end
-- ==== Proof.Ideal.Pieces3.lean ====
/-
  Pallas call 3: what each situation leaves, read back from the recorded stores.  Every store goes through the whole
  buffer, so the last store wins and a load after a store reads the stored value: a first block leaves
  "zero, plus this block's partial product", any other block "what was there, plus this block's partial product", and
  a last block copies that to the output block.
-/
import proofs.«123347_j77695958385169_1_alg».proof.Proof.Ideal.Region3
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hzL3 : (![0, 0] : Fin S1024x1024.rank → Nat) = fun _ => 0 := by funext a; fin_cases a <;> rfl
theorem hzR3 : (![0, 0] : Fin S1024x128.rank → Nat) = fun _ => 0 := by funext a; fin_cases a <;> rfl

theorem sout3_A_eq (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) :
    sout3_A c i arg3 harg3 arg4 harg4 arg5 harg5 arg6 harg6 hc0 hc1 x0 x1 = k3_pay2 x0 x1 (k3_pay1 (F := F)) := by
  unfold sout3_A
  rw [View.read_writes_eq_canon _ _ _ (scover3_A c i arg3 harg3 arg4 harg4 arg5 harg5 arg6 harg6 hc0 hc1 x0 x1)]
  unfold kernelRun3_A
  dsimp only
  sl_unfold_words
  rw [View.canon_cons_unit_zero hzR3]
  simp only [View.readAt_eq_ld, harg3.read_unread, harg4.read_unread, harg6.read_unread, View.ld_unit_zero (S := S1024x1024) hzL3, View.ld_unit_zero (S := S1024x128) hzR3, View.readCov_unit_zero (S := S1024x128) arg6.view hzR3]

theorem sout3_B_eq (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (xs : Vec F S1024x128 .f32) :
    sout3_B c i arg3 harg3 arg4 harg4 arg5 harg5 arg6 harg6 hc0 hc1 x0 x1 xs = k3_pay2 x0 x1 xs := by
  unfold sout3_B
  rw [View.read_writes_eq_canon _ _ _ (scover3_B c i arg3 harg3 arg4 harg4 arg5 harg5 arg6 harg6 hc0 hc1 x0 x1 xs)]
  unfold kernelRun3_B
  dsimp only
  sl_unfold_words
  rw [View.canon_cons_unit_zero hzR3]
  simp only [View.readAt_eq_ld, harg3.read_unread, harg4.read_unread, harg6.read_unread, View.ld_unit_zero (S := S1024x1024) hzL3, View.ld_unit_zero (S := S1024x128) hzR3, View.readCov_unit_zero (S := S1024x128) arg6.view hzR3]

theorem sout3_C_eq (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) :
    sout3_C c i arg3 harg3 arg4 harg4 arg5 harg5 arg6 harg6 hc0 hc1 x0 x1 xs = k3_pay2 x0 x1 xs := by
  unfold sout3_C
  rw [View.read_writes_eq_canon _ _ _ (scover3_C c i arg3 harg3 arg4 harg4 arg5 harg5 arg6 harg6 hc0 hc1 x0 x1 xs)]
  unfold kernelRun3_C
  dsimp only
  sl_unfold_words
  rw [View.canon_cons_unit_zero hzR3]
  simp only [View.readAt_eq_ld, harg3.read_unread, harg4.read_unread, harg6.read_unread, View.ld_unit_zero (S := S1024x1024) hzL3, View.ld_unit_zero (S := S1024x128) hzR3, View.readCov_unit_zero (S := S1024x128) arg6.view hzR3]

theorem out3_C_eq (c : Dev nD) (i : grid3.Coords) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (xs : Vec F S1024x128 .f32) :
    out3_C c i arg3 harg3 arg4 harg4 arg5 harg5 arg6 harg6 hc0 hc1 x0 x1 xs = k3_pay2 x0 x1 xs := by
  unfold out3_C
  rw [View.read_writes_eq_canon _ _ _ (cover3_C c i arg3 harg3 arg4 harg4 arg5 harg5 arg6 harg6 hc0 hc1 x0 x1 xs)]
  unfold kernelRun3_C
  dsimp only
  sl_unfold_words
  rw [View.canon_cons_unit_zero hzR3]
  simp only [View.readAt_eq_ld, harg3.read_unread, harg4.read_unread, harg6.read_unread, View.ld_unit_zero (S := S1024x1024) hzL3, View.ld_unit_zero (S := S1024x128) hzR3, View.readCov_unit_zero (S := S1024x128) arg6.view hzR3]

end Cert.KernelIdeal.Hand

end
-- ==== Proof.Ideal.Value3.lean ====
/-
  Pallas call 3 at the ideal values: the array it leaves is the matrix product of its two operand arrays.
  A block's partial product is a run of 1024 consecutive terms of the product's sum; after the point at position
  k along the contraction axis the accumulator holds the first k + 1 runs (induction along the grid); the last
  position writes all four runs, the whole sum, to the output block; the output blocks tile the array.
-/
import proofs.«123347_j77695958385169_1_alg».proof.Proof.Ideal.Pieces3
import proofs.«123347_j77695958385169_1_alg».proof.Proof.LibBlocked
import Idealize.ShloMosaic.Lib.Pipeline.Value
import Idealize.ShloMosaic.PureOps.Ideal.Laws
import Idealize.ShloMosaic.Lib.ValueIdx

set_option maxRecDepth 16384

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Linear Cert.Blocked

variable (V : (c : Dev nD) → (b : Ref sig .tc) → Buf (Elt Ideal) ((c : Thread nD τ).loc b))

/-- The kernel's dimension record contracts the left operand's columns with the right operand's rows. -/
theorem contracts3 : Contracts (R := 1024) (K := 1024) (N := 128) dot_S1024x1024_S1024x128_S1024x128_1_0_0_1_n_n where
  rank := rfl
  size := rfl
  lhs0 := fun i q => by
    unfold DotDims.lhsIdx
    rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
    rfl
  lhs1 := fun i q => dot_S1024x1024_S1024x128_S1024x128_1_0_0_1_n_n.lhsIdx_val_of_single rfl i q
  rhs0 := fun i q => dot_S1024x1024_S1024x128_S1024x128_1_0_0_1_n_n.rhsIdx_val_of_single rfl i q
  rhs1 := fun i q => by
    unfold DotDims.rhsIdx
    rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
    rfl

/-- The reset value is zero everywhere. -/
theorem pay3_1_apply (y : S1024x128.Idx) : k3_pay1 (F := Ideal) y = 0 := by
  unfold k3_pay1
  simp only [shapeCast_self]
  exact Ideal.ofBits_zero_f32

/-- One accumulation step adds the product of the two loaded blocks, entry by entry. -/
theorem pay3_2_apply (x0 : Vec Ideal S1024x1024 .f32) (x1 acc : Vec Ideal S1024x128 .f32) (y : S1024x128.Idx) :
    k3_pay2 (F := Ideal) x0 x1 acc y = acc y + matProd (R := 1024) (K := 1024) (N := 128) x0 x1 y := by
  unfold k3_pay2
  simp only [shapeCast_self]
  show acc y + _ = _
  refine congrArg (acc y + ·) ?_
  exact congrFun (matmul_zero_eq contracts3 none _ _) y

/-- The windows' block indices at a point, in closed form. -/
theorem idx3_facts : ∀ t : Fin cfg3.N, win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = t.val / 4 ∧ win3_2.index t (1 : Fin 2) = 0 :=
  (by decide +kernel : ∀ t : Fin grid3.N, _)

/-- The two operand arrays as the region finds them. -/
abbrev opA3 (c : Dev nD) : (Mat 4096 4096).Idx → EReal := V c main_v13
abbrev opB3 (c : Dev nD) : (Mat 4096 128).Idx → EReal := V c main_v15

/-- The left operand's block at a point, entry by entry. -/
theorem iblk3_0_apply (c : Dev nD) (t : Fin cfg3.N) (y : S1024x1024.Idx) :
    (iblk3 V c 0 t : Vec Ideal S1024x1024 .f32) y = at2 (opA3 V c) (t.val / 4 * 1024 + (y 0).val) (t.val % 4 * 1024 + (y 1).val) := by
  obtain ⟨e0, e1, -, -, -, -⟩ := idx3_facts t
  have hN : t.val < 16 := lt_of_lt_of_eq t.isLt (show cfg3.N = 16 from N_3)
  have hy0 : (y 0).val < 1024 := (y 0).isLt
  have hy1 : (y 1).val < 1024 := (y 1).isLt
  rw [at2_of_lt _ _ _ (by omega : t.val / 4 * 1024 + (y 0).val < 4096) (by omega : t.val % 4 * 1024 + (y 1).val < 4096)]
  unfold iblk3
  rw [View.read_apply]
  show V c main_v13 _ = V c main_v13 _
  refine congrArg (V c main_v13) ?_
  funext a; apply Fin.ext
  match a with
  | ⟨0, _⟩ => show win3_0.index t (0 : Fin 2) * 1024 + 1 * (y 0).val = t.val / 4 * 1024 + (y 0).val; rw [e0]; omega
  | ⟨1, _⟩ => show win3_0.index t (1 : Fin 2) * 1024 + 1 * (y 1).val = t.val % 4 * 1024 + (y 1).val; rw [e1]; omega

/-- The right operand's block at a point, entry by entry. -/
theorem iblk3_1_apply (c : Dev nD) (t : Fin cfg3.N) (y : S1024x128.Idx) :
    (iblk3 V c 1 t : Vec Ideal S1024x128 .f32) y = at2 (opB3 V c) (t.val % 4 * 1024 + (y 0).val) (0 * 128 + (y 1).val) := by
  obtain ⟨-, -, e0, e1, -, -⟩ := idx3_facts t
  have hN : t.val < 16 := lt_of_lt_of_eq t.isLt (show cfg3.N = 16 from N_3)
  have hy0 : (y 0).val < 1024 := (y 0).isLt
  have hy1 : (y 1).val < 128 := (y 1).isLt
  rw [at2_of_lt _ _ _ (by omega : t.val % 4 * 1024 + (y 0).val < 4096) (by omega : 0 * 128 + (y 1).val < 128)]
  unfold iblk3
  rw [View.read_apply]
  show V c main_v15 _ = V c main_v15 _
  refine congrArg (V c main_v15) ?_
  funext a; apply Fin.ext
  match a with
  | ⟨0, _⟩ => show win3_1.index t (0 : Fin 2) * 1024 + 1 * (y 0).val = t.val % 4 * 1024 + (y 0).val; rw [e0]; omega
  | ⟨1, _⟩ => show win3_1.index t (1 : Fin 2) * 128 + 1 * (y 1).val = 0 * 128 + (y 1).val; rw [e1]; omega

/-- Run `kb` of the sum that is entry (r, q) of the product: the 1024 terms of contraction block `kb`. -/
def part3 (c : Dev nD) (r q kb : ℕ) : EReal :=
  ∑ kk ∈ Finset.range 1024, at2 (opA3 V c) r (kb * 1024 + kk) * at2 (opB3 V c) (kb * 1024 + kk) q

/-- The partial product of the blocks at a point is that point's run. -/
theorem step3 (c : Dev nD) (t : Fin cfg3.N) (y : S1024x128.Idx) :
    matProd (R := 1024) (K := 1024) (N := 128) (iblk3 V c 0 t : Vec Ideal S1024x1024 .f32) (iblk3 V c 1 t : Vec Ideal S1024x128 .f32) y
      = part3 V c (t.val / 4 * 1024 + (y 0).val) (0 * 128 + (y 1).val) (t.val % 4) := by
  have hy0 : (y 0).val < 1024 := (y 0).isLt
  have hy1 : (y 1).val < 128 := (y 1).isLt
  rw [matProd_apply]
  unfold part3
  refine Finset.sum_congr rfl fun kk hkk => ?_
  have hk : kk < 1024 := Finset.mem_range.mp hkk
  rw [at2_of_lt _ _ _ hy0 hk, at2_of_lt _ _ _ hk hy1, iblk3_0_apply, iblk3_1_apply]

/-- THE ACCUMULATOR after the point at position `n`: the first `n % 4 + 1` runs of each entry's sum. -/
theorem acc3_eq (c : Dev nD) (n : ℕ) : ∀ (hn : n < cfg3.N) (y : S1024x128.Idx),
    (outsAt3 V c n hn).2 y = ∑ kb ∈ Finset.range (n % 4 + 1), part3 V c (n / 4 * 1024 + (y 0).val) (0 * 128 + (y 1).val) kb := by
  induction n using Nat.strong_induction_on with
  | _ n ih =>
    intro hn y
    by_cases h0 : n % 4 = 0
    · have h1 : ¬n % 4 = 3 := by omega
      have e := congrArg Prod.snd (outsAt3_A V c ⟨n, hn⟩ h0 h1)
      dsimp only at e
      rw [e, sout3_A_eq (F := Ideal), pay3_2_apply, pay3_1_apply, zero_add, step3 V c ⟨n, hn⟩ y, h0]
      show _ = ∑ kb ∈ Finset.range 1, _
      rw [Finset.sum_range_one]
    · have hpos : n - 1 < n := by omega
      have hI : (n - 1) / 4 = n / 4 := by omega
      have hJ : 0 = 0 := by omega
      have hm : (n - 1) % 4 + 1 = n % 4 := by omega
      have hprev := ih (n - 1) hpos (Nat.lt_of_le_of_lt (Nat.sub_le _ _) hn) y
      rw [hI, hJ, hm] at hprev
      by_cases h1 : n % 4 = 3
      · have e := congrArg Prod.snd (outsAt3_C V c ⟨n, hn⟩ h0 h1)
        dsimp only at e
        rw [e, sout3_C_eq (F := Ideal), pay3_2_apply, step3 V c ⟨n, hn⟩ y, Finset.sum_range_succ]
        exact congrArg (· + _) hprev
      · have e := congrArg Prod.snd (outsAt3_B V c ⟨n, hn⟩ h0 h1)
        dsimp only at e
        rw [e, sout3_B_eq (F := Ideal), pay3_2_apply, step3 V c ⟨n, hn⟩ y, Finset.sum_range_succ]
        exact congrArg (· + _) hprev

/-- At a last block the output block is what the accumulator then holds. -/
theorem out3_last (c : Dev nD) (t : Fin cfg3.N) (h1 : t.val % 4 = 3) :
    (outsAt3 V c t.val t.isLt).1 = (outsAt3 V c t.val t.isLt).2 := by
  have h0 : ¬t.val % 4 = 0 := by omega
  rw [outsAt3_C V c t h0 h1]
  dsimp only
  rw [out3_C_eq (F := Ideal), sout3_C_eq (F := Ideal)]

/-- The product of the two operand arrays. -/
abbrev prod3 (c : Dev nD) : (Mat 4096 128).Idx → EReal := matProd (R := 4096) (K := 4096) (N := 128) (opA3 V c) (opB3 V c)

/-- WHAT A LAST BLOCK WRITES BACK is its block of the product. -/
theorem flushed3_eq (c : Dev nD) (t : Fin cfg3.N) (hf : (cfg3.win 2).flush t = true) :
    (dat3 V c).flushed 2 t = ((cfg3.win 2).blk t).view.read (Elt Ideal) (prod3 V c) := by
  have h3 : t.val % 4 = 3 := (flush3_2 t).mp hf
  have hN : t.val < 16 := lt_of_lt_of_eq t.isLt (show cfg3.N = 16 from N_3)
  obtain ⟨-, -, -, -, e0, e1⟩ := idx3_facts t
  show (cfg3.win 2).cut (grid3.coords t) ((dat3 V c).after 2 t) = _
  rw [after3_2, out3_last V c t h3]
  funext j
  have hj0 : (j 0).val < 1024 := (j 0).isLt
  have hj1 : (j 1).val < 128 := (j 1).isLt
  show (outsAt3 V c t.val t.isLt).2 j = prod3 V c (((cfg3.win 2).blk t).view.emb j)
  rw [acc3_eq V c t.val t.isLt j, h3]
  have hb := matProd_blocks (R := 4096) (N := 128) 4 1024 (opA3 V c) (opB3 V c) (((cfg3.win 2).blk t).view.emb j)
  have c0 : ((((cfg3.win 2).blk t).view.emb j) 0).val = t.val / 4 * 1024 + (j 0).val := by
    show win3_2.index t (0 : Fin 2) * 1024 + 1 * (j 0).val = _; rw [e0]; omega
  have c1 : ((((cfg3.win 2).blk t).view.emb j) 1).val = 0 * 128 + (j 1).val := by
    show win3_2.index t (1 : Fin 2) * 128 + 1 * (j 1).val = _; rw [e1]; omega
  rw [c0, c1] at hb
  exact hb.symm

/-- An index of the output array is in point `t`'s block iff each coordinate is in the block's range. -/
theorem mem_blk3 (t : Fin cfg3.N) (i : S4096x128.Idx) :
    i ∈ ((cfg3.win 2).blk t).view.set ↔ ∀ a : Fin 2, win3_2.index t a * S1024x128.size a ≤ (i a).val ∧ (i a).val < win3_2.index t a * S1024x128.size a + S1024x128.size a := by
  show i ∈ ((View.whole main_v16).slice (win3_2.rect t)).set ↔ _
  rw [View.set_slice_whole, Rect.mem_set_unit]
  exact Iff.rfl

/-- The output blocks written back tile the array. -/
theorem cover3 (i : S4096x128.Idx) : ∃ t : Fin cfg3.N, (cfg3.win 2).flush t = true ∧ i ∈ ((cfg3.win 2).blk t).view.set := by
  have hi0 : (i 0).val < 4096 := (i 0).isLt
  have hi1 : (i 1).val < 128 := (i 1).isLt
  have hN : cfg3.N = 16 := N_3
  refine ⟨⟨(i 0).val / 1024 * 4 + 3, by rw [hN]; omega⟩, (flush3_2 _).mpr (by show ((i 0).val / 1024 * 4 + 3) % 4 = 3; omega), ?_⟩
  obtain ⟨-, -, -, -, e0, e1⟩ := idx3_facts ⟨(i 0).val / 1024 * 4 + 3, by rw [hN]; omega⟩
  rw [mem_blk3]
  intro a
  match a with
  | ⟨0, _⟩ =>
    show win3_2.index _ (0 : Fin 2) * 1024 ≤ (i 0).val ∧ (i 0).val < win3_2.index _ (0 : Fin 2) * 1024 + 1024
    rw [e0]; show (((i 0).val / 1024 * 4 + 3) / 4) * 1024 ≤ (i 0).val ∧ (i 0).val < (((i 0).val / 1024 * 4 + 3) / 4) * 1024 + 1024; omega
  | ⟨1, _⟩ =>
    show win3_2.index _ (1 : Fin 2) * 128 ≤ (i 1).val ∧ (i 1).val < win3_2.index _ (1 : Fin 2) * 128 + 128
    rw [e1]; show (0) * 128 ≤ (i 1).val ∧ (i 1).val < (0) * 128 + 128; omega

/-- THE OUTPUT ARRAY after the call: the product of the two operand arrays as the call found them. -/
theorem final3 (c : Dev nD) : (dat3 V c).arrAt 2 cfg3.N = prod3 V c :=
  (dat3 V c).arrAt_eq_of_cover 2 (prod3 V c) (flushed3_eq V c) (cover3)

end Cert.KernelIdeal.Hand

end
-- ==== Proof.Shared.lean ====
/-
  The two host-side computations that the reference and the kernel program have in common, each as one function
  of its operands, read at the ideal values (a float is an extended real, every operation exact).

  * `pre e idx len`: the mean embedding of each session. A zero row is put in front of the embedding table `e`
    (so that row `0` of the extended table is zero and row `r + 1` is row `r` of `e`); a negative entry of the
    index table `idx` is shifted up by the extended table's row count `100001`, the others are kept; row `(b, j)`
    of the gathered array is the extended table's row at the adjusted index `idx (b, j)`; the `50` gathered rows
    of each session `b` are summed, and the sum is divided entry by entry by the session's length `len b`.
  * `tail s0 y1 y2 y3`: the entrywise mean of four matrices: each is given a leading axis of extent one, the four
    are joined along that axis, the joined array is summed along it, and the sum is divided by the constant `4`.

  Both are written operation by operation with exactly the operations, shape records and side conditions of the
  reference program, in its order, so that the reference's composed result term is these two functions around its
  three matrix products by unfolding alone.
-/
import proofs.«123347_j77695958385169_1_alg».proof.ReferenceIdeal
import proofs.«123347_j77695958385169_1_alg».proof.Proof.Gen.ReferenceIdeal
import Idealize.ShloMosaic.PureOps.Ideal

noncomputable section

namespace Cert.Shared

open Cert.ReferenceIdeal Cert.ReferenceIdeal.Gen Idealize.ShloMosaic Idealize.ShloMosaic.TcCoe Idealize.SL.Sem Idealize.ShloMosaic.StableHlo

/-- The mean embedding of each session: the rows of the zero-extended table `e` at the (sign-adjusted) indices
    `idx`, summed over each session's `50` positions and divided by the session's length `len`. -/
def pre (e : FVec Ideal S100000x128 .f32) (idx : (⟨S4096x50, .i32⟩ : BufTy).Contents (Elt Ideal))
    (len : FVec Ideal S4096 .f32) : FVec Ideal S4096x128 .f32 :=
  Host.divf (F := Ideal)
    (Host.reduceAdd (F := Ideal)
      (Host.gather gather_S100001x128_S4096x50x1_S4096x50x128_2_0_n_n_0_2_1128
        (concatenate S100001x128 0 [⟨S1x128, (broadcastInDim S1x128 ![] bcast_S_S1x128 (constant (F := Ideal) S_ .f32 0x00000000#32))⟩, ⟨S100000x128, e⟩] concatenates_S1x128_S100000x128_S100001x128_d0)
        (broadcastInDim S4096x50x1 ![0, 1] bcast_S4096x50_S4096x50x1_0_1
          (select (cmpi .slt idx (broadcastInDim S4096x50 ![] bcast_S_S4096x50 (constantI S_ 32 0#32)))
            (addi idx (broadcastInDim S4096x50 ![] bcast_S_S4096x50 (constantI S_ 32 100001#32)))
            idx)))
      (constant (F := Ideal) S_ .f32 0x00000000#32) reducesTo_S4096x50x128_S4096x128_d1 h_S_)
    (broadcastInDim S4096x128 ![0, 1] bcast_S4096x1_S4096x128_0_1 (broadcastInDim S4096x1 ![0] bcast_S4096_S4096x1_0 len))

/-- The entrywise mean of four matrices: joined along a new leading axis, summed along it, divided by `4`. -/
def tail (s0 y1 y2 y3 : FVec Ideal S4096x128 .f32) : FVec Ideal S4096x128 .f32 :=
  Host.divf (F := Ideal)
    (Host.reduceAdd (F := Ideal)
      (concatenate S4x4096x128 0
        [⟨S1x4096x128, (broadcastInDim S1x4096x128 ![1, 2] bcast_S4096x128_S1x4096x128_1_2 s0)⟩,
         ⟨S1x4096x128, (broadcastInDim S1x4096x128 ![1, 2] bcast_S4096x128_S1x4096x128_1_2 y1)⟩,
         ⟨S1x4096x128, (broadcastInDim S1x4096x128 ![1, 2] bcast_S4096x128_S1x4096x128_1_2 y2)⟩,
         ⟨S1x4096x128, (broadcastInDim S1x4096x128 ![1, 2] bcast_S4096x128_S1x4096x128_1_2 y3)⟩]
        concatenates_S1x4096x128_S1x4096x128_S1x4096x128_S1x4096x128_S4x4096x128_d0)
      (constant (F := Ideal) S_ .f32 0x00000000#32) reducesTo_S4x4096x128_S4096x128_d0 h_S_)
    (broadcastInDim S4096x128 ![] bcast_S_S4096x128 (constant (F := Ideal) S_ .f32 0x40800000#32))

end Cert.Shared

end
-- ==== Proof.HostSide.lean ====
/-
  The kernel program's two stretches of host operations, read at the ideal values from an arbitrary valuation of
  the buffers.

  Before its first kernel call the program computes the mean session embeddings with the same 17 operations as the
  reference: a zero row in front of the embedding table, the sign adjustment of the indices, the gather, the sum
  over each session's positions and the division by the session lengths. After its last kernel call it takes the
  entrywise mean of four matrices with the same 10 operations as the reference: a leading unit axis on each, the
  join along it, the sum along it and the division by `4`. The program writes these operations over its own copies
  of the shapes, the side conditions and the gather's dimension record; the shapes are the same literals, the side
  conditions are propositions, and the record has the same fields, so each stretch's result is `Cert.Shared.pre`,
  respectively `Cert.Shared.tail`, of the buffers it reads, by unfolding alone.
-/
import proofs.«123347_j77695958385169_1_alg».proof.Proof.Gen.KernelIdeal.Launch
import proofs.«123347_j77695958385169_1_alg».proof.Proof.Shared
import Idealize.ShloMosaic.Lib.StableHlo.Run
import Idealize.ShloMosaic.PureOps.Ideal

noncomputable section

namespace Cert.KernelSide

open Cert.KernelIdeal Cert.KernelIdeal.Gen Idealize.ShloMosaic Idealize.ShloMosaic.TcCoe Idealize.SL.Sem Idealize.ShloMosaic.StableHlo

variable (V : Valuation τ sig (Elt Ideal))

/-- After the 17 operations before the first kernel call, `main_v12` holds the mean session embeddings of the
    embedding table, the index table and the session lengths. -/
theorem pre_value : after (hostOps0 (F := Ideal)) V (Proc.devRef (τ := τ) .tc main_v12)
    = Cert.Shared.pre (V (Proc.devRef (τ := τ) .tc main_arg2)) (V (Proc.devRef (τ := τ) .tc main_arg3)) (V (Proc.devRef (τ := τ) .tc main_arg4)) := by
  after_results_simp <;> rfl

/-- After the 10 operations behind the last kernel call, `main_v24` holds the entrywise mean of `main_v12`,
    `main_v14`, `main_v15` and `main_v16`. -/
theorem tail_value : after (hostOps4 (F := Ideal)) V (Proc.devRef (τ := τ) .tc main_v24)
    = Cert.Shared.tail (V (Proc.devRef (τ := τ) .tc main_v12)) (V (Proc.devRef (τ := τ) .tc main_v14)) (V (Proc.devRef (τ := τ) .tc main_v15)) (V (Proc.devRef (τ := τ) .tc main_v16)) := by
  after_results_simp <;> rfl

end Cert.KernelSide

end
-- ==== Proof.Ideal.Assemble.lean ====
/-
  The result of the idealized kernel program, read off the last fold of the buffers: the host operations after the
  last Pallas call average the pooled session embeddings s0 and the three propagated layers
  y1 = DA·s0, y2 = DA·y1, y3 = DA·y2, where DA = D·A is what the first call leaves, each later call leaves the product
  of DA with the layer before it, and s0 is what the host operations before the first call compute from the
  embedding table, the session indices and the session lengths.
-/
import proofs.«123347_j77695958385169_1_alg».proof.Proof.Ideal.Frame
import proofs.«123347_j77695958385169_1_alg».proof.Proof.Ideal.Value0
import proofs.«123347_j77695958385169_1_alg».proof.Proof.Ideal.Value1
import proofs.«123347_j77695958385169_1_alg».proof.Proof.Ideal.Value2
import proofs.«123347_j77695958385169_1_alg».proof.Proof.Ideal.Value3
import proofs.«123347_j77695958385169_1_alg».proof.Proof.HostSide

set_option maxRecDepth 16384

noncomputable section

namespace Cert.KernelIdeal.Hand

open Idealize.ShloMosaic Idealize.ShloMosaic.TcCoe Idealize.SL.Sem
open Cert.KernelIdeal Cert.KernelIdeal.Gen Cert.Linear

variable (m : (ℓ : Loc nD τ sig) → Buf (Elt Ideal) ℓ) (ρ : Dev nD → PrngReg)

/-- The pooled session embeddings, from the launch contents of the three arguments they are computed from. -/
theorem s0_eq (c : Dev nD) :
    W1 m ρ c (Proc.devRef .tc main_v12)
      = Cert.Shared.pre (m ((c : Thread nD τ).loc main_arg2)) (m ((c : Thread nD τ).loc main_arg3)) (m ((c : Thread nD τ).loc main_arg4)) :=
  Cert.KernelSide.pre_value (W0 m ρ c)

/-- The first call leaves D·A. -/
theorem DA_eq (c : Dev nD) :
    W2 m ρ c (Proc.devRef .tc main_v13)
      = matProd (R := 4096) (K := 4096) (N := 4096) (m ((c : Thread nD τ).loc main_arg0)) (m ((c : Thread nD τ).loc main_arg1)) := by
  have hA : V1 m ρ c main_arg0 = m ((c : Thread nD τ).loc main_arg0) :=
    StableHlo.after_of_writes_sub hostOps0 _ hostOps0_writes (by decide)
  have hB : V1 m ρ c main_arg1 = m ((c : Thread nD τ).loc main_arg1) :=
    StableHlo.after_of_writes_sub hostOps0 _ hostOps0_writes (by decide)
  refine ((W2_arr m ρ c 2).trans (final0 (V1 m ρ) c)).trans ?_
  show matProd (V1 m ρ c main_arg0) (V1 m ρ c main_arg1) = _
  rw [hA, hB]

/-- The second call leaves DA·s0. -/
theorem y1_eq (c : Dev nD) :
    W3 m ρ c (Proc.devRef .tc main_v14)
      = matProd (R := 4096) (K := 4096) (N := 128) (W2 m ρ c (Proc.devRef .tc main_v13)) (W1 m ρ c (Proc.devRef .tc main_v12)) := by
  refine ((W3_arr m ρ c 2).trans (final1 (V2 m ρ) c)).trans ?_
  show matProd (W2 m ρ c (Proc.devRef .tc main_v13)) (W2 m ρ c (Proc.devRef .tc main_v12)) = _
  rw [W2_keep m ρ c main_v12 (by decide)]

/-- The third call leaves DA·y1. -/
theorem y2_eq (c : Dev nD) :
    W4 m ρ c (Proc.devRef .tc main_v15)
      = matProd (R := 4096) (K := 4096) (N := 128) (W2 m ρ c (Proc.devRef .tc main_v13)) (W3 m ρ c (Proc.devRef .tc main_v14)) := by
  refine ((W4_arr m ρ c 2).trans (final2 (V3 m ρ) c)).trans ?_
  show matProd (W3 m ρ c (Proc.devRef .tc main_v13)) (W3 m ρ c (Proc.devRef .tc main_v14)) = _
  rw [W3_keep m ρ c main_v13 (by decide)]

/-- The fourth call leaves DA·y2. -/
theorem y3_eq (c : Dev nD) :
    W5 m ρ c (Proc.devRef .tc main_v16)
      = matProd (R := 4096) (K := 4096) (N := 128) (W2 m ρ c (Proc.devRef .tc main_v13)) (W4 m ρ c (Proc.devRef .tc main_v15)) := by
  refine ((W5_arr m ρ c 2).trans (final3 (V4 m ρ) c)).trans ?_
  show matProd (W4 m ρ c (Proc.devRef .tc main_v13)) (W4 m ρ c (Proc.devRef .tc main_v15)) = _
  rw [W4_keep m ρ c main_v13 (by decide), W3_keep m ρ c main_v13 (by decide)]

/-- The result buffer after the whole program: the mean of s0, DA·s0, DA·(DA·s0), DA·(DA·(DA·s0)). -/
theorem result_eq (c : Dev nD) :
    W6 m ρ c (Proc.devRef .tc main_v24)
      = Cert.Shared.tail (W1 m ρ c (Proc.devRef .tc main_v12)) (W3 m ρ c (Proc.devRef .tc main_v14))
          (W4 m ρ c (Proc.devRef .tc main_v15)) (W5 m ρ c (Proc.devRef .tc main_v16)) := by
  refine (Cert.KernelSide.tail_value (W5 m ρ c)).trans ?_
  rw [W5_keep m ρ c main_v12 (by decide), W4_keep m ρ c main_v12 (by decide), W3_keep m ρ c main_v12 (by decide),
    W2_keep m ρ c main_v12 (by decide), W5_keep m ρ c main_v14 (by decide), W4_keep m ρ c main_v14 (by decide),
    W5_keep m ρ c main_v15 (by decide)]

end Cert.KernelIdeal.Hand

end
-- ==== Proof.RefRun.lean ====
/-
  The reference's run, read back in five consecutive segments of its operation list.

  The reference is a straight line of 31 host operations. After the line, each buffer holds the fold of the
  operations' results over the launch contents. The fold over a concatenation of two lines is the fold over the
  second line of the fold over the first, so the line is cut into five segments, and for each segment and an
  ARBITRARY valuation `V` of the buffers the few buffers that later segments read are computed:

  * segment A (the product `D · A`) writes `main_v0` from the first two arguments;
  * segment B (17 operations) writes `main_v13`, the mean session embeddings `Cert.Shared.pre` of the other three;
  * segment C (three products) writes `main_v14`, `main_v15`, `main_v16` from `main_v0` and `main_v13`;
  * segment D gives the four matrices a leading unit axis and joins them into `main_v21`;
  * segment E sums `main_v21` along that axis and divides by `4` into `main_v24`: with D, `Cert.Shared.tail`.

  Chained, the result buffer holds `tail s0 (DA·s0) (DA·(DA·s0)) (DA·(DA·(DA·s0)))` with the host's products, and at
  the ideal values a host product under either of the two dimension records is the plain matrix product
  (`Cert.Linear.dotGeneral_eq`). The five arguments are written by no operation and keep their launch contents.
-/
import proofs.«123347_j77695958385169_1_alg».proof.Proof.Shared
import proofs.«123347_j77695958385169_1_alg».proof.Proof.LibMatProd
import Idealize.ShloMosaic.Lib.StableHlo.Run
import Idealize.ShloMosaic.Lib.Pipeline.Frame

noncomputable section

namespace Cert.RefSide

open Cert.ReferenceIdeal Cert.ReferenceIdeal.Gen Idealize.ShloMosaic Idealize.ShloMosaic.TcCoe Idealize.SL.Sem Idealize.ShloMosaic.StableHlo

/-! ## The operation list and its five segments -/

section Line

variable {F : FTy → Type} [FloatOps F]

/-- @main's 31 operations, in order. -/
abbrev ops : List (HloOp τ sig (Elt F)) :=
  [ binary main_arg0 main_arg1 main_v0 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst (constant S_ .f32 0x00000000#32),
    unary main_cst main_v1 (broadcastInDim S1x128 ![] bcast_S_S1x128 : (⟨S_, .f32⟩ : BufTy).Contents (Elt F) → (⟨S1x128, .f32⟩ : BufTy).Contents (Elt F)),
    binary main_v1 main_arg2 main_v2 ((fun a b => concatenate S100001x128 0 [⟨S1x128, a⟩, ⟨S100000x128, b⟩] concatenates_S1x128_S100000x128_S100001x128_d0) : (⟨S1x128, .f32⟩ : BufTy).Contents (Elt F) → (⟨S100000x128, .f32⟩ : BufTy).Contents (Elt F) → (⟨S100001x128, .f32⟩ : BufTy).Contents (Elt F)),
    nullary main_c (constantI S_ 32 0#32),
    unary main_c main_v3 (broadcastInDim S4096x50 ![] bcast_S_S4096x50 : (⟨S_, .i32⟩ : BufTy).Contents (Elt F) → (⟨S4096x50, .i32⟩ : BufTy).Contents (Elt F)),
    binary main_arg3 main_v3 main_v4 (cmpi .slt : (⟨S4096x50, .i32⟩ : BufTy).Contents (Elt F) → (⟨S4096x50, .i32⟩ : BufTy).Contents (Elt F) → (⟨S4096x50, .i1⟩ : BufTy).Contents (Elt F)),
    nullary main_c_0 (constantI S_ 32 100001#32),
    unary main_c_0 main_v5 (broadcastInDim S4096x50 ![] bcast_S_S4096x50 : (⟨S_, .i32⟩ : BufTy).Contents (Elt F) → (⟨S4096x50, .i32⟩ : BufTy).Contents (Elt F)),
    binary main_arg3 main_v5 main_v6 (addi : (⟨S4096x50, .i32⟩ : BufTy).Contents (Elt F) → (⟨S4096x50, .i32⟩ : BufTy).Contents (Elt F) → (⟨S4096x50, .i32⟩ : BufTy).Contents (Elt F)),
    ternary main_v4 main_v6 main_arg3 main_v7 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    unary main_v7 main_v8 (broadcastInDim S4096x50x1 ![0, 1] bcast_S4096x50_S4096x50x1_0_1 : (⟨S4096x50, .i32⟩ : BufTy).Contents (Elt F) → (⟨S4096x50x1, .i32⟩ : BufTy).Contents (Elt F)),
    binary main_v2 main_v8 main_v9 ((fun x i => Host.gather gather_S100001x128_S4096x50x1_S4096x50x128_2_0_n_n_0_2_1128 x i) : (⟨S100001x128, .f32⟩ : BufTy).Contents (Elt F) → (⟨S4096x50x1, .i32⟩ : BufTy).Contents (Elt F) → (⟨S4096x50x128, .f32⟩ : BufTy).Contents (Elt F)),
    nullary main_cst_1 (constant S_ .f32 0x00000000#32),
    binary main_v9 main_cst_1 main_v10 ((fun x v => Host.reduceAdd x v reducesTo_S4096x50x128_S4096x128_d1 h_S_) : (⟨S4096x50x128, .f32⟩ : BufTy).Contents (Elt F) → (⟨S_, .f32⟩ : BufTy).Contents (Elt F) → (⟨S4096x128, .f32⟩ : BufTy).Contents (Elt F)),
    unary main_arg4 main_v11 (broadcastInDim S4096x1 ![0] bcast_S4096_S4096x1_0 : (⟨S4096, .f32⟩ : BufTy).Contents (Elt F) → (⟨S4096x1, .f32⟩ : BufTy).Contents (Elt F)),
    unary main_v11 main_v12 (broadcastInDim S4096x128 ![0, 1] bcast_S4096x1_S4096x128_0_1 : (⟨S4096x1, .f32⟩ : BufTy).Contents (Elt F) → (⟨S4096x128, .f32⟩ : BufTy).Contents (Elt F)),
    binary main_v10 main_v12 main_v13 (Host.divf : (⟨S4096x128, .f32⟩ : BufTy).Contents (Elt F) → (⟨S4096x128, .f32⟩ : BufTy).Contents (Elt F) → (⟨S4096x128, .f32⟩ : BufTy).Contents (Elt F)),
    binary main_v0 main_v13 main_v14 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    binary main_v0 main_v14 main_v15 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    binary main_v0 main_v15 main_v16 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    unary main_v13 main_v17 (broadcastInDim S1x4096x128 ![1, 2] bcast_S4096x128_S1x4096x128_1_2 : (⟨S4096x128, .f32⟩ : BufTy).Contents (Elt F) → (⟨S1x4096x128, .f32⟩ : BufTy).Contents (Elt F)),
    unary main_v14 main_v18 (broadcastInDim S1x4096x128 ![1, 2] bcast_S4096x128_S1x4096x128_1_2 : (⟨S4096x128, .f32⟩ : BufTy).Contents (Elt F) → (⟨S1x4096x128, .f32⟩ : BufTy).Contents (Elt F)),
    unary main_v15 main_v19 (broadcastInDim S1x4096x128 ![1, 2] bcast_S4096x128_S1x4096x128_1_2 : (⟨S4096x128, .f32⟩ : BufTy).Contents (Elt F) → (⟨S1x4096x128, .f32⟩ : BufTy).Contents (Elt F)),
    unary main_v16 main_v20 (broadcastInDim S1x4096x128 ![1, 2] bcast_S4096x128_S1x4096x128_1_2 : (⟨S4096x128, .f32⟩ : BufTy).Contents (Elt F) → (⟨S1x4096x128, .f32⟩ : BufTy).Contents (Elt F)),
    nary ![main_v17, main_v18, main_v19, main_v20] main_v21 (fun u => concatenate S4x4096x128 0 [⟨S1x4096x128, u 0⟩, ⟨S1x4096x128, u 1⟩, ⟨S1x4096x128, u 2⟩, ⟨S1x4096x128, u 3⟩] concatenates_S1x4096x128_S1x4096x128_S1x4096x128_S1x4096x128_S4x4096x128_d0),
    nullary main_cst_2 (constant S_ .f32 0x00000000#32),
    binary main_v21 main_cst_2 main_v22 ((fun x v => Host.reduceAdd x v reducesTo_S4x4096x128_S4096x128_d0 h_S_) : (⟨S4x4096x128, .f32⟩ : BufTy).Contents (Elt F) → (⟨S_, .f32⟩ : BufTy).Contents (Elt F) → (⟨S4096x128, .f32⟩ : BufTy).Contents (Elt F)),
    nullary main_cst_3 (constant S_ .f32 0x40800000#32),
    unary main_cst_3 main_v23 (broadcastInDim S4096x128 ![] bcast_S_S4096x128 : (⟨S_, .f32⟩ : BufTy).Contents (Elt F) → (⟨S4096x128, .f32⟩ : BufTy).Contents (Elt F)),
    binary main_v22 main_v23 main_v24 (Host.divf : (⟨S4096x128, .f32⟩ : BufTy).Contents (Elt F) → (⟨S4096x128, .f32⟩ : BufTy).Contents (Elt F) → (⟨S4096x128, .f32⟩ : BufTy).Contents (Elt F)) ]

/-- Segment A: the product of the first two arguments. -/
abbrev opsA : List (HloOp τ sig (Elt F)) :=
  [ binary main_arg0 main_arg1 main_v0 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]
/-- Segment B: the 17 operations that compute the mean session embeddings. -/
abbrev opsB : List (HloOp τ sig (Elt F)) :=
  [ nullary main_cst (constant S_ .f32 0x00000000#32),
    unary main_cst main_v1 (broadcastInDim S1x128 ![] bcast_S_S1x128 : (⟨S_, .f32⟩ : BufTy).Contents (Elt F) → (⟨S1x128, .f32⟩ : BufTy).Contents (Elt F)),
    binary main_v1 main_arg2 main_v2 ((fun a b => concatenate S100001x128 0 [⟨S1x128, a⟩, ⟨S100000x128, b⟩] concatenates_S1x128_S100000x128_S100001x128_d0) : (⟨S1x128, .f32⟩ : BufTy).Contents (Elt F) → (⟨S100000x128, .f32⟩ : BufTy).Contents (Elt F) → (⟨S100001x128, .f32⟩ : BufTy).Contents (Elt F)),
    nullary main_c (constantI S_ 32 0#32),
    unary main_c main_v3 (broadcastInDim S4096x50 ![] bcast_S_S4096x50 : (⟨S_, .i32⟩ : BufTy).Contents (Elt F) → (⟨S4096x50, .i32⟩ : BufTy).Contents (Elt F)),
    binary main_arg3 main_v3 main_v4 (cmpi .slt : (⟨S4096x50, .i32⟩ : BufTy).Contents (Elt F) → (⟨S4096x50, .i32⟩ : BufTy).Contents (Elt F) → (⟨S4096x50, .i1⟩ : BufTy).Contents (Elt F)),
    nullary main_c_0 (constantI S_ 32 100001#32),
    unary main_c_0 main_v5 (broadcastInDim S4096x50 ![] bcast_S_S4096x50 : (⟨S_, .i32⟩ : BufTy).Contents (Elt F) → (⟨S4096x50, .i32⟩ : BufTy).Contents (Elt F)),
    binary main_arg3 main_v5 main_v6 (addi : (⟨S4096x50, .i32⟩ : BufTy).Contents (Elt F) → (⟨S4096x50, .i32⟩ : BufTy).Contents (Elt F) → (⟨S4096x50, .i32⟩ : BufTy).Contents (Elt F)),
    ternary main_v4 main_v6 main_arg3 main_v7 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    unary main_v7 main_v8 (broadcastInDim S4096x50x1 ![0, 1] bcast_S4096x50_S4096x50x1_0_1 : (⟨S4096x50, .i32⟩ : BufTy).Contents (Elt F) → (⟨S4096x50x1, .i32⟩ : BufTy).Contents (Elt F)),
    binary main_v2 main_v8 main_v9 ((fun x i => Host.gather gather_S100001x128_S4096x50x1_S4096x50x128_2_0_n_n_0_2_1128 x i) : (⟨S100001x128, .f32⟩ : BufTy).Contents (Elt F) → (⟨S4096x50x1, .i32⟩ : BufTy).Contents (Elt F) → (⟨S4096x50x128, .f32⟩ : BufTy).Contents (Elt F)),
    nullary main_cst_1 (constant S_ .f32 0x00000000#32),
    binary main_v9 main_cst_1 main_v10 ((fun x v => Host.reduceAdd x v reducesTo_S4096x50x128_S4096x128_d1 h_S_) : (⟨S4096x50x128, .f32⟩ : BufTy).Contents (Elt F) → (⟨S_, .f32⟩ : BufTy).Contents (Elt F) → (⟨S4096x128, .f32⟩ : BufTy).Contents (Elt F)),
    unary main_arg4 main_v11 (broadcastInDim S4096x1 ![0] bcast_S4096_S4096x1_0 : (⟨S4096, .f32⟩ : BufTy).Contents (Elt F) → (⟨S4096x1, .f32⟩ : BufTy).Contents (Elt F)),
    unary main_v11 main_v12 (broadcastInDim S4096x128 ![0, 1] bcast_S4096x1_S4096x128_0_1 : (⟨S4096x1, .f32⟩ : BufTy).Contents (Elt F) → (⟨S4096x128, .f32⟩ : BufTy).Contents (Elt F)),
    binary main_v10 main_v12 main_v13 (Host.divf : (⟨S4096x128, .f32⟩ : BufTy).Contents (Elt F) → (⟨S4096x128, .f32⟩ : BufTy).Contents (Elt F) → (⟨S4096x128, .f32⟩ : BufTy).Contents (Elt F)) ]
/-- Segment C: the three products by `main_v0`. -/
abbrev opsC : List (HloOp τ sig (Elt F)) :=
  [ binary main_v0 main_v13 main_v14 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    binary main_v0 main_v14 main_v15 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    binary main_v0 main_v15 main_v16 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)) ]
/-- Segment D: a leading unit axis on each of the four matrices, and their join along it. -/
abbrev opsD : List (HloOp τ sig (Elt F)) :=
  [ unary main_v13 main_v17 (broadcastInDim S1x4096x128 ![1, 2] bcast_S4096x128_S1x4096x128_1_2 : (⟨S4096x128, .f32⟩ : BufTy).Contents (Elt F) → (⟨S1x4096x128, .f32⟩ : BufTy).Contents (Elt F)),
    unary main_v14 main_v18 (broadcastInDim S1x4096x128 ![1, 2] bcast_S4096x128_S1x4096x128_1_2 : (⟨S4096x128, .f32⟩ : BufTy).Contents (Elt F) → (⟨S1x4096x128, .f32⟩ : BufTy).Contents (Elt F)),
    unary main_v15 main_v19 (broadcastInDim S1x4096x128 ![1, 2] bcast_S4096x128_S1x4096x128_1_2 : (⟨S4096x128, .f32⟩ : BufTy).Contents (Elt F) → (⟨S1x4096x128, .f32⟩ : BufTy).Contents (Elt F)),
    unary main_v16 main_v20 (broadcastInDim S1x4096x128 ![1, 2] bcast_S4096x128_S1x4096x128_1_2 : (⟨S4096x128, .f32⟩ : BufTy).Contents (Elt F) → (⟨S1x4096x128, .f32⟩ : BufTy).Contents (Elt F)),
    nary ![main_v17, main_v18, main_v19, main_v20] main_v21 (fun u => concatenate S4x4096x128 0 [⟨S1x4096x128, u 0⟩, ⟨S1x4096x128, u 1⟩, ⟨S1x4096x128, u 2⟩, ⟨S1x4096x128, u 3⟩] concatenates_S1x4096x128_S1x4096x128_S1x4096x128_S1x4096x128_S4x4096x128_d0) ]
/-- Segment E: the sum along the joined axis, and the division by four. -/
abbrev opsE : List (HloOp τ sig (Elt F)) :=
  [ nullary main_cst_2 (constant S_ .f32 0x00000000#32),
    binary main_v21 main_cst_2 main_v22 ((fun x v => Host.reduceAdd x v reducesTo_S4x4096x128_S4096x128_d0 h_S_) : (⟨S4x4096x128, .f32⟩ : BufTy).Contents (Elt F) → (⟨S_, .f32⟩ : BufTy).Contents (Elt F) → (⟨S4096x128, .f32⟩ : BufTy).Contents (Elt F)),
    nullary main_cst_3 (constant S_ .f32 0x40800000#32),
    unary main_cst_3 main_v23 (broadcastInDim S4096x128 ![] bcast_S_S4096x128 : (⟨S_, .f32⟩ : BufTy).Contents (Elt F) → (⟨S4096x128, .f32⟩ : BufTy).Contents (Elt F)),
    binary main_v22 main_v23 main_v24 (Host.divf : (⟨S4096x128, .f32⟩ : BufTy).Contents (Elt F) → (⟨S4096x128, .f32⟩ : BufTy).Contents (Elt F) → (⟨S4096x128, .f32⟩ : BufTy).Contents (Elt F)) ]

theorem ops_split : (ops : List (HloOp τ sig (Elt F))) = opsA ++ opsB ++ opsC ++ opsD ++ opsE := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., unary_bufs_sub .., binary_bufs_sub .., binary_bufs_sub .., binary_bufs_sub .., binary_bufs_sub .., unary_bufs_sub .., unary_bufs_sub .., unary_bufs_sub .., unary_bufs_sub .., nary_bufs_sub .., nullary_bufs_sub .., binary_bufs_sub .., nullary_bufs_sub .., unary_bufs_sub .., binary_bufs_sub ..⟩

end Line

/-! ## Each segment at the ideal values, from an arbitrary valuation -/

section Segments

variable (V : Valuation τ sig (Elt Ideal))

theorem afterA_v0 : after (opsA (F := Ideal)) V (Proc.devRef (τ := τ) .tc main_v0)
    = (Host.dotGeneral (F := Ideal) (φ₁ := .f32) (φ₂ := .f32) dot_S4096x4096_S4096x4096_S4096x4096_1_0_0_1_n_n none (V (Proc.devRef (τ := τ) .tc main_arg0) : FVec Ideal S4096x4096 .f32) (V (Proc.devRef (τ := τ) .tc main_arg1) : FVec Ideal S4096x4096 .f32)) := by
  after_results_simp <;> rfl
theorem afterA_arg2 : after (opsA (F := Ideal)) V (Proc.devRef (τ := τ) .tc main_arg2) = V (Proc.devRef (τ := τ) .tc main_arg2) := by
  after_results_simp <;> rfl
theorem afterA_arg3 : after (opsA (F := Ideal)) V (Proc.devRef (τ := τ) .tc main_arg3) = V (Proc.devRef (τ := τ) .tc main_arg3) := by
  after_results_simp <;> rfl
theorem afterA_arg4 : after (opsA (F := Ideal)) V (Proc.devRef (τ := τ) .tc main_arg4) = V (Proc.devRef (τ := τ) .tc main_arg4) := by
  after_results_simp <;> rfl

theorem afterB_v13 : after (opsB (F := Ideal)) V (Proc.devRef (τ := τ) .tc main_v13)
    = Cert.Shared.pre (V (Proc.devRef (τ := τ) .tc main_arg2) : FVec Ideal S100000x128 .f32) (V (Proc.devRef (τ := τ) .tc main_arg3) : (⟨S4096x50, .i32⟩ : BufTy).Contents (Elt Ideal)) (V (Proc.devRef (τ := τ) .tc main_arg4) : FVec Ideal S4096 .f32) := by
  after_results_simp <;> rfl
theorem afterB_v0 : after (opsB (F := Ideal)) V (Proc.devRef (τ := τ) .tc main_v0) = V (Proc.devRef (τ := τ) .tc main_v0) := by
  after_results_simp <;> rfl

theorem afterC_v13 : after (opsC (F := Ideal)) V (Proc.devRef (τ := τ) .tc main_v13) = V (Proc.devRef (τ := τ) .tc main_v13) := by
  after_results_simp <;> rfl
theorem afterC_v14 : after (opsC (F := Ideal)) V (Proc.devRef (τ := τ) .tc main_v14)
    = (Host.dotGeneral (F := Ideal) (φ₁ := .f32) (φ₂ := .f32) dot_S4096x4096_S4096x128_S4096x128_1_0_0_1_n_n none (V (Proc.devRef (τ := τ) .tc main_v0) : FVec Ideal S4096x4096 .f32) (V (Proc.devRef (τ := τ) .tc main_v13) : FVec Ideal S4096x128 .f32)) := by
  after_results_simp <;> rfl
theorem afterC_v15 : after (opsC (F := Ideal)) V (Proc.devRef (τ := τ) .tc main_v15)
    = (Host.dotGeneral (F := Ideal) (φ₁ := .f32) (φ₂ := .f32) dot_S4096x4096_S4096x128_S4096x128_1_0_0_1_n_n none (V (Proc.devRef (τ := τ) .tc main_v0) : FVec Ideal S4096x4096 .f32) (Host.dotGeneral (F := Ideal) (φ₁ := .f32) (φ₂ := .f32) dot_S4096x4096_S4096x128_S4096x128_1_0_0_1_n_n none (V (Proc.devRef (τ := τ) .tc main_v0) : FVec Ideal S4096x4096 .f32) (V (Proc.devRef (τ := τ) .tc main_v13) : FVec Ideal S4096x128 .f32))) := by
  after_results_simp <;> rfl
theorem afterC_v16 : after (opsC (F := Ideal)) V (Proc.devRef (τ := τ) .tc main_v16)
    = (Host.dotGeneral (F := Ideal) (φ₁ := .f32) (φ₂ := .f32) dot_S4096x4096_S4096x128_S4096x128_1_0_0_1_n_n none (V (Proc.devRef (τ := τ) .tc main_v0) : FVec Ideal S4096x4096 .f32) (Host.dotGeneral (F := Ideal) (φ₁ := .f32) (φ₂ := .f32) dot_S4096x4096_S4096x128_S4096x128_1_0_0_1_n_n none (V (Proc.devRef (τ := τ) .tc main_v0) : FVec Ideal S4096x4096 .f32) (Host.dotGeneral (F := Ideal) (φ₁ := .f32) (φ₂ := .f32) dot_S4096x4096_S4096x128_S4096x128_1_0_0_1_n_n none (V (Proc.devRef (τ := τ) .tc main_v0) : FVec Ideal S4096x4096 .f32) (V (Proc.devRef (τ := τ) .tc main_v13) : FVec Ideal S4096x128 .f32)))) := by
  after_results_simp <;> rfl

theorem afterD_v21 : after (opsD (F := Ideal)) V (Proc.devRef (τ := τ) .tc main_v21)
    = concatenate S4x4096x128 0
        [⟨S1x4096x128, (broadcastInDim S1x4096x128 ![1, 2] bcast_S4096x128_S1x4096x128_1_2 (V (Proc.devRef (τ := τ) .tc main_v13) : FVec Ideal S4096x128 .f32))⟩,
         ⟨S1x4096x128, (broadcastInDim S1x4096x128 ![1, 2] bcast_S4096x128_S1x4096x128_1_2 (V (Proc.devRef (τ := τ) .tc main_v14) : FVec Ideal S4096x128 .f32))⟩,
         ⟨S1x4096x128, (broadcastInDim S1x4096x128 ![1, 2] bcast_S4096x128_S1x4096x128_1_2 (V (Proc.devRef (τ := τ) .tc main_v15) : FVec Ideal S4096x128 .f32))⟩,
         ⟨S1x4096x128, (broadcastInDim S1x4096x128 ![1, 2] bcast_S4096x128_S1x4096x128_1_2 (V (Proc.devRef (τ := τ) .tc main_v16) : FVec Ideal S4096x128 .f32))⟩]
        concatenates_S1x4096x128_S1x4096x128_S1x4096x128_S1x4096x128_S4x4096x128_d0 := by
  after_results_simp <;> rfl

theorem afterE_v24 : after (opsE (F := Ideal)) V (Proc.devRef (τ := τ) .tc main_v24)
    = Host.divf (F := Ideal) (φ := .f32)
        (Host.reduceAdd (F := Ideal) (φ := .f32) (V (Proc.devRef (τ := τ) .tc main_v21) : FVec Ideal S4x4096x128 .f32) (constant (F := Ideal) S_ .f32 0x00000000#32)
          reducesTo_S4x4096x128_S4096x128_d0 h_S_)
        (broadcastInDim S4096x128 ![] bcast_S_S4096x128 (constant (F := Ideal) S_ .f32 0x40800000#32)) := by
  after_results_simp <;> rfl

end Segments

/-! ## The two dimension records contract columns with rows -/

/-- The record of the product `D · A` contracts the columns of `D` with the rows of `A`. -/
theorem contracts_DA :
    Cert.Linear.Contracts (R := 4096) (K := 4096) (N := 4096) dot_S4096x4096_S4096x4096_S4096x4096_1_0_0_1_n_n where
  rank := rfl
  size := rfl
  lhs0 := fun i q => by
    unfold DotDims.lhsIdx
    rw [dif_neg (show ¬(0 : Fin S4096x4096.rank) ∈ dot_S4096x4096_S4096x4096_S4096x4096_1_0_0_1_n_n.lhsBatch by decide),
      dif_pos (show (0 : Fin S4096x4096.rank) ∈ dot_S4096x4096_S4096x4096_S4096x4096_1_0_0_1_n_n.lhsNonContracting by decide)]
    rfl
  lhs1 := fun i q => dot_S4096x4096_S4096x4096_S4096x4096_1_0_0_1_n_n.lhsIdx_val_of_single rfl i q
  rhs0 := fun i q => dot_S4096x4096_S4096x4096_S4096x4096_1_0_0_1_n_n.rhsIdx_val_of_single rfl i q
  rhs1 := fun i q => by
    unfold DotDims.rhsIdx
    rw [dif_neg (show ¬(1 : Fin S4096x4096.rank) ∈ dot_S4096x4096_S4096x4096_S4096x4096_1_0_0_1_n_n.rhsBatch by decide),
      dif_pos (show (1 : Fin S4096x4096.rank) ∈ dot_S4096x4096_S4096x4096_S4096x4096_1_0_0_1_n_n.rhsNonContracting by decide)]
    rfl

/-- The record of the products `DA · y` contracts the columns of `DA` with the rows of `y`. -/
theorem contracts_DAy :
    Cert.Linear.Contracts (R := 4096) (K := 4096) (N := 128) dot_S4096x4096_S4096x128_S4096x128_1_0_0_1_n_n where
  rank := rfl
  size := rfl
  lhs0 := fun i q => by
    unfold DotDims.lhsIdx
    rw [dif_neg (show ¬(0 : Fin S4096x4096.rank) ∈ dot_S4096x4096_S4096x128_S4096x128_1_0_0_1_n_n.lhsBatch by decide),
      dif_pos (show (0 : Fin S4096x4096.rank) ∈ dot_S4096x4096_S4096x128_S4096x128_1_0_0_1_n_n.lhsNonContracting by decide)]
    rfl
  lhs1 := fun i q => dot_S4096x4096_S4096x128_S4096x128_1_0_0_1_n_n.lhsIdx_val_of_single rfl i q
  rhs0 := fun i q => dot_S4096x4096_S4096x128_S4096x128_1_0_0_1_n_n.rhsIdx_val_of_single rfl i q
  rhs1 := fun i q => by
    unfold DotDims.rhsIdx
    rw [dif_neg (show ¬(1 : Fin S4096x128.rank) ∈ dot_S4096x4096_S4096x128_S4096x128_1_0_0_1_n_n.rhsBatch by decide),
      dif_pos (show (1 : Fin S4096x128.rank) ∈ dot_S4096x4096_S4096x128_S4096x128_1_0_0_1_n_n.rhsNonContracting by decide)]
    rfl

/-- The reference's result with the host's products: the mean of `s0` and its three iterates under `D · A`. -/
def hostOut (D A : FVec Ideal S4096x4096 .f32) (s0 : FVec Ideal S4096x128 .f32) : FVec Ideal S4096x128 .f32 :=
  Cert.Shared.tail s0 (Host.dotGeneral (F := Ideal) (φ₁ := .f32) (φ₂ := .f32) dot_S4096x4096_S4096x128_S4096x128_1_0_0_1_n_n none (Host.dotGeneral (F := Ideal) (φ₁ := .f32) (φ₂ := .f32) dot_S4096x4096_S4096x4096_S4096x4096_1_0_0_1_n_n none D A) s0)
    (Host.dotGeneral (F := Ideal) (φ₁ := .f32) (φ₂ := .f32) dot_S4096x4096_S4096x128_S4096x128_1_0_0_1_n_n none (Host.dotGeneral (F := Ideal) (φ₁ := .f32) (φ₂ := .f32) dot_S4096x4096_S4096x4096_S4096x4096_1_0_0_1_n_n none D A) (Host.dotGeneral (F := Ideal) (φ₁ := .f32) (φ₂ := .f32) dot_S4096x4096_S4096x128_S4096x128_1_0_0_1_n_n none (Host.dotGeneral (F := Ideal) (φ₁ := .f32) (φ₂ := .f32) dot_S4096x4096_S4096x4096_S4096x4096_1_0_0_1_n_n none D A) s0))
    (Host.dotGeneral (F := Ideal) (φ₁ := .f32) (φ₂ := .f32) dot_S4096x4096_S4096x128_S4096x128_1_0_0_1_n_n none (Host.dotGeneral (F := Ideal) (φ₁ := .f32) (φ₂ := .f32) dot_S4096x4096_S4096x4096_S4096x4096_1_0_0_1_n_n none D A) (Host.dotGeneral (F := Ideal) (φ₁ := .f32) (φ₂ := .f32) dot_S4096x4096_S4096x128_S4096x128_1_0_0_1_n_n none (Host.dotGeneral (F := Ideal) (φ₁ := .f32) (φ₂ := .f32) dot_S4096x4096_S4096x4096_S4096x4096_1_0_0_1_n_n none D A) (Host.dotGeneral (F := Ideal) (φ₁ := .f32) (φ₂ := .f32) dot_S4096x4096_S4096x128_S4096x128_1_0_0_1_n_n none (Host.dotGeneral (F := Ideal) (φ₁ := .f32) (φ₂ := .f32) dot_S4096x4096_S4096x4096_S4096x4096_1_0_0_1_n_n none D A) s0)))

/-- With the mean embeddings `s0` and the final mean kept as single functions, the reference's four host products
    are the plain matrix products. -/
theorem hostOut_eq (D A : FVec Ideal S4096x4096 .f32) (s0 : FVec Ideal S4096x128 .f32) :
    hostOut D A s0
      = Cert.Shared.tail s0 (Cert.Linear.matProd (R := 4096) (K := 4096) (N := 128) (Cert.Linear.matProd (R := 4096) (K := 4096) (N := 4096) D A) s0)
          (Cert.Linear.matProd (R := 4096) (K := 4096) (N := 128) (Cert.Linear.matProd (R := 4096) (K := 4096) (N := 4096) D A) (Cert.Linear.matProd (R := 4096) (K := 4096) (N := 128) (Cert.Linear.matProd (R := 4096) (K := 4096) (N := 4096) D A) s0))
          (Cert.Linear.matProd (R := 4096) (K := 4096) (N := 128) (Cert.Linear.matProd (R := 4096) (K := 4096) (N := 4096) D A) (Cert.Linear.matProd (R := 4096) (K := 4096) (N := 128) (Cert.Linear.matProd (R := 4096) (K := 4096) (N := 4096) D A) (Cert.Linear.matProd (R := 4096) (K := 4096) (N := 128) (Cert.Linear.matProd (R := 4096) (K := 4096) (N := 4096) D A) s0))) := by
  have hDA : (Host.dotGeneral (F := Ideal) (φ₁ := .f32) (φ₂ := .f32) dot_S4096x4096_S4096x4096_S4096x4096_1_0_0_1_n_n none D A) = (Cert.Linear.matProd (R := 4096) (K := 4096) (N := 4096) D A) :=
    Cert.Linear.dotGeneral_eq contracts_DA none .single D A
  have hy : ∀ (X : FVec Ideal S4096x4096 .f32) (W : FVec Ideal S4096x128 .f32),
      (Host.dotGeneral (F := Ideal) (φ₁ := .f32) (φ₂ := .f32) dot_S4096x4096_S4096x128_S4096x128_1_0_0_1_n_n none X W) = (Cert.Linear.matProd (R := 4096) (K := 4096) (N := 128) X W) :=
    fun X W => Cert.Linear.dotGeneral_eq contracts_DAy none .single X W
  unfold hostOut
  rw [hDA]
  generalize (Cert.Linear.matProd (R := 4096) (K := 4096) (N := 4096) D A) = DA
  rw [hy DA s0]
  generalize (Cert.Linear.matProd (R := 4096) (K := 4096) (N := 128) DA s0) = y1
  rw [hy DA y1]
  generalize (Cert.Linear.matProd (R := 4096) (K := 4096) (N := 128) DA y1) = y2
  rw [hy DA y2]

/-! ## The whole line -/

/-- The reference's result from the launch contents `m` on device `c`: the mean of `s0`, `DA·s0`, `DA·(DA·s0)`,
    `DA·(DA·(DA·s0))`, where `s0` is the mean session embeddings and `DA = D · A`, the products plain matrix products. -/
def refOut (m : (ℓ : Loc nD τ sig) → Buf (Elt Ideal) ℓ) (c : Dev nD) : FVec Ideal S4096x128 .f32 :=
  Cert.Shared.tail (Cert.Shared.pre (m ((c.tc : Thread nD τ).loc main_arg2)) (m ((c.tc : Thread nD τ).loc main_arg3)) (m ((c.tc : Thread nD τ).loc main_arg4)))
    (Cert.Linear.matProd (R := 4096) (K := 4096) (N := 128) (Cert.Linear.matProd (R := 4096) (K := 4096) (N := 4096) (m ((c.tc : Thread nD τ).loc main_arg0)) (m ((c.tc : Thread nD τ).loc main_arg1))) (Cert.Shared.pre (m ((c.tc : Thread nD τ).loc main_arg2)) (m ((c.tc : Thread nD τ).loc main_arg3)) (m ((c.tc : Thread nD τ).loc main_arg4))))
    (Cert.Linear.matProd (R := 4096) (K := 4096) (N := 128) (Cert.Linear.matProd (R := 4096) (K := 4096) (N := 4096) (m ((c.tc : Thread nD τ).loc main_arg0)) (m ((c.tc : Thread nD τ).loc main_arg1))) (Cert.Linear.matProd (R := 4096) (K := 4096) (N := 128) (Cert.Linear.matProd (R := 4096) (K := 4096) (N := 4096) (m ((c.tc : Thread nD τ).loc main_arg0)) (m ((c.tc : Thread nD τ).loc main_arg1))) (Cert.Shared.pre (m ((c.tc : Thread nD τ).loc main_arg2)) (m ((c.tc : Thread nD τ).loc main_arg3)) (m ((c.tc : Thread nD τ).loc main_arg4)))))
    (Cert.Linear.matProd (R := 4096) (K := 4096) (N := 128) (Cert.Linear.matProd (R := 4096) (K := 4096) (N := 4096) (m ((c.tc : Thread nD τ).loc main_arg0)) (m ((c.tc : Thread nD τ).loc main_arg1))) (Cert.Linear.matProd (R := 4096) (K := 4096) (N := 128) (Cert.Linear.matProd (R := 4096) (K := 4096) (N := 4096) (m ((c.tc : Thread nD τ).loc main_arg0)) (m ((c.tc : Thread nD τ).loc main_arg1))) (Cert.Linear.matProd (R := 4096) (K := 4096) (N := 128) (Cert.Linear.matProd (R := 4096) (K := 4096) (N := 4096) (m ((c.tc : Thread nD τ).loc main_arg0)) (m ((c.tc : Thread nD τ).loc main_arg1))) (Cert.Shared.pre (m ((c.tc : Thread nD τ).loc main_arg2)) (m ((c.tc : Thread nD τ).loc main_arg3)) (m ((c.tc : Thread nD τ).loc main_arg4))))))

/-- After the whole line, from ANY valuation, the result buffer holds the mean of the four iterates, the products
    still the host's. -/
theorem after_ops_v24 (V : Valuation τ sig (Elt Ideal)) :
    after (ops (F := Ideal)) V (Proc.devRef (τ := τ) .tc main_v24)
      = hostOut (V (Proc.devRef (τ := τ) .tc main_arg0) : FVec Ideal S4096x4096 .f32) (V (Proc.devRef (τ := τ) .tc main_arg1) : FVec Ideal S4096x4096 .f32)
          (Cert.Shared.pre (V (Proc.devRef (τ := τ) .tc main_arg2) : FVec Ideal S100000x128 .f32) (V (Proc.devRef (τ := τ) .tc main_arg3) : (⟨S4096x50, .i32⟩ : BufTy).Contents (Elt Ideal)) (V (Proc.devRef (τ := τ) .tc main_arg4) : FVec Ideal S4096 .f32)) := by
  rw [ops_split, StableHlo.after_append, StableHlo.after_append, StableHlo.after_append, StableHlo.after_append]
  have a0 := afterA_v0 V
  have a2 := afterA_arg2 V
  have a3 := afterA_arg3 V
  have a4 := afterA_arg4 V
  generalize after (opsA (F := Ideal)) V = V1 at a0 a2 a3 a4 ⊢
  have b13 := afterB_v13 V1
  have b0 := afterB_v0 V1
  rw [a2, a3, a4] at b13
  rw [a0] at b0
  generalize after (opsB (F := Ideal)) V1 = V2 at b13 b0 ⊢
  have c13 := afterC_v13 V2
  have c14 := afterC_v14 V2
  have c15 := afterC_v15 V2
  have c16 := afterC_v16 V2
  rw [b13] at c13
  rw [b0, b13] at c14 c15 c16
  generalize after (opsC (F := Ideal)) V2 = V3 at c13 c14 c15 c16 ⊢
  have d21 := afterD_v21 V3
  rw [c13, c14, c15, c16] at d21
  generalize after (opsD (F := Ideal)) V3 = V4 at d21 ⊢
  rw [afterE_v24 V4, d21]
  rfl

/-- On every device, from any memory with zero counters: every weakly fair execution of the reference terminates
    with its result buffer at `refOut` of the launch contents and the five arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c main_v24).trans (after_ops_v24 (launchContents m c))).trans
        (hostOut_eq (m ((c.tc : Thread nD τ).loc main_arg0)) (m ((c.tc : Thread nD τ).loc main_arg1)) (Cert.Shared.pre (m ((c.tc : Thread nD τ).loc main_arg2)) (m ((c.tc : Thread nD τ).loc main_arg3)) (m ((c.tc : Thread nD τ).loc main_arg4)))),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.RefSide

end
-- ==== Proof.lean ====
/-
  The claim: the kernel program, its idealization and the idealized reference each run to the end and leave their
  argument arrays unchanged; the idealization changes no operation; and the idealized kernel program and the
  idealized reference end with the same result array.

  Both programs pool the session embeddings s0 (a gather from the embedding table with a zero row in front, summed
  over each session and divided by the session's length) with the same host operations, and both end with the same
  host operations, the mean of s0, y1, y2, y3.  In between the reference takes DA = D·A, y1 = DA·s0, y2 = DA·y1,
  y3 = DA·y2 as four whole matrix products; the kernel program computes each in a Pallas call that cuts the
  contracted axis into four blocks of 1024 and accumulates the blocks' partial products in a scratch buffer, reset
  at the first block and copied out at the last.  Over the extended reals a change of float format is the identity,
  so an entry of a blocked product is the same finite sum of the same terms as the entry of the whole product,
  grouped into four consecutive runs: equal by associativity and commutativity of the addition alone, with no
  finiteness assumption.
-/
import proofs.«123347_j77695958385169_1_alg».proof.Defs
import proofs.«123347_j77695958385169_1_alg».proof.Proof.Gen.Kernel
import proofs.«123347_j77695958385169_1_alg».proof.Proof.Gen.KernelIdeal
import proofs.«123347_j77695958385169_1_alg».proof.Proof.Gen.ReferenceIdeal
import proofs.«123347_j77695958385169_1_alg».proof.Proof.Gen.Pre_finite_inputs
import proofs.«123347_j77695958385169_1_alg».proof.Proof.Bits.Frame
import proofs.«123347_j77695958385169_1_alg».proof.Proof.Ideal.Assemble
import proofs.«123347_j77695958385169_1_alg».proof.Proof.RefRun
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.RefSide.ref_run m ρ)

/-- Both runs end with the reference's function of the (agreeing) arguments in the result buffer. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.RefSide.refOut m' c, ?_, Cert.RefSide.ref_run m' ρ'⟩
  refine (θ_run Cert.KernelIdeal.defs _ _).mono (fun r h c => ⟨?_, ?_, ?_, ?_, ?_, ?_⟩) (Cert.KernelIdeal.Hand.run_all (F := Ideal) m ρ)
  · refine (h c _ (Cert.KernelIdeal.Hand.mem_uc Cert.KernelIdeal.main_v24 (by decide))).trans ?_
    rw [Cert.KernelIdeal.Hand.result_eq, Cert.KernelIdeal.Hand.y3_eq, Cert.KernelIdeal.Hand.y2_eq, Cert.KernelIdeal.Hand.y1_eq,
      Cert.KernelIdeal.Hand.DA_eq, Cert.KernelIdeal.Hand.s0_eq]
    show _ = Cert.RefSide.refOut m' c
    unfold Cert.RefSide.refOut
    rw [(hagree c).1, (hagree c).2.1, (hagree c).2.2.1, (hagree c).2.2.2.1, (hagree c).2.2.2.2]
  · exact (h c _ (Cert.KernelIdeal.Hand.mem_uc Cert.KernelIdeal.main_arg0 (by decide))).trans (Cert.KernelIdeal.Hand.W6_untouched m ρ c _ (by decide) (by decide) (by decide) (by decide) (by decide) (by decide))
  · exact (h c _ (Cert.KernelIdeal.Hand.mem_uc Cert.KernelIdeal.main_arg1 (by decide))).trans (Cert.KernelIdeal.Hand.W6_untouched m ρ c _ (by decide) (by decide) (by decide) (by decide) (by decide) (by decide))
  · exact (h c _ (Cert.KernelIdeal.Hand.mem_uc Cert.KernelIdeal.main_arg2 (by decide))).trans (Cert.KernelIdeal.Hand.W6_untouched m ρ c _ (by decide) (by decide) (by decide) (by decide) (by decide) (by decide))
  · exact (h c _ (Cert.KernelIdeal.Hand.mem_uc Cert.KernelIdeal.main_arg3 (by decide))).trans (Cert.KernelIdeal.Hand.W6_untouched m ρ c _ (by decide) (by decide) (by decide) (by decide) (by decide) (by decide))
  · exact (h c _ (Cert.KernelIdeal.Hand.mem_uc Cert.KernelIdeal.main_arg4 (by decide))).trans (Cert.KernelIdeal.Hand.W6_untouched m ρ c _ (by decide) (by decide) (by decide) (by decide) (by decide) (by decide))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
